-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S2x1x1 : Shape := ⟨3, ![2, 1, 1]⟩
abbrev S128x7x7x30 : Shape := ⟨4, ![128, 7, 7, 30]⟩
abbrev S128x7x7 : Shape := ⟨3, ![128, 7, 7]⟩
abbrev S1x1x1 : Shape := ⟨3, ![1, 1, 1]⟩
abbrev S128x7x7x1 : Shape := ⟨4, ![128, 7, 7, 1]⟩
abbrev S128x7x7x4 : Shape := ⟨4, ![128, 7, 7, 4]⟩
abbrev S128x7x7x2 : Shape := ⟨4, ![128, 7, 7, 2]⟩
abbrev S128x7x7x20 : Shape := ⟨4, ![128, 7, 7, 20]⟩
abbrev S128x7 : Shape := ⟨2, ![128, 7]⟩
abbrev S128x7x1 : Shape := ⟨3, ![128, 7, 1]⟩
abbrev S128x1 : Shape := ⟨2, ![128, 1]⟩
abbrev S128x1x1 : Shape := ⟨3, ![128, 1, 1]⟩
abbrev S1x1 : Shape := ⟨2, ![1, 1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S16384x7x7x1, .f32⟩
  | .hbm, ⟨3, _⟩ => ⟨S16384x7x7, .f32⟩
  | .hbm, ⟨4, _⟩ => ⟨S16384x7x7, .f32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S128x7x7x30, .f32⟩
  | .local _ .vmem, ⟨1, _⟩ => ⟨S128x7x7x30, .f32⟩
  | .local _ .vmem, ⟨2, _⟩ => ⟨S128x7x7x30, .f32⟩
  | .local _ .vmem, ⟨3, _⟩ => ⟨S128x7x7x30, .f32⟩
  | .local _ .vmem, ⟨4, _⟩ => ⟨S128x7x7, .f32⟩
  | .local _ .vmem, ⟨5, _⟩ => ⟨S128x7x7, .f32⟩
  | .local _ .vmem, ⟨6, _⟩ => ⟨S1x1x1, .f32⟩
  | .local _ .vmem, ⟨7, _⟩ => ⟨S1x1x1, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x7x7x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x7x7x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x7x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S16384x7x7x30_S16384x7x7x1_0_0_0_0 : S16384x7x7x30.Slices ![0, 0, 0, 0] S16384x7x7x1
  shapeCasts_S16384x7x7x1_S16384x7x7 : S16384x7x7x1.ShapeCasts S16384x7x7
  transposes_S16384x7x7_S16384x7x7_0_2_1 : S16384x7x7.Transposes [0, 2, 1] S16384x7x7
  inb_S1x1x1_S1x1x1_0_0_0 : ∀ a, (![0, 0, 0] : Fin 3 → Nat) a + S1x1x1.size a ≤ S1x1x1.size a
  h_S1x1x1 : 0 < S1x1x1.numel
  inb_S128x7x7x30_S128x7x7x30_0_0_0_0 : ∀ a, (![0, 0, 0, 0] : Fin 4 → Nat) a + S128x7x7x30.size a ≤ S128x7x7x30.size a
  h_S128x7x7x30 : 0 < S128x7x7x30.numel
  inb_S128x7x7_S128x7x7_0_0_0 : ∀ a, (![0, 0, 0] : Fin 3 → Nat) a + S128x7x7.size a ≤ S128x7x7.size a
  h_S128x7x7 : 0 < S128x7x7.numel
  shapeCasts_S128x7x7_S128x7x7 : S128x7x7.ShapeCasts S128x7x7
  slices_S128x7x7x30_o0_0_0_1_S128x7x7x1 : S128x7x7x30.Slices ![0, 0, 0, 1] S128x7x7x1
  shapeCasts_S128x7x7x1_S128x7x7 : S128x7x7x1.ShapeCasts S128x7x7
  slices_S128x7x7x30_o0_0_0_2_S128x7x7x1 : S128x7x7x30.Slices ![0, 0, 0, 2] S128x7x7x1
  slices_S128x7x7x30_o0_0_0_3_S128x7x7x1 : S128x7x7x30.Slices ![0, 0, 0, 3] S128x7x7x1
  shapeCasts_S128x7x7_S128x7x7x1 : S128x7x7.ShapeCasts S128x7x7x1
  concatenates_S128x7x7x1_S128x7x7x1_S128x7x7x1_S128x7x7x1_S128x7x7x4_d3 : Shape.Concatenates [S128x7x7x1, S128x7x7x1, S128x7x7x1, S128x7x7x1] S128x7x7x4 3
  slices_S128x7x7x30_o0_0_0_0_S128x7x7x4 : S128x7x7x30.Slices ![0, 0, 0, 0] S128x7x7x4
  slices_S128x7x7x4_o0_0_0_0_S128x7x7x2 : S128x7x7x4.Slices ![0, 0, 0, 0] S128x7x7x2
  slices_S128x7x7x4_o0_0_0_2_S128x7x7x2 : S128x7x7x4.Slices ![0, 0, 0, 2] S128x7x7x2
  slices_S128x7x7x2_o0_0_0_0_S128x7x7x1 : S128x7x7x2.Slices ![0, 0, 0, 0] S128x7x7x1
  slices_S128x7x7x2_o0_0_0_1_S128x7x7x1 : S128x7x7x2.Slices ![0, 0, 0, 1] S128x7x7x1
  slices_S128x7x7x4_o0_0_0_2_S128x7x7x1 : S128x7x7x4.Slices ![0, 0, 0, 2] S128x7x7x1
  slices_S128x7x7x4_o0_0_0_3_S128x7x7x1 : S128x7x7x4.Slices ![0, 0, 0, 3] S128x7x7x1
  slices_S128x7x7x30_o0_0_0_5_S128x7x7x4 : S128x7x7x30.Slices ![0, 0, 0, 5] S128x7x7x4
  slices_S128x7x7x30_o0_0_0_0_S128x7x7x2 : S128x7x7x30.Slices ![0, 0, 0, 0] S128x7x7x2
  reduces_S128x7x7x2_S128x7x7 : S128x7x7x2.Reduces [3] S128x7x7
  slices_S128x7x7x30_o0_0_0_2_S128x7x7x2 : S128x7x7x30.Slices ![0, 0, 0, 2] S128x7x7x2
  slices_S128x7x7x30_o0_0_0_4_S128x7x7x1 : S128x7x7x30.Slices ![0, 0, 0, 4] S128x7x7x1
  slices_S128x7x7x30_o0_0_0_9_S128x7x7x1 : S128x7x7x30.Slices ![0, 0, 0, 9] S128x7x7x1
  slices_S128x7x7x30_o0_0_0_5_S128x7x7x2 : S128x7x7x30.Slices ![0, 0, 0, 5] S128x7x7x2
  slices_S128x7x7x30_o0_0_0_7_S128x7x7x2 : S128x7x7x30.Slices ![0, 0, 0, 7] S128x7x7x2
  slices_S128x7x7x30_o0_0_0_10_S128x7x7x20 : S128x7x7x30.Slices ![0, 0, 0, 10] S128x7x7x20
  reduces_S128x7x7x20_S128x7x7 : S128x7x7x20.Reduces [3] S128x7x7
  reduces_S128x7x7_S128x7 : S128x7x7.Reduces [2] S128x7
  shapeCasts_S128x7_S128x7x1 : S128x7.ShapeCasts S128x7x1
  reduces_S128x7x1_S128x1 : S128x7x1.Reduces [1] S128x1
  shapeCasts_S128x1_S128x1x1 : S128x1.ShapeCasts S128x1x1
  reduces_S128x1x1_S1x1 : S128x1x1.Reduces [0] S1x1
  shapeCasts_S1x1_S1x1x1 : S1x1.ShapeCasts S1x1x1
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x7x7x30.size a ≤ S16384x7x7x30.size a
  hwx0_0 : ∀ i : grid0.Coords, EltTy.bits .f32 = 32 ∨ (Rect.block (s := S16384x7x7x30) S128x7x7x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x7x7x30.size a ≤ S16384x7x7x30.size a
  hwx0_1 : ∀ i : grid0.Coords, EltTy.bits .f32 = 32 ∨ (Rect.block (s := S16384x7x7x30) S128x7x7x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x7x7.size a ≤ S16384x7x7.size a
  hwx0_2 : ∀ i : grid0.Coords, EltTy.bits .f32 = 32 ∨ (Rect.block (s := S16384x7x7) S128x7x7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S128x7x7x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x7x7x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x7x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S_ : Shape := ⟨0, ![]⟩
abbrev S16384x7x7x4 : Shape := ⟨4, ![16384, 7, 7, 4]⟩
abbrev S16384x7x7x2 : Shape := ⟨4, ![16384, 7, 7, 2]⟩
abbrev S16384x7x7x20 : Shape := ⟨4, ![16384, 7, 7, 20]⟩

abbrev nBuf : Space → Nat
  | .hbm => 211
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x7x7x1, .f32⟩
  | 3 => ⟨S16384x7x7, .f32⟩
  | 4 => ⟨S_, .f32⟩
  | 5 => ⟨S16384x7x7, .f32⟩
  | 6 => ⟨S16384x7x7, .i1⟩
  | 7 => ⟨S16384x7x7x1, .f32⟩
  | 8 => ⟨S16384x7x7, .f32⟩
  | 9 => ⟨S16384x7x7, .f32⟩
  | 10 => ⟨S16384x7x7x1, .f32⟩
  | 11 => ⟨S16384x7x7, .f32⟩
  | 12 => ⟨S16384x7x7x1, .f32⟩
  | 13 => ⟨S16384x7x7, .f32⟩
  | 14 => ⟨S16384x7x7x1, .f32⟩
  | 15 => ⟨S16384x7x7, .f32⟩
  | 16 => ⟨S16384x7x7x1, .f32⟩
  | 17 => ⟨S16384x7x7x1, .f32⟩
  | 18 => ⟨S16384x7x7x1, .f32⟩
  | 19 => ⟨S16384x7x7x1, .f32⟩
  | 20 => ⟨S16384x7x7x4, .f32⟩
  | 21 => ⟨S16384x7x7x4, .f32⟩
  | 22 => ⟨S16384x7x7x2, .f32⟩
  | 23 => ⟨S16384x7x7x2, .f32⟩
  | 24 => ⟨S_, .f32⟩
  | 25 => ⟨S16384x7x7x2, .f32⟩
  | 26 => ⟨S16384x7x7x2, .f32⟩
  | 27 => ⟨S16384x7x7x2, .f32⟩
  | 28 => ⟨S16384x7x7x2, .f32⟩
  | 29 => ⟨S16384x7x7x2, .f32⟩
  | 30 => ⟨S_, .f32⟩
  | 31 => ⟨S16384x7x7x2, .f32⟩
  | 32 => ⟨S16384x7x7x2, .f32⟩
  | 33 => ⟨S16384x7x7x2, .f32⟩
  | 34 => ⟨S16384x7x7x2, .f32⟩
  | 35 => ⟨S16384x7x7x2, .f32⟩
  | 36 => ⟨S_, .f32⟩
  | 37 => ⟨S16384x7x7x2, .f32⟩
  | 38 => ⟨S16384x7x7x2, .f32⟩
  | 39 => ⟨S16384x7x7x2, .f32⟩
  | 40 => ⟨S16384x7x7x2, .f32⟩
  | 41 => ⟨S16384x7x7x2, .f32⟩
  | 42 => ⟨S_, .f32⟩
  | 43 => ⟨S16384x7x7x2, .f32⟩
  | 44 => ⟨S16384x7x7x2, .f32⟩
  | 45 => ⟨S16384x7x7x2, .f32⟩
  | 46 => ⟨S16384x7x7x2, .f32⟩
  | 47 => ⟨S16384x7x7x2, .f32⟩
  | 48 => ⟨S16384x7x7x2, .f32⟩
  | 49 => ⟨S_, .f32⟩
  | 50 => ⟨S_, .f32⟩
  | 51 => ⟨S16384x7x7x2, .f32⟩
  | 52 => ⟨S16384x7x7x2, .f32⟩
  | 53 => ⟨S16384x7x7x1, .f32⟩
  | 54 => ⟨S16384x7x7, .f32⟩
  | 55 => ⟨S16384x7x7x1, .f32⟩
  | 56 => ⟨S16384x7x7, .f32⟩
  | 57 => ⟨S16384x7x7, .f32⟩
  | 58 => ⟨S16384x7x7x1, .f32⟩
  | 59 => ⟨S16384x7x7, .f32⟩
  | 60 => ⟨S16384x7x7x1, .f32⟩
  | 61 => ⟨S16384x7x7, .f32⟩
  | 62 => ⟨S16384x7x7, .f32⟩
  | 63 => ⟨S16384x7x7x1, .f32⟩
  | 64 => ⟨S16384x7x7, .f32⟩
  | 65 => ⟨S16384x7x7x1, .f32⟩
  | 66 => ⟨S16384x7x7, .f32⟩
  | 67 => ⟨S16384x7x7, .f32⟩
  | 68 => ⟨S16384x7x7, .f32⟩
  | 69 => ⟨S16384x7x7, .f32⟩
  | 70 => ⟨S_, .f32⟩
  | 71 => ⟨S16384x7x7, .f32⟩
  | 72 => ⟨S16384x7x7, .f32⟩
  | 73 => ⟨S16384x7x7, .f32⟩
  | 74 => ⟨S16384x7x7x4, .f32⟩
  | 75 => ⟨S16384x7x7x2, .f32⟩
  | 76 => ⟨S16384x7x7x2, .f32⟩
  | 77 => ⟨S_, .f32⟩
  | 78 => ⟨S16384x7x7x2, .f32⟩
  | 79 => ⟨S16384x7x7x2, .f32⟩
  | 80 => ⟨S16384x7x7x2, .f32⟩
  | 81 => ⟨S16384x7x7x2, .f32⟩
  | 82 => ⟨S16384x7x7x2, .f32⟩
  | 83 => ⟨S_, .f32⟩
  | 84 => ⟨S16384x7x7x2, .f32⟩
  | 85 => ⟨S16384x7x7x2, .f32⟩
  | 86 => ⟨S16384x7x7x2, .f32⟩
  | 87 => ⟨S16384x7x7x2, .f32⟩
  | 88 => ⟨S16384x7x7x2, .f32⟩
  | 89 => ⟨S_, .f32⟩
  | 90 => ⟨S16384x7x7x2, .f32⟩
  | 91 => ⟨S16384x7x7x2, .f32⟩
  | 92 => ⟨S16384x7x7x2, .f32⟩
  | 93 => ⟨S16384x7x7x2, .f32⟩
  | 94 => ⟨S16384x7x7x2, .f32⟩
  | 95 => ⟨S_, .f32⟩
  | 96 => ⟨S16384x7x7x2, .f32⟩
  | 97 => ⟨S16384x7x7x2, .f32⟩
  | 98 => ⟨S16384x7x7x2, .f32⟩
  | 99 => ⟨S16384x7x7x2, .f32⟩
  | 100 => ⟨S16384x7x7x2, .f32⟩
  | 101 => ⟨S16384x7x7x2, .f32⟩
  | 102 => ⟨S_, .f32⟩
  | 103 => ⟨S_, .f32⟩
  | 104 => ⟨S16384x7x7x2, .f32⟩
  | 105 => ⟨S16384x7x7x2, .f32⟩
  | 106 => ⟨S16384x7x7x1, .f32⟩
  | 107 => ⟨S16384x7x7, .f32⟩
  | 108 => ⟨S16384x7x7x1, .f32⟩
  | 109 => ⟨S16384x7x7, .f32⟩
  | 110 => ⟨S16384x7x7, .f32⟩
  | 111 => ⟨S16384x7x7x1, .f32⟩
  | 112 => ⟨S16384x7x7, .f32⟩
  | 113 => ⟨S16384x7x7x1, .f32⟩
  | 114 => ⟨S16384x7x7, .f32⟩
  | 115 => ⟨S16384x7x7, .f32⟩
  | 116 => ⟨S16384x7x7x1, .f32⟩
  | 117 => ⟨S16384x7x7, .f32⟩
  | 118 => ⟨S16384x7x7x1, .f32⟩
  | 119 => ⟨S16384x7x7, .f32⟩
  | 120 => ⟨S16384x7x7, .f32⟩
  | 121 => ⟨S16384x7x7, .f32⟩
  | 122 => ⟨S16384x7x7, .f32⟩
  | 123 => ⟨S_, .f32⟩
  | 124 => ⟨S16384x7x7, .f32⟩
  | 125 => ⟨S16384x7x7, .f32⟩
  | 126 => ⟨S16384x7x7, .f32⟩
  | 127 => ⟨S16384x7x7, .i1⟩
  | _ => ⟨S16384x7x7x30, .f32⟩

abbrev hbmTy0_1 (i : Nat) : BufTy := match i % 128 with
  | 0 => ⟨S16384x7x7x2, .f32⟩
  | 1 => ⟨S16384x7x7x2, .f32⟩
  | 2 => ⟨S16384x7x7x2, .f32⟩
  | 3 => ⟨S16384x7x7x2, .f32⟩
  | 4 => ⟨S_, .f32⟩
  | 5 => ⟨S16384x7x7, .f32⟩
  | 6 => ⟨S_, .f32⟩
  | 7 => ⟨S16384x7x7, .f32⟩
  | 8 => ⟨S16384x7x7, .f32⟩
  | 9 => ⟨S16384x7x7x2, .f32⟩
  | 10 => ⟨S16384x7x7x2, .f32⟩
  | 11 => ⟨S16384x7x7x2, .f32⟩
  | 12 => ⟨S16384x7x7x2, .f32⟩
  | 13 => ⟨S16384x7x7x2, .f32⟩
  | 14 => ⟨S16384x7x7x2, .f32⟩
  | 15 => ⟨S_, .f32⟩
  | 16 => ⟨S16384x7x7, .f32⟩
  | 17 => ⟨S16384x7x7, .f32⟩
  | 18 => ⟨S16384x7x7x1, .f32⟩
  | 19 => ⟨S16384x7x7, .f32⟩
  | 20 => ⟨S16384x7x7, .f32⟩
  | 21 => ⟨S16384x7x7, .f32⟩
  | 22 => ⟨S16384x7x7, .f32⟩
  | 23 => ⟨S16384x7x7x1, .f32⟩
  | 24 => ⟨S16384x7x7, .f32⟩
  | 25 => ⟨S16384x7x7, .f32⟩
  | 26 => ⟨S_, .f32⟩
  | 27 => ⟨S16384x7x7, .f32⟩
  | 28 => ⟨S16384x7x7, .f32⟩
  | 29 => ⟨S16384x7x7, .f32⟩
  | 30 => ⟨S16384x7x7x2, .f32⟩
  | 31 => ⟨S16384x7x7x2, .f32⟩
  | 32 => ⟨S16384x7x7x2, .f32⟩
  | 33 => ⟨S16384x7x7x2, .f32⟩
  | 34 => ⟨S_, .f32⟩
  | 35 => ⟨S16384x7x7, .f32⟩
  | 36 => ⟨S_, .f32⟩
  | 37 => ⟨S16384x7x7, .f32⟩
  | 38 => ⟨S16384x7x7, .f32⟩
  | 39 => ⟨S16384x7x7x2, .f32⟩
  | 40 => ⟨S16384x7x7x2, .f32⟩
  | 41 => ⟨S16384x7x7x2, .f32⟩
  | 42 => ⟨S16384x7x7x2, .f32⟩
  | 43 => ⟨S16384x7x7x2, .f32⟩
  | 44 => ⟨S16384x7x7x2, .f32⟩
  | 45 => ⟨S_, .f32⟩
  | 46 => ⟨S16384x7x7, .f32⟩
  | 47 => ⟨S16384x7x7, .f32⟩
  | 48 => ⟨S16384x7x7x1, .f32⟩
  | 49 => ⟨S16384x7x7, .f32⟩
  | 50 => ⟨S16384x7x7, .f32⟩
  | 51 => ⟨S16384x7x7, .f32⟩
  | 52 => ⟨S16384x7x7, .f32⟩
  | 53 => ⟨S16384x7x7x1, .f32⟩
  | 54 => ⟨S16384x7x7, .f32⟩
  | 55 => ⟨S16384x7x7, .f32⟩
  | 56 => ⟨S_, .f32⟩
  | 57 => ⟨S16384x7x7, .f32⟩
  | 58 => ⟨S16384x7x7, .f32⟩
  | 59 => ⟨S16384x7x7, .f32⟩
  | 60 => ⟨S16384x7x7x20, .f32⟩
  | 61 => ⟨S16384x7x7x20, .f32⟩
  | 62 => ⟨S16384x7x7x20, .f32⟩
  | 63 => ⟨S16384x7x7x20, .f32⟩
  | 64 => ⟨S_, .f32⟩
  | 65 => ⟨S16384x7x7, .f32⟩
  | 66 => ⟨S16384x7x7, .f32⟩
  | 67 => ⟨S16384x7x7, .f32⟩
  | 68 => ⟨S16384x7x7x1, .f32⟩
  | 69 => ⟨S16384x7x7, .f32⟩
  | 70 => ⟨S16384x7x7, .f32⟩
  | 71 => ⟨S16384x7x7x1, .f32⟩
  | 72 => ⟨S16384x7x7, .f32⟩
  | 73 => ⟨S16384x7x7, .f32⟩
  | 74 => ⟨S16384x7x7, .f32⟩
  | 75 => ⟨S_, .f32⟩
  | 76 => ⟨S16384x7x7, .f32⟩
  | 77 => ⟨S16384x7x7, .f32⟩
  | 78 => ⟨S16384x7x7, .f32⟩
  | 79 => ⟨S_, .f32⟩
  | 80 => ⟨S_, .f32⟩
  | 81 => ⟨S_, .f32⟩
  | 82 => ⟨S_, .f32⟩
  | _ => ⟨S16384x7x7x30, .f32⟩

abbrev hbmTy (i : Nat) : BufTy := match i / 128 with
  | 0 => hbmTy0_0 i
  | 1 => hbmTy0_1 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_call0_v0 : Ref sig .tc := ⟨.hbm, 50, rfl⟩
abbrev main_call0_v1 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_7 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_8 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_cst_9 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_10 : Ref sig .tc := ⟨.hbm, 102, rfl⟩
abbrev main_call1_v0 : Ref sig .tc := ⟨.hbm, 103, rfl⟩
abbrev main_call1_v1 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_11 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_12 : Ref sig .tc := ⟨.hbm, 132, rfl⟩
abbrev main_v113 : Ref sig .tc := ⟨.hbm, 133, rfl⟩
abbrev main_cst_13 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_14 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_15 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_cst_16 : Ref sig .tc := ⟨.hbm, 162, rfl⟩
abbrev main_v139 : Ref sig .tc := ⟨.hbm, 163, rfl⟩
abbrev main_cst_17 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_cst_18 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_19 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_cst_20 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_cst_21 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_cst_22 : Ref sig .tc := ⟨.hbm, 207, rfl⟩
abbrev main_v178 : Ref sig .tc := ⟨.hbm, 208, rfl⟩
abbrev main_cst_23 : Ref sig .tc := ⟨.hbm, 209, rfl⟩
abbrev main_v179 : Ref sig .tc := ⟨.hbm, 210, rfl⟩

abbrev nD : Nat := 1
abbrev τ : Topo := Topo.v7x

variable {F : FTy → Type} [FloatOps F]

class Facts₀ : Prop where
  slices_S16384x7x7x30_S16384x7x7x1_0_0_0_4 : S16384x7x7x30.Slices ![0, 0, 0, 4] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  slices_S16384x7x7x30_S16384x7x7x1_0_0_0_0 : S16384x7x7x30.Slices ![0, 0, 0, 0] S16384x7x7x1
  transposes_S16384x7x7_S16384x7x7_0_2_1 : S16384x7x7.Transposes [0, 2, 1] S16384x7x7
  slices_S16384x7x7x30_S16384x7x7x1_0_0_0_1 : S16384x7x7x30.Slices ![0, 0, 0, 1] S16384x7x7x1
  slices_S16384x7x7x30_S16384x7x7x1_0_0_0_2 : S16384x7x7x30.Slices ![0, 0, 0, 2] S16384x7x7x1
  slices_S16384x7x7x30_S16384x7x7x1_0_0_0_3 : S16384x7x7x30.Slices ![0, 0, 0, 3] S16384x7x7x1
  bcast_S16384x7x7_S16384x7x7x1_0_1_2 : S16384x7x7.BroadcastsInDim S16384x7x7x1 (![0, 1, 2] : Fin 3 → Fin S16384x7x7x1.rank)
  concatenates_S16384x7x7x1_S16384x7x7x1_S16384x7x7x1_S16384x7x7x1_S16384x7x7x4_d3 : Shape.Concatenates [S16384x7x7x1, S16384x7x7x1, S16384x7x7x1, S16384x7x7x1] S16384x7x7x4 3
  slices_S16384x7x7x30_S16384x7x7x4_0_0_0_0 : S16384x7x7x30.Slices ![0, 0, 0, 0] S16384x7x7x4
  slices_S16384x7x7x4_S16384x7x7x2_0_0_0_0 : S16384x7x7x4.Slices ![0, 0, 0, 0] S16384x7x7x2
  slices_S16384x7x7x4_S16384x7x7x2_0_0_0_2 : S16384x7x7x4.Slices ![0, 0, 0, 2] S16384x7x7x2
  bcast_S_S16384x7x7x2 : S_.BroadcastsInDim S16384x7x7x2 (![] : Fin 0 → Fin S16384x7x7x2.rank)
  slices_S16384x7x7x2_S16384x7x7x1_0_0_0_0 : S16384x7x7x2.Slices ![0, 0, 0, 0] S16384x7x7x1
  slices_S16384x7x7x2_S16384x7x7x1_0_0_0_1 : S16384x7x7x2.Slices ![0, 0, 0, 1] S16384x7x7x1
  slices_S16384x7x7x4_S16384x7x7x1_0_0_0_2 : S16384x7x7x4.Slices ![0, 0, 0, 2] S16384x7x7x1
  slices_S16384x7x7x4_S16384x7x7x1_0_0_0_3 : S16384x7x7x4.Slices ![0, 0, 0, 3] S16384x7x7x1
  slices_S16384x7x7x30_S16384x7x7x4_0_0_0_5 : S16384x7x7x30.Slices ![0, 0, 0, 5] S16384x7x7x4
  slices_S16384x7x7x30_S16384x7x7x2_0_0_0_0 : S16384x7x7x30.Slices ![0, 0, 0, 0] S16384x7x7x2
  reducesTo_S16384x7x7x2_S16384x7x7_d3 : S16384x7x7x2.ReducesTo [3] S16384x7x7
  h_S_ : 0 < S_.numel
  slices_S16384x7x7x30_S16384x7x7x2_0_0_0_2 : S16384x7x7x30.Slices ![0, 0, 0, 2] S16384x7x7x2
  slices_S16384x7x7x30_S16384x7x7x1_0_0_0_9 : S16384x7x7x30.Slices ![0, 0, 0, 9] S16384x7x7x1
  slices_S16384x7x7x30_S16384x7x7x2_0_0_0_5 : S16384x7x7x30.Slices ![0, 0, 0, 5] S16384x7x7x2
  slices_S16384x7x7x30_S16384x7x7x2_0_0_0_7 : S16384x7x7x30.Slices ![0, 0, 0, 7] S16384x7x7x2
  slices_S16384x7x7x30_S16384x7x7x20_0_0_0_10 : S16384x7x7x30.Slices ![0, 0, 0, 10] S16384x7x7x20
  reducesTo_S16384x7x7x20_S16384x7x7_d3 : S16384x7x7x20.ReducesTo [3] S16384x7x7
  reducesTo_S16384x7x7_S_d0_1_2 : S16384x7x7.ReducesTo [0, 1, 2] S_

variable [Facts₀]

class Facts : Prop extends Facts₀ where

variable [Facts]
-- ==== Proof.BlockPay.lean ====
/-
  One grid step of the kernel as ONE pure function of its three input blocks and the running total it finds in the
  output block: the body's named payloads composed in the order the body computes them.  The step's arithmetic is in
  three stages: the loss of every cell of the block (`lossMap`: two candidate boxes against the label box, the better one
  by intersection over union charged its coordinate, size and confidence errors, plus the class error, or the
  no-object charge where the label says there is no object), the sum of the block's 128·7·7 cell losses taken one axis at
  a time (`sumChain`), and the addition of that sum to the running total.
-/
import proofs.«118652_j81767587381937_2_alg».proof.Proof.Gen.KernelIdeal.Skeleton

noncomputable section

namespace Cert.KernelIdeal.Loss

open Idealize.ShloMosaic Cert.KernelIdeal Cert.KernelIdeal.Gen

variable {F : FTy → Type} [FloatOps F]

/-- The label box of every cell: the transposed x-coordinate block `x2` beside channels 1, 2, 3 of the label block. -/
abbrev lbox (x1 : Vec F S128x7x7x30 .f32) (x2 : Vec F S128x7x7 .f32) : FVec F S128x7x7x4 .f32 := k0_pay2 x1 x2

/-- Intersection over union of the first predicted box (channels 0–3) with the label box. -/
abbrev iou1 (x0 x1 : Vec F S128x7x7x30 .f32) (x2 : Vec F S128x7x7 .f32) : FVec F S128x7x7 .f32 :=
  k0_pay7 (lbox x1 x2) (k0_pay3 x0) (k0_pay4 x0) (k0_pay5 x1 x2) (k0_pay6 x0 x1 x2)

/-- Intersection over union of the second predicted box (channels 5–8) with the label box. -/
abbrev iou2 (x0 x1 : Vec F S128x7x7x30 .f32) (x2 : Vec F S128x7x7 .f32) : FVec F S128x7x7 .f32 :=
  k0_pay12 (lbox x1 x2) (k0_pay8 x0) (k0_pay10 x0 (lbox x1 x2)) (k0_pay11 x0 (lbox x1 x2))

/-- What one grid step stores in the output block: the total `acc` it finds there plus the sum of the block's cell losses. -/
def blkPay (x0 x1 : Vec F S128x7x7x30 .f32) (x2 : Vec F S128x7x7 .f32) (acc : Vec F S1x1x1 .f32) : FVec F S1x1x1 .f32 :=
  k0_pay17 x0 x1 (iou2 x0 x1 x2)
    (k0_pay13 (lbox x1 x2) (iou1 x0 x1 x2) (k0_pay8 x0) (k0_pay10 x0 (lbox x1 x2)) (k0_pay11 x0 (lbox x1 x2)))
    (k0_pay14 x0 x1 (iou1 x0 x1 x2)) (k0_pay15 x0 x1) (k0_pay16 x0) acc

end Cert.KernelIdeal.Loss

end
-- ==== Proof.LibRows.lean ====
/-
  A block of consecutive rows of an array: rows `B·t … B·t + B − 1` along the leading axis, every other coordinate kept.
  A kernel that walks an array block by block along its leading axis sees, at step `t`, exactly `rows B t` of it.
-/
import Idealize.ShloMosaic.Lib.ValueIdx

namespace Cert.LibRows

open Idealize.ShloMosaic Idealize.ShloMosaic.ValueIdx

/-- Rows `B·t … B·t + B − 1` of an `[N, a, b]` array, as a `[B, a, b]` array. -/
def rows3 {α : Type} {N a b : Nat} (B t : Nat) (ht : B * t + B ≤ N) (X : (⟨3, ![N, a, b]⟩ : Shape).Idx → α) :
    (⟨3, ![B, a, b]⟩ : Shape).Idx → α :=
  fun j => X (ix3 ⟨B * t + (j 0).val, by have := (j 0).isLt; exact Nat.lt_of_lt_of_le (Nat.add_lt_add_left this _) ht⟩ (j 1) (j 2))

/-- Rows `B·t … B·t + B − 1` of an `[N, a, b, c]` array, as a `[B, a, b, c]` array. -/
def rows4 {α : Type} {N a b c : Nat} (B t : Nat) (ht : B * t + B ≤ N) (X : (⟨4, ![N, a, b, c]⟩ : Shape).Idx → α) :
    (⟨4, ![B, a, b, c]⟩ : Shape).Idx → α :=
  fun j => X (ix4 ⟨B * t + (j 0).val, by have := (j 0).isLt; exact Nat.lt_of_lt_of_le (Nat.add_lt_add_left this _) ht⟩ (j 1) (j 2) (j 3))

theorem rows3_apply {α : Type} {N a b : Nat} (B t : Nat) (ht : B * t + B ≤ N) (X : (⟨3, ![N, a, b]⟩ : Shape).Idx → α)
    (j : (⟨3, ![B, a, b]⟩ : Shape).Idx) :
    rows3 B t ht X j = X (ix3 ⟨B * t + (j 0).val, by have := (j 0).isLt; exact Nat.lt_of_lt_of_le (Nat.add_lt_add_left this _) ht⟩ (j 1) (j 2)) := rfl

theorem rows4_apply {α : Type} {N a b c : Nat} (B t : Nat) (ht : B * t + B ≤ N) (X : (⟨4, ![N, a, b, c]⟩ : Shape).Idx → α)
    (j : (⟨4, ![B, a, b, c]⟩ : Shape).Idx) :
    rows4 B t ht X j = X (ix4 ⟨B * t + (j 0).val, by have := (j 0).isLt; exact Nat.lt_of_lt_of_le (Nat.add_lt_add_left this _) ht⟩ (j 1) (j 2) (j 3)) := rfl

end Cert.LibRows
-- ==== Proof.LibRowsOps.lean ====
/-
  Taking a block of rows commutes with every operation that acts cell by cell.  An array `[N, 7, 7, c]` is a stack of
  `N` grids of 7·7 cells with `c` channels each; an operation that reads, for each cell of its result, only the same cell
  of its operands (a channel slice, dropping or adding a trailing unit axis, joining unit channels, a sum over the
  channels, any pointwise arithmetic, a constant) gives the same block of rows whether the rows are taken before or
  after it.  Each lemma below says so for one operation, with the whole-array operation in the form a host program
  prints it and the block operation in the form a kernel body prints it; at the exact values the two spellings of a
  square root, a quotient and a sum over an axis are one function.
-/
import Idealize.ShloMosaic.PureOps.Ideal
import Idealize.ShloMosaic.PureOps.Ideal.Laws
import Idealize.ShloMosaic.Lib.ValueIdx
import Idealize.ShloMosaic.Lib.Pipeline.Value
import proofs.«118652_j81767587381937_2_alg».proof.Proof.LibRows

noncomputable section

namespace Cert.LibRows

open Idealize.ShloMosaic Idealize.ShloMosaic.ValueIdx

/-! ## Pointwise operations -/

section Pointwise

variable {F : FTy → Type} [FloatOps F] {φ : FTy} {α : Type}
variable {N a b c B t : Nat} (ht : B * t + B ≤ N)

theorem rows4_mulf (X Y : FVec F ⟨4, ![N, a, b, c]⟩ φ) :
    rows4 B t ht (mulf X Y) = mulf (rows4 B t ht X) (rows4 B t ht Y) := rfl
theorem rows4_addf (X Y : FVec F ⟨4, ![N, a, b, c]⟩ φ) :
    rows4 B t ht (addf X Y) = addf (rows4 B t ht X) (rows4 B t ht Y) := rfl
theorem rows4_subf (X Y : FVec F ⟨4, ![N, a, b, c]⟩ φ) :
    rows4 B t ht (subf X Y) = subf (rows4 B t ht X) (rows4 B t ht Y) := rfl
theorem rows4_minimumf (X Y : FVec F ⟨4, ![N, a, b, c]⟩ φ) :
    rows4 B t ht (minimumf X Y) = minimumf (rows4 B t ht X) (rows4 B t ht Y) := rfl
theorem rows4_maximumf (X Y : FVec F ⟨4, ![N, a, b, c]⟩ φ) :
    rows4 B t ht (maximumf X Y) = maximumf (rows4 B t ht X) (rows4 B t ht Y) := rfl

theorem rows3_mulf (X Y : FVec F ⟨3, ![N, a, b]⟩ φ) :
    rows3 B t ht (mulf X Y) = mulf (rows3 B t ht X) (rows3 B t ht Y) := rfl
theorem rows3_addf (X Y : FVec F ⟨3, ![N, a, b]⟩ φ) :
    rows3 B t ht (addf X Y) = addf (rows3 B t ht X) (rows3 B t ht Y) := rfl
theorem rows3_subf (X Y : FVec F ⟨3, ![N, a, b]⟩ φ) :
    rows3 B t ht (subf X Y) = subf (rows3 B t ht X) (rows3 B t ht Y) := rfl
theorem rows3_cmpf (p : CmpFPredicate) (X Y : FVec F ⟨3, ![N, a, b]⟩ φ) :
    rows3 B t ht (cmpf p X Y) = cmpf p (rows3 B t ht X) (rows3 B t ht Y) := rfl
theorem rows3_select (C : IVec ⟨3, ![N, a, b]⟩ 1) (X Y : (⟨3, ![N, a, b]⟩ : Shape).Idx → α) :
    rows3 B t ht (select C X Y) = select (rows3 B t ht C) (rows3 B t ht X) (rows3 B t ht Y) := rfl

/-- The host's square root and the kernel's are one function of an extended real. -/
theorem rows4_hostSqrt (X : FVec Ideal ⟨4, ![N, a, b, c]⟩ φ) :
    rows4 B t ht (Host.sqrt X) = sqrt (rows4 B t ht X) := rfl
/-- The host's quotient and the kernel's are one function of two extended reals. -/
theorem rows3_hostDivf (X Y : FVec Ideal ⟨3, ![N, a, b]⟩ φ) :
    rows3 B t ht (Host.divf X Y) = divf (rows3 B t ht X) (rows3 B t ht Y) := rfl

/-- A scalar constant spread over the array is, on every block of rows, the same scalar spread over the block. -/
theorem rows4_const (dims : Fin 0 → Fin 4) (h : (⟨0, ![]⟩ : Shape).BroadcastsInDim ⟨4, ![N, a, b, c]⟩ dims) (w : BitVec φ.bits) :
    rows4 B t ht (broadcastInDim ⟨4, ![N, a, b, c]⟩ dims h (constant (F := Ideal) ⟨0, ![]⟩ φ w))
      = broadcast ⟨4, ![B, a, b, c]⟩ (Scalar.ofBits (F := Ideal) φ w) := rfl
theorem rows3_const (dims : Fin 0 → Fin 3) (h : (⟨0, ![]⟩ : Shape).BroadcastsInDim ⟨3, ![N, a, b]⟩ dims) (w : BitVec φ.bits) :
    rows3 B t ht (broadcastInDim ⟨3, ![N, a, b]⟩ dims h (constant (F := Ideal) ⟨0, ![]⟩ φ w))
      = broadcast ⟨3, ![B, a, b]⟩ (Scalar.ofBits (F := Ideal) φ w) := rfl

end Pointwise

/-! ## Channel slices -/

section Slice

variable {α : Type} {N a b c d B t : Nat} (ht : B * t + B ≤ N)

/-- A channel window of width `d` at offset `o` fits the block's cells when it fits the array's. -/
theorem slices_rows {o : Nat} (H : (⟨4, ![N, a, b, c]⟩ : Shape).Slices ![0, 0, 0, o] ⟨4, ![N, a, b, d]⟩) :
    (⟨4, ![B, a, b, c]⟩ : Shape).Slices ![0, 0, 0, o] ⟨4, ![B, a, b, d]⟩ :=
  ⟨rfl, fun x => match x with
    | ⟨0, _⟩ => by show 0 + B ≤ B; omega
    | ⟨1, _⟩ => H.2 1
    | ⟨2, _⟩ => H.2 2
    | ⟨3, _⟩ => H.2 3⟩

/-- Channels `o … o + d − 1` of a block of rows are the block of rows of those channels. -/
theorem rows4_slice (o : Nat) (X : (⟨4, ![N, a, b, c]⟩ : Shape).Idx → α)
    (H : (⟨4, ![N, a, b, c]⟩ : Shape).Slices ![0, 0, 0, o] ⟨4, ![N, a, b, d]⟩) :
    rows4 B t ht (extractStridedSlice ⟨4, ![N, a, b, d]⟩ ![0, 0, 0, o] X H)
      = extractStridedSlice ⟨4, ![B, a, b, d]⟩ ![0, 0, 0, o] (rows4 B t ht X) (slices_rows H) := by
  funext j
  rw [rows4_apply]
  refine (extractStridedSlice_apply ![0, 0, 0, o] X H _
    (ix4 ⟨B * t + (j 0).val, by have := (j 0).isLt; exact Nat.lt_of_lt_of_le (Nat.add_lt_add_left this _) ht⟩ (j 1) (j 2)
      ⟨o + (j 3).val, by have := H.2 3; have := (j 3).isLt; exact Nat.lt_of_lt_of_le (Nat.add_lt_add_left ‹(j 3).val < d› _) ‹o + d ≤ c›⟩)
    (fun x => match x with
      | ⟨0, _⟩ => by show B * t + (j 0).val = 0 + (B * t + (j 0).val); omega
      | ⟨1, _⟩ => by show (j 1).val = 0 + (j 1).val; omega
      | ⟨2, _⟩ => by show (j 2).val = 0 + (j 2).val; omega
      | ⟨3, _⟩ => rfl)).trans ?_
  refine Eq.symm ((extractStridedSlice_apply ![0, 0, 0, o] (rows4 B t ht X) (slices_rows H) j
    (ix4 (j 0) (j 1) (j 2) ⟨o + (j 3).val, by have := H.2 3; have := (j 3).isLt; exact Nat.lt_of_lt_of_le (Nat.add_lt_add_left ‹(j 3).val < d› _) ‹o + d ≤ c›⟩)
    (fun x => match x with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => rfl)).trans ?_)
  rfl

end Slice

/-! ## A trailing unit axis dropped or added, four unit channels joined, a sum over the channels

At the literal extents of this kernel: 16384 rows in blocks of 128, grids of 7·7 cells. -/

section Layout

variable {α : Type} {t : Nat} (ht : 128 * t + 128 ≤ 16384)

/-- Dropping the unit channel axis: cell `(n, y, x)` of the result is cell `(n, y, x, 0)` of the operand, in the array
    and in the block alike. -/
theorem rows3_squeeze (X : (⟨4, ![16384, 7, 7, 1]⟩ : Shape).Idx → α)
    (H : (⟨4, ![16384, 7, 7, 1]⟩ : Shape).ShapeCasts ⟨3, ![16384, 7, 7]⟩) :
    rows3 128 t ht (shapeCast ⟨3, ![16384, 7, 7]⟩ X H)
      = shapeCast ⟨3, ![128, 7, 7]⟩ (rows4 128 t ht X) (by decide) := by
  funext j
  have h0 : (j 0).val < 128 := (j 0).isLt
  have h1 : (j 1).val < 7 := (j 1).isLt
  have h2 : (j 2).val < 7 := (j 2).isLt
  rw [rows3_apply]
  refine (shapeCast_apply X H _ (ix4 ⟨128 * t + (j 0).val, by omega⟩ (j 1) (j 2) (0 : Fin 1)) ?_).trans ?_
  · rw [Shape.rowMajor_val_four, Shape.rowMajor_val_three]
    show (((128 * t + (j 0).val) * 7 + (j 1).val) * 7 + (j 2).val) * 1 + 0 = ((128 * t + (j 0).val) * 7 + (j 1).val) * 7 + (j 2).val
    omega
  · refine Eq.symm ((shapeCast_apply (rows4 128 t ht X) (by decide) j (ix4 (j 0) (j 1) (j 2) (0 : Fin 1)) ?_).trans rfl)
    rw [Shape.rowMajor_val_four, Shape.rowMajor_val_three]
    show ((((j 0).val) * 7 + (j 1).val) * 7 + (j 2).val) * 1 + 0 = (((j 0).val) * 7 + (j 1).val) * 7 + (j 2).val
    omega

/-- Adding a unit channel axis: the host spells it as a broadcast along the three cell axes, the kernel as a cast. -/
theorem rows4_unsqueeze (X : (⟨3, ![16384, 7, 7]⟩ : Shape).Idx → α)
    (H : (⟨3, ![16384, 7, 7]⟩ : Shape).BroadcastsInDim ⟨4, ![16384, 7, 7, 1]⟩ ![0, 1, 2]) :
    rows4 128 t ht (broadcastInDim ⟨4, ![16384, 7, 7, 1]⟩ ![0, 1, 2] H X)
      = shapeCast ⟨4, ![128, 7, 7, 1]⟩ (rows3 128 t ht X) (by decide) := by
  funext j
  have h0 : (j 0).val < 128 := (j 0).isLt
  have h1 : (j 1).val < 7 := (j 1).isLt
  have h2 : (j 2).val < 7 := (j 2).isLt
  have h3 : (j 3).val < 1 := (j 3).isLt
  rw [rows4_apply]
  refine (broadcastInDim_apply ![0, 1, 2] H X _ (ix3 ⟨128 * t + (j 0).val, by omega⟩ (j 1) (j 2)) (fun x => match x with
    | ⟨0, _⟩ => by show 128 * t + (j 0).val = if (16384 : Nat) = 1 then 0 else 128 * t + (j 0).val; rw [if_neg (by decide)]
    | ⟨1, _⟩ => by show (j 1).val = if (7 : Nat) = 1 then 0 else (j 1).val; rw [if_neg (by decide)]
    | ⟨2, _⟩ => by show (j 2).val = if (7 : Nat) = 1 then 0 else (j 2).val; rw [if_neg (by decide)])).trans ?_
  refine Eq.symm ((shapeCast_apply (rows3 128 t ht X) (by decide) j (ix3 (j 0) (j 1) (j 2)) ?_).trans rfl)
  rw [Shape.rowMajor_val_four, Shape.rowMajor_val_three]
  show (((j 0).val) * 7 + (j 1).val) * 7 + (j 2).val = ((((j 0).val) * 7 + (j 1).val) * 7 + (j 2).val) * 1 + (j 3).val
  omega

/-- Four unit channels side by side are a four-channel cell. -/
theorem concat4_fits {M : Nat} : Shape.Concatenates [(⟨4, ![M, 7, 7, 1]⟩ : Shape), ⟨4, ![M, 7, 7, 1]⟩, ⟨4, ![M, 7, 7, 1]⟩, ⟨4, ![M, 7, 7, 1]⟩]
    ⟨4, ![M, 7, 7, 4]⟩ 3 :=
  ⟨by show 2 ≤ 4; omega, fun s hs => by
    have : s = ⟨4, ![M, 7, 7, 1]⟩ := by simpa using hs
    subst this
    exact ⟨rfl, fun b hb => match b, hb with
      | ⟨0, _⟩, _ => rfl
      | ⟨1, _⟩, _ => rfl
      | ⟨2, _⟩, _ => rfl
      | ⟨3, _⟩, hb => absurd rfl hb⟩, rfl⟩

/-- Four one-channel arrays joined along the channel axis, read at a cell: channel `k` of the result is the `k`-th piece
    at that cell. -/
theorem concat4_at {M : Nat} (y0 y1 y2 y3 : (⟨4, ![M, 7, 7, 1]⟩ : Shape).Idx → α)
    (H : Shape.Concatenates (([⟨⟨4, ![M, 7, 7, 1]⟩, y0⟩, ⟨⟨4, ![M, 7, 7, 1]⟩, y1⟩, ⟨⟨4, ![M, 7, 7, 1]⟩, y2⟩,
        ⟨⟨4, ![M, 7, 7, 1]⟩, y3⟩] : List ((s : Shape) × (s.Idx → α))).map (·.1)) ⟨4, ![M, 7, 7, 4]⟩ 3)
    (j : (⟨4, ![M, 7, 7, 4]⟩ : Shape).Idx) :
    concatenate ⟨4, ![M, 7, 7, 4]⟩ 3
        [⟨⟨4, ![M, 7, 7, 1]⟩, y0⟩, ⟨⟨4, ![M, 7, 7, 1]⟩, y1⟩, ⟨⟨4, ![M, 7, 7, 1]⟩, y2⟩, ⟨⟨4, ![M, 7, 7, 1]⟩, y3⟩] H j
      = (if (j 3).val = 0 then y0 else if (j 3).val = 1 then y1 else if (j 3).val = 2 then y2 else y3)
          (ix4 (j 0) (j 1) (j 2) (0 : Fin 1)) := by
  have h3 : (j 3).val < 4 := (j 3).isLt
  have hi : ∀ b : Fin (⟨4, ![M, 7, 7, 1]⟩ : Shape).rank,
      b.cast (rfl : (⟨4, ![M, 7, 7, 1]⟩ : Shape).rank = (⟨4, ![M, 7, 7, 4]⟩ : Shape).rank) ≠ (3 : Fin 4) →
        ((ix4 (j 0) (j 1) (j 2) (0 : Fin 1) : (⟨4, ![M, 7, 7, 1]⟩ : Shape).Idx) b).val
          = (j (b.cast (rfl : (⟨4, ![M, 7, 7, 1]⟩ : Shape).rank = (⟨4, ![M, 7, 7, 4]⟩ : Shape).rank))).val :=
    fun b hb => match b, hb with
      | ⟨0, _⟩, _ => rfl
      | ⟨1, _⟩, _ => rfl
      | ⟨2, _⟩, _ => rfl
      | ⟨3, _⟩, hb => absurd rfl hb
  obtain h | h | h | h : (j 3).val = 0 ∨ (j 3).val = 1 ∨ (j 3).val = 2 ∨ (j 3).val = 3 := by omega
  · rw [if_pos h]
    exact concatenate_apply_piece (3 : Fin 4) _ H j 0 (by show 0 < 4; omega) _ y0 rfl rfl 0 rfl (ix4 (j 0) (j 1) (j 2) (0 : Fin 1)) hi (by show 0 + 0 = (j 3).val; omega)
  · rw [if_neg (by omega), if_pos h]
    exact concatenate_apply_piece (3 : Fin 4) _ H j 1 (by show 1 < 4; omega) _ y1 rfl rfl 1 rfl (ix4 (j 0) (j 1) (j 2) (0 : Fin 1)) hi (by show 1 + 0 = (j 3).val; omega)
  · rw [if_neg (by omega), if_neg (by omega), if_pos h]
    exact concatenate_apply_piece (3 : Fin 4) _ H j 2 (by show 2 < 4; omega) _ y2 rfl rfl 2 rfl (ix4 (j 0) (j 1) (j 2) (0 : Fin 1)) hi (by show 2 + 0 = (j 3).val; omega)
  · rw [if_neg (by omega), if_neg (by omega), if_neg (by omega)]
    exact concatenate_apply_piece (3 : Fin 4) _ H j 3 (by show 3 < 4; omega) _ y3 rfl rfl 3 rfl (ix4 (j 0) (j 1) (j 2) (0 : Fin 1)) hi (by show 3 + 0 = (j 3).val; omega)

/-- Joining the four unit channels commutes with taking a block of rows. -/
theorem rows4_concat4 (x0 x1 x2 x3 : (⟨4, ![16384, 7, 7, 1]⟩ : Shape).Idx → α)
    (H : Shape.Concatenates (([⟨⟨4, ![16384, 7, 7, 1]⟩, x0⟩, ⟨⟨4, ![16384, 7, 7, 1]⟩, x1⟩, ⟨⟨4, ![16384, 7, 7, 1]⟩, x2⟩,
        ⟨⟨4, ![16384, 7, 7, 1]⟩, x3⟩] : List ((s : Shape) × (s.Idx → α))).map (·.1)) ⟨4, ![16384, 7, 7, 4]⟩ 3) :
    rows4 128 t ht (concatenate ⟨4, ![16384, 7, 7, 4]⟩ 3
        [⟨⟨4, ![16384, 7, 7, 1]⟩, x0⟩, ⟨⟨4, ![16384, 7, 7, 1]⟩, x1⟩, ⟨⟨4, ![16384, 7, 7, 1]⟩, x2⟩, ⟨⟨4, ![16384, 7, 7, 1]⟩, x3⟩] H)
      = concatenate ⟨4, ![128, 7, 7, 4]⟩ 3
        [⟨⟨4, ![128, 7, 7, 1]⟩, rows4 128 t ht x0⟩, ⟨⟨4, ![128, 7, 7, 1]⟩, rows4 128 t ht x1⟩,
          ⟨⟨4, ![128, 7, 7, 1]⟩, rows4 128 t ht x2⟩, ⟨⟨4, ![128, 7, 7, 1]⟩, rows4 128 t ht x3⟩] concat4_fits := by
  funext j
  rw [rows4_apply, concat4_at, concat4_at]
  show (if (j 3).val = 0 then x0 else if (j 3).val = 1 then x1 else if (j 3).val = 2 then x2 else x3) _
    = (if (j 3).val = 0 then rows4 128 t ht x0 else if (j 3).val = 1 then rows4 128 t ht x1
        else if (j 3).val = 2 then rows4 128 t ht x2 else rows4 128 t ht x3) _
  split_ifs <;> rfl

/-- The sum over the channels of a cell: the host's `reduce` from the initial value zero and the kernel's lane sum are the
    same sum of the same `c` extended reals. -/
theorem rows3_sumChannels {c : Nat} (X : FVec Ideal ⟨4, ![16384, 7, 7, c]⟩ .f32) {u : Shape}
    (H : (⟨4, ![16384, 7, 7, c]⟩ : Shape).ReducesTo [3] ⟨3, ![16384, 7, 7]⟩) (hu : 0 < u.numel)
    (Hr : (⟨4, ![16384, 7, 7, c]⟩ : Shape).Reduces [3] ⟨3, ![16384, 7, 7]⟩)
    (h : (⟨4, ![128, 7, 7, c]⟩ : Shape).Reduces [3] ⟨3, ![128, 7, 7]⟩) (hφ : FKind.Formats .f32)
    (hacc : (0x00000000#32 : BitVec 32) = FKind.add.neutral .f32 hφ) :
    rows3 128 t ht (Host.reduceAdd X (constant (F := Ideal) u .f32 0x00000000#32) H hu)
      = multiReduction .add [3] ⟨3, ![128, 7, 7]⟩ (rows4 128 t ht X) 0x00000000#32 h hφ hacc := by
  funext j
  rw [rows3_apply, Ideal.multiReduction_add_single]
  show Ideal.hostReduceAdd H X (Ideal.ofBits .f32 0x00000000#32) _ = _
  rw [Ideal.hostReduceAdd_single H Hr, Ideal.ofBits_zero_f32, zero_add]
  refine Finset.sum_congr rfl fun k _ => ?_
  rw [rows4_apply]
  exact congrArg X (funext fun x => Fin.ext (by
    match x with
    | ⟨0, _⟩ => rfl
    | ⟨1, _⟩ => rfl
    | ⟨2, _⟩ => rfl
    | ⟨3, _⟩ => rfl))

end Layout

end Cert.LibRows

end
-- ==== Proof.RefVals.lean ====
/-
  The reference program's values, one per host operation: each definition is the operation applied to the values of the
  operations it reads, as functions of the program's two arguments (the predictions `x0` and the labels `x1`).  The
  last one, `val_main_v179`, is the program's result: the mean over the 16384 samples of the summed cell losses.
-/
import proofs.«118652_j81767587381937_2_alg».proof.ReferenceIdeal
import proofs.«118652_j81767587381937_2_alg».proof.Proof.Gen.ReferenceIdeal
import Idealize.ShloMosaic.PureOps.Ideal

noncomputable section

namespace Cert.ReferenceIdeal.Vals

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S16384x7x7x30, .f32⟩ : BufTy).Contents (Elt F)) : (⟨S16384x7x7x1, .f32⟩ : BufTy).Contents (Elt F) :=
  extractStridedSlice S16384x7x7x1 ![0, 0, 0, 4] (x1) slices_S16384x7x7x30_S16384x7x7x1_0_0_0_4
def val_main_v1 (x1 : (⟨S16384x7x7x30, .f32⟩ : BufTy).Contents (Elt F)) : (⟨S16384x7x7, .f32⟩ : BufTy).Contents (Elt F) :=
  shapeCast _ (val_main_v0 (F := F) x1) shapeCasts_S16384x7x7x1_S16384x7x7
def val_main_cst : (⟨S_, .f32⟩ : BufTy).Contents (Elt F) :=
  constant S_ .f32 0x3F800000#32
def val_main_v2 : (⟨S16384x7x7, .f32⟩ : BufTy).Contents (Elt F) :=
  broadcastInDim S16384x7x7 ![] bcast_S_S16384x7x7 (val_main_cst (F := F))
def val_main_v3 (x1 : (⟨S16384x7x7x30, .f32⟩ : BufTy).Contents (Elt F)) : (⟨S16384x7x7, .i1⟩ : BufTy).Contents (Elt F) :=
  cmpf .oeq (val_main_v1 (F := F) x1) (val_main_v2 (F := F))
def val_main_v4 (x1 : (⟨S16384x7x7x30, .f32⟩ : BufTy).Contents (Elt F)) : (⟨S16384x7x7x1, .f32⟩ : BufTy).Contents (Elt F) :=
  extractStridedSlice S16384x7x7x1 ![0, 0, 0, 0] (x1) slices_S16384x7x7x30_S16384x7x7x1_0_0_0_0
def val_main_v5 (x1 : (⟨S16384x7x7x30, .f32⟩ : BufTy).Contents (Elt F)) : (⟨S16384x7x7, .f32⟩ : BufTy).Contents (Elt F) :=
  shapeCast _ (val_main_v4 (F := F) x1) shapeCasts_S16384x7x7x1_S16384x7x7
def val_main_v6 (x1 : (⟨S16384x7x7x30, .f32⟩ : BufTy).Contents (Elt F)) : (⟨S16384x7x7, .f32⟩ : BufTy).Contents (Elt F) :=
  transpose S16384x7x7 [0, 2, 1] (val_main_v5 (F := F) x1) transposes_S16384x7x7_S16384x7x7_0_2_1
def val_main_v7 (x1 : (⟨S16384x7x7x30, .f32⟩ : BufTy).Contents (Elt F)) : (⟨S16384x7x7x1, .f32⟩ : BufTy).Contents (Elt F) :=
  extractStridedSlice S16384x7x7x1 ![0, 0, 0, 1] (x1) slices_S16384x7x7x30_S16384x7x7x1_0_0_0_1
def val_main_v8 (x1 : (⟨S16384x7x7x30, .f32⟩ : BufTy).Contents (Elt F)) : (⟨S16384x7x7, .f32⟩ : BufTy).Contents (Elt F) :=
  shapeCast _ (val_main_v7 (F := F) x1) shapeCasts_S16384x7x7x1_S16384x7x7
def val_main_v9 (x1 : (⟨S16384x7x7x30, .f32⟩ : BufTy).Contents (Elt F)) : (⟨S16384x7x7x1, .f32⟩ : BufTy).Contents (Elt F) :=
  extractStridedSlice S16384x7x7x1 ![0, 0, 0, 2] (x1) slices_S16384x7x7x30_S16384x7x7x1_0_0_0_2
def val_main_v10 (x1 : (⟨S16384x7x7x30, .f32⟩ : BufTy).Contents (Elt F)) : (⟨S16384x7x7, .f32⟩ : BufTy).Contents (Elt F) :=
  shapeCast _ (val_main_v9 (F := F) x1) shapeCasts_S16384x7x7x1_S16384x7x7
def val_main_v11 (x1 : (⟨S16384x7x7x30, .f32⟩ : BufTy).Contents (Elt F)) : (⟨S16384x7x7x1, .f32⟩ : BufTy).Contents (Elt F) :=
  extractStridedSlice S16384x7x7x1 ![0, 0, 0, 3] (x1) slices_S16384x7x7x30_S16384x7x7x1_0_0_0_3
def val_main_v12 (x1 : (⟨S16384x7x7x30, .f32⟩ : BufTy).Contents (Elt F)) : (⟨S16384x7x7, .f32⟩ : BufTy).Contents (Elt F) :=
  shapeCast _ (val_main_v11 (F := F) x1) shapeCasts_S16384x7x7x1_S16384x7x7
def val_main_v13 (x1 : (⟨S16384x7x7x30, .f32⟩ : BufTy).Contents (Elt F)) : (⟨S16384x7x7x1, .f32⟩ : BufTy).Contents (Elt F) :=
  broadcastInDim S16384x7x7x1 ![0, 1, 2] bcast_S16384x7x7_S16384x7x7x1_0_1_2 (val_main_v6 (F := F) x1)
def val_main_v14 (x1 : (⟨S16384x7x7x30, .f32⟩ : BufTy).Contents (Elt F)) : (⟨S16384x7x7x1, .f32⟩ : BufTy).Contents (Elt F) :=
  broadcastInDim S16384x7x7x1 ![0, 1, 2] bcast_S16384x7x7_S16384x7x7x1_0_1_2 (val_main_v8 (F := F) x1)
def val_main_v15 (x1 : (⟨S16384x7x7x30, .f32⟩ : BufTy).Contents (Elt F)) : (⟨S16384x7x7x1, .f32⟩ : BufTy).Contents (Elt F) :=
  broadcastInDim S16384x7x7x1 ![0, 1, 2] bcast_S16384x7x7_S16384x7x7x1_0_1_2 (val_main_v10 (F := F) x1)
def val_main_v16 (x1 : (⟨S16384x7x7x30, .f32⟩ : BufTy).Contents (Elt F)) : (⟨S16384x7x7x1, .f32⟩ : BufTy).Contents (Elt F) :=
  broadcastInDim S16384x7x7x1 ![0, 1, 2] bcast_S16384x7x7_S16384x7x7x1_0_1_2 (val_main_v12 (F := F) x1)
def val_main_v17 (x1 : (⟨S16384x7x7x30, .f32⟩ : BufTy).Contents (Elt F)) : (⟨S16384x7x7x4, .f32⟩ : BufTy).Contents (Elt F) :=
  concatenate S16384x7x7x4 3 [⟨S16384x7x7x1, (val_main_v13 (F := F) x1)⟩, ⟨S16384x7x7x1, (val_main_v14 (F := F) x1)⟩, ⟨S16384x7x7x1, (val_main_v15 (F := F) x1)⟩, ⟨S16384x7x7x1, (val_main_v16 (F := F) x1)⟩] concatenates_S16384x7x7x1_S16384x7x7x1_S16384x7x7x1_S16384x7x7x1_S16384x7x7x4_d3
def val_main_v18 (x0 : (⟨S16384x7x7x30, .f32⟩ : BufTy).Contents (Elt F)) : (⟨S16384x7x7x4, .f32⟩ : BufTy).Contents (Elt F) :=
  extractStridedSlice S16384x7x7x4 ![0, 0, 0, 0] (x0) slices_S16384x7x7x30_S16384x7x7x4_0_0_0_0
def val_main_v19 (x0 : (⟨S16384x7x7x30, .f32⟩ : BufTy).Contents (Elt F)) : (⟨S16384x7x7x2, .f32⟩ : BufTy).Contents (Elt F) :=
  extractStridedSlice S16384x7x7x2 ![0, 0, 0, 0] (val_main_v18 (F := F) x0) slices_S16384x7x7x4_S16384x7x7x2_0_0_0_0
def val_main_v20 (x0 : (⟨S16384x7x7x30, .f32⟩ : BufTy).Contents (Elt F)) : (⟨S16384x7x7x2, .f32⟩ : BufTy).Contents (Elt F) :=
  extractStridedSlice S16384x7x7x2 ![0, 0, 0, 2] (val_main_v18 (F := F) x0) slices_S16384x7x7x4_S16384x7x7x2_0_0_0_2
def val_main_cst_0 : (⟨S_, .f32⟩ : BufTy).Contents (Elt F) :=
  constant S_ .f32 0x3F000000#32
def val_main_v21 : (⟨S16384x7x7x2, .f32⟩ : BufTy).Contents (Elt F) :=
  broadcastInDim S16384x7x7x2 ![] bcast_S_S16384x7x7x2 (val_main_cst_0 (F := F))
def val_main_v22 (x0 : (⟨S16384x7x7x30, .f32⟩ : BufTy).Contents (Elt F)) : (⟨S16384x7x7x2, .f32⟩ : BufTy).Contents (Elt F) :=
  mulf (val_main_v20 (F := F) x0) (val_main_v21 (F := F))
def val_main_v23 (x0 : (⟨S16384x7x7x30, .f32⟩ : BufTy).Contents (Elt F)) : (⟨S16384x7x7x2, .f32⟩ : BufTy).Contents (Elt F) :=
  subf (val_main_v19 (F := F) x0) (val_main_v22 (F := F) x0)
def val_main_v24 (x0 : (⟨S16384x7x7x30, .f32⟩ : BufTy).Contents (Elt F)) : (⟨S16384x7x7x2, .f32⟩ : BufTy).Contents (Elt F) :=
  extractStridedSlice S16384x7x7x2 ![0, 0, 0, 0] (val_main_v18 (F := F) x0) slices_S16384x7x7x4_S16384x7x7x2_0_0_0_0
def val_main_v25 (x0 : (⟨S16384x7x7x30, .f32⟩ : BufTy).Contents (Elt F)) : (⟨S16384x7x7x2, .f32⟩ : BufTy).Contents (Elt F) :=
  extractStridedSlice S16384x7x7x2 ![0, 0, 0, 2] (val_main_v18 (F := F) x0) slices_S16384x7x7x4_S16384x7x7x2_0_0_0_2
def val_main_cst_1 : (⟨S_, .f32⟩ : BufTy).Contents (Elt F) :=
  constant S_ .f32 0x3F000000#32
def val_main_v26 : (⟨S16384x7x7x2, .f32⟩ : BufTy).Contents (Elt F) :=
  broadcastInDim S16384x7x7x2 ![] bcast_S_S16384x7x7x2 (val_main_cst_1 (F := F))
def val_main_v27 (x0 : (⟨S16384x7x7x30, .f32⟩ : BufTy).Contents (Elt F)) : (⟨S16384x7x7x2, .f32⟩ : BufTy).Contents (Elt F) :=
  mulf (val_main_v25 (F := F) x0) (val_main_v26 (F := F))
def val_main_v28 (x0 : (⟨S16384x7x7x30, .f32⟩ : BufTy).Contents (Elt F)) : (⟨S16384x7x7x2, .f32⟩ : BufTy).Contents (Elt F) :=
  addf (val_main_v24 (F := F) x0) (val_main_v27 (F := F) x0)
def val_main_v29 (x1 : (⟨S16384x7x7x30, .f32⟩ : BufTy).Contents (Elt F)) : (⟨S16384x7x7x2, .f32⟩ : BufTy).Contents (Elt F) :=
  extractStridedSlice S16384x7x7x2 ![0, 0, 0, 0] (val_main_v17 (F := F) x1) slices_S16384x7x7x4_S16384x7x7x2_0_0_0_0
def val_main_v30 (x1 : (⟨S16384x7x7x30, .f32⟩ : BufTy).Contents (Elt F)) : (⟨S16384x7x7x2, .f32⟩ : BufTy).Contents (Elt F) :=
  extractStridedSlice S16384x7x7x2 ![0, 0, 0, 2] (val_main_v17 (F := F) x1) slices_S16384x7x7x4_S16384x7x7x2_0_0_0_2
def val_main_cst_2 : (⟨S_, .f32⟩ : BufTy).Contents (Elt F) :=
  constant S_ .f32 0x3F000000#32
def val_main_v31 : (⟨S16384x7x7x2, .f32⟩ : BufTy).Contents (Elt F) :=
  broadcastInDim S16384x7x7x2 ![] bcast_S_S16384x7x7x2 (val_main_cst_2 (F := F))
def val_main_v32 (x1 : (⟨S16384x7x7x30, .f32⟩ : BufTy).Contents (Elt F)) : (⟨S16384x7x7x2, .f32⟩ : BufTy).Contents (Elt F) :=
  mulf (val_main_v30 (F := F) x1) (val_main_v31 (F := F))
def val_main_v33 (x1 : (⟨S16384x7x7x30, .f32⟩ : BufTy).Contents (Elt F)) : (⟨S16384x7x7x2, .f32⟩ : BufTy).Contents (Elt F) :=
  subf (val_main_v29 (F := F) x1) (val_main_v32 (F := F) x1)
def val_main_v34 (x1 : (⟨S16384x7x7x30, .f32⟩ : BufTy).Contents (Elt F)) : (⟨S16384x7x7x2, .f32⟩ : BufTy).Contents (Elt F) :=
  extractStridedSlice S16384x7x7x2 ![0, 0, 0, 0] (val_main_v17 (F := F) x1) slices_S16384x7x7x4_S16384x7x7x2_0_0_0_0
def val_main_v35 (x1 : (⟨S16384x7x7x30, .f32⟩ : BufTy).Contents (Elt F)) : (⟨S16384x7x7x2, .f32⟩ : BufTy).Contents (Elt F) :=
  extractStridedSlice S16384x7x7x2 ![0, 0, 0, 2] (val_main_v17 (F := F) x1) slices_S16384x7x7x4_S16384x7x7x2_0_0_0_2
def val_main_cst_3 : (⟨S_, .f32⟩ : BufTy).Contents (Elt F) :=
  constant S_ .f32 0x3F000000#32
def val_main_v36 : (⟨S16384x7x7x2, .f32⟩ : BufTy).Contents (Elt F) :=
  broadcastInDim S16384x7x7x2 ![] bcast_S_S16384x7x7x2 (val_main_cst_3 (F := F))
def val_main_v37 (x1 : (⟨S16384x7x7x30, .f32⟩ : BufTy).Contents (Elt F)) : (⟨S16384x7x7x2, .f32⟩ : BufTy).Contents (Elt F) :=
  mulf (val_main_v35 (F := F) x1) (val_main_v36 (F := F))
def val_main_v38 (x1 : (⟨S16384x7x7x30, .f32⟩ : BufTy).Contents (Elt F)) : (⟨S16384x7x7x2, .f32⟩ : BufTy).Contents (Elt F) :=
  addf (val_main_v34 (F := F) x1) (val_main_v37 (F := F) x1)
def val_main_v39 (x0 x1 : (⟨S16384x7x7x30, .f32⟩ : BufTy).Contents (Elt F)) : (⟨S16384x7x7x2, .f32⟩ : BufTy).Contents (Elt F) :=
  minimumf (val_main_v28 (F := F) x0) (val_main_v38 (F := F) x1)
def val_main_v40 (x0 x1 : (⟨S16384x7x7x30, .f32⟩ : BufTy).Contents (Elt F)) : (⟨S16384x7x7x2, .f32⟩ : BufTy).Contents (Elt F) :=
  maximumf (val_main_v23 (F := F) x0) (val_main_v33 (F := F) x1)
def val_main_v41 (x0 x1 : (⟨S16384x7x7x30, .f32⟩ : BufTy).Contents (Elt F)) : (⟨S16384x7x7x2, .f32⟩ : BufTy).Contents (Elt F) :=
  subf (val_main_v39 (F := F) x0 x1) (val_main_v40 (F := F) x0 x1)
def val_main_cst_4 : (⟨S_, .f32⟩ : BufTy).Contents (Elt F) :=
  constant S_ .f32 0x00000000#32
def val_main_call0_v0 : (⟨S_, .f32⟩ : BufTy).Contents (Elt F) :=
  id (val_main_cst_4 (F := F))
def val_main_call0_v1 : (⟨S16384x7x7x2, .f32⟩ : BufTy).Contents (Elt F) :=
  broadcastInDim S16384x7x7x2 ![] bcast_S_S16384x7x7x2 (val_main_call0_v0 (F := F))
def val_main_v42 (x0 x1 : (⟨S16384x7x7x30, .f32⟩ : BufTy).Contents (Elt F)) : (⟨S16384x7x7x2, .f32⟩ : BufTy).Contents (Elt F) :=
  maximumf (val_main_call0_v1 (F := F)) (val_main_v41 (F := F) x0 x1)
def val_main_v43 (x0 x1 : (⟨S16384x7x7x30, .f32⟩ : BufTy).Contents (Elt F)) : (⟨S16384x7x7x1, .f32⟩ : BufTy).Contents (Elt F) :=
  extractStridedSlice S16384x7x7x1 ![0, 0, 0, 0] (val_main_v42 (F := F) x0 x1) slices_S16384x7x7x2_S16384x7x7x1_0_0_0_0
def val_main_v44 (x0 x1 : (⟨S16384x7x7x30, .f32⟩ : BufTy).Contents (Elt F)) : (⟨S16384x7x7, .f32⟩ : BufTy).Contents (Elt F) :=
  shapeCast _ (val_main_v43 (F := F) x0 x1) shapeCasts_S16384x7x7x1_S16384x7x7
def val_main_v45 (x0 x1 : (⟨S16384x7x7x30, .f32⟩ : BufTy).Contents (Elt F)) : (⟨S16384x7x7x1, .f32⟩ : BufTy).Contents (Elt F) :=
  extractStridedSlice S16384x7x7x1 ![0, 0, 0, 1] (val_main_v42 (F := F) x0 x1) slices_S16384x7x7x2_S16384x7x7x1_0_0_0_1
def val_main_v46 (x0 x1 : (⟨S16384x7x7x30, .f32⟩ : BufTy).Contents (Elt F)) : (⟨S16384x7x7, .f32⟩ : BufTy).Contents (Elt F) :=
  shapeCast _ (val_main_v45 (F := F) x0 x1) shapeCasts_S16384x7x7x1_S16384x7x7
def val_main_v47 (x0 x1 : (⟨S16384x7x7x30, .f32⟩ : BufTy).Contents (Elt F)) : (⟨S16384x7x7, .f32⟩ : BufTy).Contents (Elt F) :=
  mulf (val_main_v44 (F := F) x0 x1) (val_main_v46 (F := F) x0 x1)
def val_main_v48 (x0 : (⟨S16384x7x7x30, .f32⟩ : BufTy).Contents (Elt F)) : (⟨S16384x7x7x1, .f32⟩ : BufTy).Contents (Elt F) :=
  extractStridedSlice S16384x7x7x1 ![0, 0, 0, 2] (val_main_v18 (F := F) x0) slices_S16384x7x7x4_S16384x7x7x1_0_0_0_2
def val_main_v49 (x0 : (⟨S16384x7x7x30, .f32⟩ : BufTy).Contents (Elt F)) : (⟨S16384x7x7, .f32⟩ : BufTy).Contents (Elt F) :=
  shapeCast _ (val_main_v48 (F := F) x0) shapeCasts_S16384x7x7x1_S16384x7x7
def val_main_v50 (x0 : (⟨S16384x7x7x30, .f32⟩ : BufTy).Contents (Elt F)) : (⟨S16384x7x7x1, .f32⟩ : BufTy).Contents (Elt F) :=
  extractStridedSlice S16384x7x7x1 ![0, 0, 0, 3] (val_main_v18 (F := F) x0) slices_S16384x7x7x4_S16384x7x7x1_0_0_0_3
def val_main_v51 (x0 : (⟨S16384x7x7x30, .f32⟩ : BufTy).Contents (Elt F)) : (⟨S16384x7x7, .f32⟩ : BufTy).Contents (Elt F) :=
  shapeCast _ (val_main_v50 (F := F) x0) shapeCasts_S16384x7x7x1_S16384x7x7
def val_main_v52 (x0 : (⟨S16384x7x7x30, .f32⟩ : BufTy).Contents (Elt F)) : (⟨S16384x7x7, .f32⟩ : BufTy).Contents (Elt F) :=
  mulf (val_main_v49 (F := F) x0) (val_main_v51 (F := F) x0)
def val_main_v53 (x1 : (⟨S16384x7x7x30, .f32⟩ : BufTy).Contents (Elt F)) : (⟨S16384x7x7x1, .f32⟩ : BufTy).Contents (Elt F) :=
  extractStridedSlice S16384x7x7x1 ![0, 0, 0, 2] (val_main_v17 (F := F) x1) slices_S16384x7x7x4_S16384x7x7x1_0_0_0_2
def val_main_v54 (x1 : (⟨S16384x7x7x30, .f32⟩ : BufTy).Contents (Elt F)) : (⟨S16384x7x7, .f32⟩ : BufTy).Contents (Elt F) :=
  shapeCast _ (val_main_v53 (F := F) x1) shapeCasts_S16384x7x7x1_S16384x7x7
def val_main_v55 (x1 : (⟨S16384x7x7x30, .f32⟩ : BufTy).Contents (Elt F)) : (⟨S16384x7x7x1, .f32⟩ : BufTy).Contents (Elt F) :=
  extractStridedSlice S16384x7x7x1 ![0, 0, 0, 3] (val_main_v17 (F := F) x1) slices_S16384x7x7x4_S16384x7x7x1_0_0_0_3
def val_main_v56 (x1 : (⟨S16384x7x7x30, .f32⟩ : BufTy).Contents (Elt F)) : (⟨S16384x7x7, .f32⟩ : BufTy).Contents (Elt F) :=
  shapeCast _ (val_main_v55 (F := F) x1) shapeCasts_S16384x7x7x1_S16384x7x7
def val_main_v57 (x1 : (⟨S16384x7x7x30, .f32⟩ : BufTy).Contents (Elt F)) : (⟨S16384x7x7, .f32⟩ : BufTy).Contents (Elt F) :=
  mulf (val_main_v54 (F := F) x1) (val_main_v56 (F := F) x1)
def val_main_v58 (x0 x1 : (⟨S16384x7x7x30, .f32⟩ : BufTy).Contents (Elt F)) : (⟨S16384x7x7, .f32⟩ : BufTy).Contents (Elt F) :=
  addf (val_main_v52 (F := F) x0) (val_main_v57 (F := F) x1)
def val_main_v59 (x0 x1 : (⟨S16384x7x7x30, .f32⟩ : BufTy).Contents (Elt F)) : (⟨S16384x7x7, .f32⟩ : BufTy).Contents (Elt F) :=
  subf (val_main_v58 (F := F) x0 x1) (val_main_v47 (F := F) x0 x1)
def val_main_cst_5 : (⟨S_, .f32⟩ : BufTy).Contents (Elt F) :=
  constant S_ .f32 0x2EDBE6FF#32
def val_main_v60 : (⟨S16384x7x7, .f32⟩ : BufTy).Contents (Elt F) :=
  broadcastInDim S16384x7x7 ![] bcast_S_S16384x7x7 (val_main_cst_5 (F := F))
def val_main_v61 (x0 x1 : (⟨S16384x7x7x30, .f32⟩ : BufTy).Contents (Elt F)) : (⟨S16384x7x7, .f32⟩ : BufTy).Contents (Elt F) :=
  addf (val_main_v59 (F := F) x0 x1) (val_main_v60 (F := F))
def val_main_v62 (x0 x1 : (⟨S16384x7x7x30, .f32⟩ : BufTy).Contents (Elt F)) : (⟨S16384x7x7, .f32⟩ : BufTy).Contents (Elt F) :=
  Host.divf (val_main_v47 (F := F) x0 x1) (val_main_v61 (F := F) x0 x1)
def val_main_v63 (x0 : (⟨S16384x7x7x30, .f32⟩ : BufTy).Contents (Elt F)) : (⟨S16384x7x7x4, .f32⟩ : BufTy).Contents (Elt F) :=
  extractStridedSlice S16384x7x7x4 ![0, 0, 0, 5] (x0) slices_S16384x7x7x30_S16384x7x7x4_0_0_0_5
def val_main_v64 (x0 : (⟨S16384x7x7x30, .f32⟩ : BufTy).Contents (Elt F)) : (⟨S16384x7x7x2, .f32⟩ : BufTy).Contents (Elt F) :=
  extractStridedSlice S16384x7x7x2 ![0, 0, 0, 0] (val_main_v63 (F := F) x0) slices_S16384x7x7x4_S16384x7x7x2_0_0_0_0
def val_main_v65 (x0 : (⟨S16384x7x7x30, .f32⟩ : BufTy).Contents (Elt F)) : (⟨S16384x7x7x2, .f32⟩ : BufTy).Contents (Elt F) :=
  extractStridedSlice S16384x7x7x2 ![0, 0, 0, 2] (val_main_v63 (F := F) x0) slices_S16384x7x7x4_S16384x7x7x2_0_0_0_2
def val_main_cst_6 : (⟨S_, .f32⟩ : BufTy).Contents (Elt F) :=
  constant S_ .f32 0x3F000000#32
def val_main_v66 : (⟨S16384x7x7x2, .f32⟩ : BufTy).Contents (Elt F) :=
  broadcastInDim S16384x7x7x2 ![] bcast_S_S16384x7x7x2 (val_main_cst_6 (F := F))
def val_main_v67 (x0 : (⟨S16384x7x7x30, .f32⟩ : BufTy).Contents (Elt F)) : (⟨S16384x7x7x2, .f32⟩ : BufTy).Contents (Elt F) :=
  mulf (val_main_v65 (F := F) x0) (val_main_v66 (F := F))
def val_main_v68 (x0 : (⟨S16384x7x7x30, .f32⟩ : BufTy).Contents (Elt F)) : (⟨S16384x7x7x2, .f32⟩ : BufTy).Contents (Elt F) :=
  subf (val_main_v64 (F := F) x0) (val_main_v67 (F := F) x0)
def val_main_v69 (x0 : (⟨S16384x7x7x30, .f32⟩ : BufTy).Contents (Elt F)) : (⟨S16384x7x7x2, .f32⟩ : BufTy).Contents (Elt F) :=
  extractStridedSlice S16384x7x7x2 ![0, 0, 0, 0] (val_main_v63 (F := F) x0) slices_S16384x7x7x4_S16384x7x7x2_0_0_0_0
def val_main_v70 (x0 : (⟨S16384x7x7x30, .f32⟩ : BufTy).Contents (Elt F)) : (⟨S16384x7x7x2, .f32⟩ : BufTy).Contents (Elt F) :=
  extractStridedSlice S16384x7x7x2 ![0, 0, 0, 2] (val_main_v63 (F := F) x0) slices_S16384x7x7x4_S16384x7x7x2_0_0_0_2
def val_main_cst_7 : (⟨S_, .f32⟩ : BufTy).Contents (Elt F) :=
  constant S_ .f32 0x3F000000#32
def val_main_v71 : (⟨S16384x7x7x2, .f32⟩ : BufTy).Contents (Elt F) :=
  broadcastInDim S16384x7x7x2 ![] bcast_S_S16384x7x7x2 (val_main_cst_7 (F := F))
def val_main_v72 (x0 : (⟨S16384x7x7x30, .f32⟩ : BufTy).Contents (Elt F)) : (⟨S16384x7x7x2, .f32⟩ : BufTy).Contents (Elt F) :=
  mulf (val_main_v70 (F := F) x0) (val_main_v71 (F := F))
def val_main_v73 (x0 : (⟨S16384x7x7x30, .f32⟩ : BufTy).Contents (Elt F)) : (⟨S16384x7x7x2, .f32⟩ : BufTy).Contents (Elt F) :=
  addf (val_main_v69 (F := F) x0) (val_main_v72 (F := F) x0)
def val_main_v74 (x1 : (⟨S16384x7x7x30, .f32⟩ : BufTy).Contents (Elt F)) : (⟨S16384x7x7x2, .f32⟩ : BufTy).Contents (Elt F) :=
  extractStridedSlice S16384x7x7x2 ![0, 0, 0, 0] (val_main_v17 (F := F) x1) slices_S16384x7x7x4_S16384x7x7x2_0_0_0_0
def val_main_v75 (x1 : (⟨S16384x7x7x30, .f32⟩ : BufTy).Contents (Elt F)) : (⟨S16384x7x7x2, .f32⟩ : BufTy).Contents (Elt F) :=
  extractStridedSlice S16384x7x7x2 ![0, 0, 0, 2] (val_main_v17 (F := F) x1) slices_S16384x7x7x4_S16384x7x7x2_0_0_0_2
def val_main_cst_8 : (⟨S_, .f32⟩ : BufTy).Contents (Elt F) :=
  constant S_ .f32 0x3F000000#32
def val_main_v76 : (⟨S16384x7x7x2, .f32⟩ : BufTy).Contents (Elt F) :=
  broadcastInDim S16384x7x7x2 ![] bcast_S_S16384x7x7x2 (val_main_cst_8 (F := F))
def val_main_v77 (x1 : (⟨S16384x7x7x30, .f32⟩ : BufTy).Contents (Elt F)) : (⟨S16384x7x7x2, .f32⟩ : BufTy).Contents (Elt F) :=
  mulf (val_main_v75 (F := F) x1) (val_main_v76 (F := F))
def val_main_v78 (x1 : (⟨S16384x7x7x30, .f32⟩ : BufTy).Contents (Elt F)) : (⟨S16384x7x7x2, .f32⟩ : BufTy).Contents (Elt F) :=
  subf (val_main_v74 (F := F) x1) (val_main_v77 (F := F) x1)
def val_main_v79 (x1 : (⟨S16384x7x7x30, .f32⟩ : BufTy).Contents (Elt F)) : (⟨S16384x7x7x2, .f32⟩ : BufTy).Contents (Elt F) :=
  extractStridedSlice S16384x7x7x2 ![0, 0, 0, 0] (val_main_v17 (F := F) x1) slices_S16384x7x7x4_S16384x7x7x2_0_0_0_0
def val_main_v80 (x1 : (⟨S16384x7x7x30, .f32⟩ : BufTy).Contents (Elt F)) : (⟨S16384x7x7x2, .f32⟩ : BufTy).Contents (Elt F) :=
  extractStridedSlice S16384x7x7x2 ![0, 0, 0, 2] (val_main_v17 (F := F) x1) slices_S16384x7x7x4_S16384x7x7x2_0_0_0_2
def val_main_cst_9 : (⟨S_, .f32⟩ : BufTy).Contents (Elt F) :=
  constant S_ .f32 0x3F000000#32
def val_main_v81 : (⟨S16384x7x7x2, .f32⟩ : BufTy).Contents (Elt F) :=
  broadcastInDim S16384x7x7x2 ![] bcast_S_S16384x7x7x2 (val_main_cst_9 (F := F))
def val_main_v82 (x1 : (⟨S16384x7x7x30, .f32⟩ : BufTy).Contents (Elt F)) : (⟨S16384x7x7x2, .f32⟩ : BufTy).Contents (Elt F) :=
  mulf (val_main_v80 (F := F) x1) (val_main_v81 (F := F))
def val_main_v83 (x1 : (⟨S16384x7x7x30, .f32⟩ : BufTy).Contents (Elt F)) : (⟨S16384x7x7x2, .f32⟩ : BufTy).Contents (Elt F) :=
  addf (val_main_v79 (F := F) x1) (val_main_v82 (F := F) x1)
def val_main_v84 (x0 x1 : (⟨S16384x7x7x30, .f32⟩ : BufTy).Contents (Elt F)) : (⟨S16384x7x7x2, .f32⟩ : BufTy).Contents (Elt F) :=
  minimumf (val_main_v73 (F := F) x0) (val_main_v83 (F := F) x1)
def val_main_v85 (x0 x1 : (⟨S16384x7x7x30, .f32⟩ : BufTy).Contents (Elt F)) : (⟨S16384x7x7x2, .f32⟩ : BufTy).Contents (Elt F) :=
  maximumf (val_main_v68 (F := F) x0) (val_main_v78 (F := F) x1)
def val_main_v86 (x0 x1 : (⟨S16384x7x7x30, .f32⟩ : BufTy).Contents (Elt F)) : (⟨S16384x7x7x2, .f32⟩ : BufTy).Contents (Elt F) :=
  subf (val_main_v84 (F := F) x0 x1) (val_main_v85 (F := F) x0 x1)
def val_main_cst_10 : (⟨S_, .f32⟩ : BufTy).Contents (Elt F) :=
  constant S_ .f32 0x00000000#32
def val_main_call1_v0 : (⟨S_, .f32⟩ : BufTy).Contents (Elt F) :=
  id (val_main_cst_10 (F := F))
def val_main_call1_v1 : (⟨S16384x7x7x2, .f32⟩ : BufTy).Contents (Elt F) :=
  broadcastInDim S16384x7x7x2 ![] bcast_S_S16384x7x7x2 (val_main_call1_v0 (F := F))
def val_main_v87 (x0 x1 : (⟨S16384x7x7x30, .f32⟩ : BufTy).Contents (Elt F)) : (⟨S16384x7x7x2, .f32⟩ : BufTy).Contents (Elt F) :=
  maximumf (val_main_call1_v1 (F := F)) (val_main_v86 (F := F) x0 x1)
def val_main_v88 (x0 x1 : (⟨S16384x7x7x30, .f32⟩ : BufTy).Contents (Elt F)) : (⟨S16384x7x7x1, .f32⟩ : BufTy).Contents (Elt F) :=
  extractStridedSlice S16384x7x7x1 ![0, 0, 0, 0] (val_main_v87 (F := F) x0 x1) slices_S16384x7x7x2_S16384x7x7x1_0_0_0_0
def val_main_v89 (x0 x1 : (⟨S16384x7x7x30, .f32⟩ : BufTy).Contents (Elt F)) : (⟨S16384x7x7, .f32⟩ : BufTy).Contents (Elt F) :=
  shapeCast _ (val_main_v88 (F := F) x0 x1) shapeCasts_S16384x7x7x1_S16384x7x7
def val_main_v90 (x0 x1 : (⟨S16384x7x7x30, .f32⟩ : BufTy).Contents (Elt F)) : (⟨S16384x7x7x1, .f32⟩ : BufTy).Contents (Elt F) :=
  extractStridedSlice S16384x7x7x1 ![0, 0, 0, 1] (val_main_v87 (F := F) x0 x1) slices_S16384x7x7x2_S16384x7x7x1_0_0_0_1
def val_main_v91 (x0 x1 : (⟨S16384x7x7x30, .f32⟩ : BufTy).Contents (Elt F)) : (⟨S16384x7x7, .f32⟩ : BufTy).Contents (Elt F) :=
  shapeCast _ (val_main_v90 (F := F) x0 x1) shapeCasts_S16384x7x7x1_S16384x7x7
def val_main_v92 (x0 x1 : (⟨S16384x7x7x30, .f32⟩ : BufTy).Contents (Elt F)) : (⟨S16384x7x7, .f32⟩ : BufTy).Contents (Elt F) :=
  mulf (val_main_v89 (F := F) x0 x1) (val_main_v91 (F := F) x0 x1)
def val_main_v93 (x0 : (⟨S16384x7x7x30, .f32⟩ : BufTy).Contents (Elt F)) : (⟨S16384x7x7x1, .f32⟩ : BufTy).Contents (Elt F) :=
  extractStridedSlice S16384x7x7x1 ![0, 0, 0, 2] (val_main_v63 (F := F) x0) slices_S16384x7x7x4_S16384x7x7x1_0_0_0_2
def val_main_v94 (x0 : (⟨S16384x7x7x30, .f32⟩ : BufTy).Contents (Elt F)) : (⟨S16384x7x7, .f32⟩ : BufTy).Contents (Elt F) :=
  shapeCast _ (val_main_v93 (F := F) x0) shapeCasts_S16384x7x7x1_S16384x7x7
def val_main_v95 (x0 : (⟨S16384x7x7x30, .f32⟩ : BufTy).Contents (Elt F)) : (⟨S16384x7x7x1, .f32⟩ : BufTy).Contents (Elt F) :=
  extractStridedSlice S16384x7x7x1 ![0, 0, 0, 3] (val_main_v63 (F := F) x0) slices_S16384x7x7x4_S16384x7x7x1_0_0_0_3
def val_main_v96 (x0 : (⟨S16384x7x7x30, .f32⟩ : BufTy).Contents (Elt F)) : (⟨S16384x7x7, .f32⟩ : BufTy).Contents (Elt F) :=
  shapeCast _ (val_main_v95 (F := F) x0) shapeCasts_S16384x7x7x1_S16384x7x7
def val_main_v97 (x0 : (⟨S16384x7x7x30, .f32⟩ : BufTy).Contents (Elt F)) : (⟨S16384x7x7, .f32⟩ : BufTy).Contents (Elt F) :=
  mulf (val_main_v94 (F := F) x0) (val_main_v96 (F := F) x0)
def val_main_v98 (x1 : (⟨S16384x7x7x30, .f32⟩ : BufTy).Contents (Elt F)) : (⟨S16384x7x7x1, .f32⟩ : BufTy).Contents (Elt F) :=
  extractStridedSlice S16384x7x7x1 ![0, 0, 0, 2] (val_main_v17 (F := F) x1) slices_S16384x7x7x4_S16384x7x7x1_0_0_0_2
def val_main_v99 (x1 : (⟨S16384x7x7x30, .f32⟩ : BufTy).Contents (Elt F)) : (⟨S16384x7x7, .f32⟩ : BufTy).Contents (Elt F) :=
  shapeCast _ (val_main_v98 (F := F) x1) shapeCasts_S16384x7x7x1_S16384x7x7
def val_main_v100 (x1 : (⟨S16384x7x7x30, .f32⟩ : BufTy).Contents (Elt F)) : (⟨S16384x7x7x1, .f32⟩ : BufTy).Contents (Elt F) :=
  extractStridedSlice S16384x7x7x1 ![0, 0, 0, 3] (val_main_v17 (F := F) x1) slices_S16384x7x7x4_S16384x7x7x1_0_0_0_3
def val_main_v101 (x1 : (⟨S16384x7x7x30, .f32⟩ : BufTy).Contents (Elt F)) : (⟨S16384x7x7, .f32⟩ : BufTy).Contents (Elt F) :=
  shapeCast _ (val_main_v100 (F := F) x1) shapeCasts_S16384x7x7x1_S16384x7x7
def val_main_v102 (x1 : (⟨S16384x7x7x30, .f32⟩ : BufTy).Contents (Elt F)) : (⟨S16384x7x7, .f32⟩ : BufTy).Contents (Elt F) :=
  mulf (val_main_v99 (F := F) x1) (val_main_v101 (F := F) x1)
def val_main_v103 (x0 x1 : (⟨S16384x7x7x30, .f32⟩ : BufTy).Contents (Elt F)) : (⟨S16384x7x7, .f32⟩ : BufTy).Contents (Elt F) :=
  addf (val_main_v97 (F := F) x0) (val_main_v102 (F := F) x1)
def val_main_v104 (x0 x1 : (⟨S16384x7x7x30, .f32⟩ : BufTy).Contents (Elt F)) : (⟨S16384x7x7, .f32⟩ : BufTy).Contents (Elt F) :=
  subf (val_main_v103 (F := F) x0 x1) (val_main_v92 (F := F) x0 x1)
def val_main_cst_11 : (⟨S_, .f32⟩ : BufTy).Contents (Elt F) :=
  constant S_ .f32 0x2EDBE6FF#32
def val_main_v105 : (⟨S16384x7x7, .f32⟩ : BufTy).Contents (Elt F) :=
  broadcastInDim S16384x7x7 ![] bcast_S_S16384x7x7 (val_main_cst_11 (F := F))
def val_main_v106 (x0 x1 : (⟨S16384x7x7x30, .f32⟩ : BufTy).Contents (Elt F)) : (⟨S16384x7x7, .f32⟩ : BufTy).Contents (Elt F) :=
  addf (val_main_v104 (F := F) x0 x1) (val_main_v105 (F := F))
def val_main_v107 (x0 x1 : (⟨S16384x7x7x30, .f32⟩ : BufTy).Contents (Elt F)) : (⟨S16384x7x7, .f32⟩ : BufTy).Contents (Elt F) :=
  Host.divf (val_main_v92 (F := F) x0 x1) (val_main_v106 (F := F) x0 x1)
def val_main_v108 (x0 x1 : (⟨S16384x7x7x30, .f32⟩ : BufTy).Contents (Elt F)) : (⟨S16384x7x7, .i1⟩ : BufTy).Contents (Elt F) :=
  cmpf .ogt (val_main_v62 (F := F) x0 x1) (val_main_v107 (F := F) x0 x1)
def val_main_v109 (x0 : (⟨S16384x7x7x30, .f32⟩ : BufTy).Contents (Elt F)) : (⟨S16384x7x7x2, .f32⟩ : BufTy).Contents (Elt F) :=
  extractStridedSlice S16384x7x7x2 ![0, 0, 0, 0] (x0) slices_S16384x7x7x30_S16384x7x7x2_0_0_0_0
def val_main_v110 (x1 : (⟨S16384x7x7x30, .f32⟩ : BufTy).Contents (Elt F)) : (⟨S16384x7x7x2, .f32⟩ : BufTy).Contents (Elt F) :=
  extractStridedSlice S16384x7x7x2 ![0, 0, 0, 0] (x1) slices_S16384x7x7x30_S16384x7x7x2_0_0_0_0
def val_main_v111 (x0 x1 : (⟨S16384x7x7x30, .f32⟩ : BufTy).Contents (Elt F)) : (⟨S16384x7x7x2, .f32⟩ : BufTy).Contents (Elt F) :=
  subf (val_main_v109 (F := F) x0) (val_main_v110 (F := F) x1)
def val_main_v112 (x0 x1 : (⟨S16384x7x7x30, .f32⟩ : BufTy).Contents (Elt F)) : (⟨S16384x7x7x2, .f32⟩ : BufTy).Contents (Elt F) :=
  mulf (val_main_v111 (F := F) x0 x1) (val_main_v111 (F := F) x0 x1)
def val_main_cst_12 : (⟨S_, .f32⟩ : BufTy).Contents (Elt F) :=
  constant S_ .f32 0x00000000#32
def val_main_v113 (x0 x1 : (⟨S16384x7x7x30, .f32⟩ : BufTy).Contents (Elt F)) : (⟨S16384x7x7, .f32⟩ : BufTy).Contents (Elt F) :=
  Host.reduceAdd (val_main_v112 (F := F) x0 x1) (val_main_cst_12 (F := F)) reducesTo_S16384x7x7x2_S16384x7x7_d3 h_S_
def val_main_cst_13 : (⟨S_, .f32⟩ : BufTy).Contents (Elt F) :=
  constant S_ .f32 0x40A00000#32
def val_main_v114 : (⟨S16384x7x7, .f32⟩ : BufTy).Contents (Elt F) :=
  broadcastInDim S16384x7x7 ![] bcast_S_S16384x7x7 (val_main_cst_13 (F := F))
def val_main_v115 (x0 x1 : (⟨S16384x7x7x30, .f32⟩ : BufTy).Contents (Elt F)) : (⟨S16384x7x7, .f32⟩ : BufTy).Contents (Elt F) :=
  mulf (val_main_v114 (F := F)) (val_main_v113 (F := F) x0 x1)
def val_main_v116 (x0 : (⟨S16384x7x7x30, .f32⟩ : BufTy).Contents (Elt F)) : (⟨S16384x7x7x2, .f32⟩ : BufTy).Contents (Elt F) :=
  extractStridedSlice S16384x7x7x2 ![0, 0, 0, 2] (x0) slices_S16384x7x7x30_S16384x7x7x2_0_0_0_2
def val_main_v117 (x0 : (⟨S16384x7x7x30, .f32⟩ : BufTy).Contents (Elt F)) : (⟨S16384x7x7x2, .f32⟩ : BufTy).Contents (Elt F) :=
  Host.sqrt (val_main_v116 (F := F) x0)
def val_main_v118 (x1 : (⟨S16384x7x7x30, .f32⟩ : BufTy).Contents (Elt F)) : (⟨S16384x7x7x2, .f32⟩ : BufTy).Contents (Elt F) :=
  extractStridedSlice S16384x7x7x2 ![0, 0, 0, 2] (x1) slices_S16384x7x7x30_S16384x7x7x2_0_0_0_2
def val_main_v119 (x1 : (⟨S16384x7x7x30, .f32⟩ : BufTy).Contents (Elt F)) : (⟨S16384x7x7x2, .f32⟩ : BufTy).Contents (Elt F) :=
  Host.sqrt (val_main_v118 (F := F) x1)
def val_main_v120 (x0 x1 : (⟨S16384x7x7x30, .f32⟩ : BufTy).Contents (Elt F)) : (⟨S16384x7x7x2, .f32⟩ : BufTy).Contents (Elt F) :=
  subf (val_main_v117 (F := F) x0) (val_main_v119 (F := F) x1)
def val_main_v121 (x0 x1 : (⟨S16384x7x7x30, .f32⟩ : BufTy).Contents (Elt F)) : (⟨S16384x7x7x2, .f32⟩ : BufTy).Contents (Elt F) :=
  mulf (val_main_v120 (F := F) x0 x1) (val_main_v120 (F := F) x0 x1)
def val_main_cst_14 : (⟨S_, .f32⟩ : BufTy).Contents (Elt F) :=
  constant S_ .f32 0x00000000#32
def val_main_v122 (x0 x1 : (⟨S16384x7x7x30, .f32⟩ : BufTy).Contents (Elt F)) : (⟨S16384x7x7, .f32⟩ : BufTy).Contents (Elt F) :=
  Host.reduceAdd (val_main_v121 (F := F) x0 x1) (val_main_cst_14 (F := F)) reducesTo_S16384x7x7x2_S16384x7x7_d3 h_S_
def val_main_v123 (x0 x1 : (⟨S16384x7x7x30, .f32⟩ : BufTy).Contents (Elt F)) : (⟨S16384x7x7, .f32⟩ : BufTy).Contents (Elt F) :=
  addf (val_main_v115 (F := F) x0 x1) (val_main_v122 (F := F) x0 x1)
def val_main_v124 (x0 : (⟨S16384x7x7x30, .f32⟩ : BufTy).Contents (Elt F)) : (⟨S16384x7x7x1, .f32⟩ : BufTy).Contents (Elt F) :=
  extractStridedSlice S16384x7x7x1 ![0, 0, 0, 4] (x0) slices_S16384x7x7x30_S16384x7x7x1_0_0_0_4
def val_main_v125 (x0 : (⟨S16384x7x7x30, .f32⟩ : BufTy).Contents (Elt F)) : (⟨S16384x7x7, .f32⟩ : BufTy).Contents (Elt F) :=
  shapeCast _ (val_main_v124 (F := F) x0) shapeCasts_S16384x7x7x1_S16384x7x7
def val_main_v126 (x0 x1 : (⟨S16384x7x7x30, .f32⟩ : BufTy).Contents (Elt F)) : (⟨S16384x7x7, .f32⟩ : BufTy).Contents (Elt F) :=
  subf (val_main_v62 (F := F) x0 x1) (val_main_v125 (F := F) x0)
def val_main_v127 (x0 x1 : (⟨S16384x7x7x30, .f32⟩ : BufTy).Contents (Elt F)) : (⟨S16384x7x7, .f32⟩ : BufTy).Contents (Elt F) :=
  mulf (val_main_v126 (F := F) x0 x1) (val_main_v126 (F := F) x0 x1)
def val_main_v128 (x0 x1 : (⟨S16384x7x7x30, .f32⟩ : BufTy).Contents (Elt F)) : (⟨S16384x7x7, .f32⟩ : BufTy).Contents (Elt F) :=
  addf (val_main_v123 (F := F) x0 x1) (val_main_v127 (F := F) x0 x1)
def val_main_v129 (x0 : (⟨S16384x7x7x30, .f32⟩ : BufTy).Contents (Elt F)) : (⟨S16384x7x7x1, .f32⟩ : BufTy).Contents (Elt F) :=
  extractStridedSlice S16384x7x7x1 ![0, 0, 0, 9] (x0) slices_S16384x7x7x30_S16384x7x7x1_0_0_0_9
def val_main_v130 (x0 : (⟨S16384x7x7x30, .f32⟩ : BufTy).Contents (Elt F)) : (⟨S16384x7x7, .f32⟩ : BufTy).Contents (Elt F) :=
  shapeCast _ (val_main_v129 (F := F) x0) shapeCasts_S16384x7x7x1_S16384x7x7
def val_main_v131 (x0 : (⟨S16384x7x7x30, .f32⟩ : BufTy).Contents (Elt F)) : (⟨S16384x7x7, .f32⟩ : BufTy).Contents (Elt F) :=
  mulf (val_main_v130 (F := F) x0) (val_main_v130 (F := F) x0)
def val_main_cst_15 : (⟨S_, .f32⟩ : BufTy).Contents (Elt F) :=
  constant S_ .f32 0x3F000000#32
def val_main_v132 : (⟨S16384x7x7, .f32⟩ : BufTy).Contents (Elt F) :=
  broadcastInDim S16384x7x7 ![] bcast_S_S16384x7x7 (val_main_cst_15 (F := F))
def val_main_v133 (x0 : (⟨S16384x7x7x30, .f32⟩ : BufTy).Contents (Elt F)) : (⟨S16384x7x7, .f32⟩ : BufTy).Contents (Elt F) :=
  mulf (val_main_v132 (F := F)) (val_main_v131 (F := F) x0)
def val_main_v134 (x0 x1 : (⟨S16384x7x7x30, .f32⟩ : BufTy).Contents (Elt F)) : (⟨S16384x7x7, .f32⟩ : BufTy).Contents (Elt F) :=
  addf (val_main_v128 (F := F) x0 x1) (val_main_v133 (F := F) x0)
def val_main_v135 (x0 : (⟨S16384x7x7x30, .f32⟩ : BufTy).Contents (Elt F)) : (⟨S16384x7x7x2, .f32⟩ : BufTy).Contents (Elt F) :=
  extractStridedSlice S16384x7x7x2 ![0, 0, 0, 5] (x0) slices_S16384x7x7x30_S16384x7x7x2_0_0_0_5
def val_main_v136 (x1 : (⟨S16384x7x7x30, .f32⟩ : BufTy).Contents (Elt F)) : (⟨S16384x7x7x2, .f32⟩ : BufTy).Contents (Elt F) :=
  extractStridedSlice S16384x7x7x2 ![0, 0, 0, 5] (x1) slices_S16384x7x7x30_S16384x7x7x2_0_0_0_5
def val_main_v137 (x0 x1 : (⟨S16384x7x7x30, .f32⟩ : BufTy).Contents (Elt F)) : (⟨S16384x7x7x2, .f32⟩ : BufTy).Contents (Elt F) :=
  subf (val_main_v135 (F := F) x0) (val_main_v136 (F := F) x1)
def val_main_v138 (x0 x1 : (⟨S16384x7x7x30, .f32⟩ : BufTy).Contents (Elt F)) : (⟨S16384x7x7x2, .f32⟩ : BufTy).Contents (Elt F) :=
  mulf (val_main_v137 (F := F) x0 x1) (val_main_v137 (F := F) x0 x1)
def val_main_cst_16 : (⟨S_, .f32⟩ : BufTy).Contents (Elt F) :=
  constant S_ .f32 0x00000000#32
def val_main_v139 (x0 x1 : (⟨S16384x7x7x30, .f32⟩ : BufTy).Contents (Elt F)) : (⟨S16384x7x7, .f32⟩ : BufTy).Contents (Elt F) :=
  Host.reduceAdd (val_main_v138 (F := F) x0 x1) (val_main_cst_16 (F := F)) reducesTo_S16384x7x7x2_S16384x7x7_d3 h_S_
def val_main_cst_17 : (⟨S_, .f32⟩ : BufTy).Contents (Elt F) :=
  constant S_ .f32 0x40A00000#32
def val_main_v140 : (⟨S16384x7x7, .f32⟩ : BufTy).Contents (Elt F) :=
  broadcastInDim S16384x7x7 ![] bcast_S_S16384x7x7 (val_main_cst_17 (F := F))
def val_main_v141 (x0 x1 : (⟨S16384x7x7x30, .f32⟩ : BufTy).Contents (Elt F)) : (⟨S16384x7x7, .f32⟩ : BufTy).Contents (Elt F) :=
  mulf (val_main_v140 (F := F)) (val_main_v139 (F := F) x0 x1)
def val_main_v142 (x0 : (⟨S16384x7x7x30, .f32⟩ : BufTy).Contents (Elt F)) : (⟨S16384x7x7x2, .f32⟩ : BufTy).Contents (Elt F) :=
  extractStridedSlice S16384x7x7x2 ![0, 0, 0, 7] (x0) slices_S16384x7x7x30_S16384x7x7x2_0_0_0_7
def val_main_v143 (x0 : (⟨S16384x7x7x30, .f32⟩ : BufTy).Contents (Elt F)) : (⟨S16384x7x7x2, .f32⟩ : BufTy).Contents (Elt F) :=
  Host.sqrt (val_main_v142 (F := F) x0)
def val_main_v144 (x1 : (⟨S16384x7x7x30, .f32⟩ : BufTy).Contents (Elt F)) : (⟨S16384x7x7x2, .f32⟩ : BufTy).Contents (Elt F) :=
  extractStridedSlice S16384x7x7x2 ![0, 0, 0, 7] (x1) slices_S16384x7x7x30_S16384x7x7x2_0_0_0_7
def val_main_v145 (x1 : (⟨S16384x7x7x30, .f32⟩ : BufTy).Contents (Elt F)) : (⟨S16384x7x7x2, .f32⟩ : BufTy).Contents (Elt F) :=
  Host.sqrt (val_main_v144 (F := F) x1)
def val_main_v146 (x0 x1 : (⟨S16384x7x7x30, .f32⟩ : BufTy).Contents (Elt F)) : (⟨S16384x7x7x2, .f32⟩ : BufTy).Contents (Elt F) :=
  subf (val_main_v143 (F := F) x0) (val_main_v145 (F := F) x1)
def val_main_v147 (x0 x1 : (⟨S16384x7x7x30, .f32⟩ : BufTy).Contents (Elt F)) : (⟨S16384x7x7x2, .f32⟩ : BufTy).Contents (Elt F) :=
  mulf (val_main_v146 (F := F) x0 x1) (val_main_v146 (F := F) x0 x1)
def val_main_cst_18 : (⟨S_, .f32⟩ : BufTy).Contents (Elt F) :=
  constant S_ .f32 0x00000000#32
def val_main_v148 (x0 x1 : (⟨S16384x7x7x30, .f32⟩ : BufTy).Contents (Elt F)) : (⟨S16384x7x7, .f32⟩ : BufTy).Contents (Elt F) :=
  Host.reduceAdd (val_main_v147 (F := F) x0 x1) (val_main_cst_18 (F := F)) reducesTo_S16384x7x7x2_S16384x7x7_d3 h_S_
def val_main_v149 (x0 x1 : (⟨S16384x7x7x30, .f32⟩ : BufTy).Contents (Elt F)) : (⟨S16384x7x7, .f32⟩ : BufTy).Contents (Elt F) :=
  addf (val_main_v141 (F := F) x0 x1) (val_main_v148 (F := F) x0 x1)
def val_main_v150 (x0 : (⟨S16384x7x7x30, .f32⟩ : BufTy).Contents (Elt F)) : (⟨S16384x7x7x1, .f32⟩ : BufTy).Contents (Elt F) :=
  extractStridedSlice S16384x7x7x1 ![0, 0, 0, 9] (x0) slices_S16384x7x7x30_S16384x7x7x1_0_0_0_9
def val_main_v151 (x0 : (⟨S16384x7x7x30, .f32⟩ : BufTy).Contents (Elt F)) : (⟨S16384x7x7, .f32⟩ : BufTy).Contents (Elt F) :=
  shapeCast _ (val_main_v150 (F := F) x0) shapeCasts_S16384x7x7x1_S16384x7x7
def val_main_v152 (x0 x1 : (⟨S16384x7x7x30, .f32⟩ : BufTy).Contents (Elt F)) : (⟨S16384x7x7, .f32⟩ : BufTy).Contents (Elt F) :=
  subf (val_main_v107 (F := F) x0 x1) (val_main_v151 (F := F) x0)
def val_main_v153 (x0 x1 : (⟨S16384x7x7x30, .f32⟩ : BufTy).Contents (Elt F)) : (⟨S16384x7x7, .f32⟩ : BufTy).Contents (Elt F) :=
  mulf (val_main_v152 (F := F) x0 x1) (val_main_v152 (F := F) x0 x1)
def val_main_v154 (x0 x1 : (⟨S16384x7x7x30, .f32⟩ : BufTy).Contents (Elt F)) : (⟨S16384x7x7, .f32⟩ : BufTy).Contents (Elt F) :=
  addf (val_main_v149 (F := F) x0 x1) (val_main_v153 (F := F) x0 x1)
def val_main_v155 (x0 : (⟨S16384x7x7x30, .f32⟩ : BufTy).Contents (Elt F)) : (⟨S16384x7x7x1, .f32⟩ : BufTy).Contents (Elt F) :=
  extractStridedSlice S16384x7x7x1 ![0, 0, 0, 4] (x0) slices_S16384x7x7x30_S16384x7x7x1_0_0_0_4
def val_main_v156 (x0 : (⟨S16384x7x7x30, .f32⟩ : BufTy).Contents (Elt F)) : (⟨S16384x7x7, .f32⟩ : BufTy).Contents (Elt F) :=
  shapeCast _ (val_main_v155 (F := F) x0) shapeCasts_S16384x7x7x1_S16384x7x7
def val_main_v157 (x0 : (⟨S16384x7x7x30, .f32⟩ : BufTy).Contents (Elt F)) : (⟨S16384x7x7, .f32⟩ : BufTy).Contents (Elt F) :=
  mulf (val_main_v156 (F := F) x0) (val_main_v156 (F := F) x0)
def val_main_cst_19 : (⟨S_, .f32⟩ : BufTy).Contents (Elt F) :=
  constant S_ .f32 0x3F000000#32
def val_main_v158 : (⟨S16384x7x7, .f32⟩ : BufTy).Contents (Elt F) :=
  broadcastInDim S16384x7x7 ![] bcast_S_S16384x7x7 (val_main_cst_19 (F := F))
def val_main_v159 (x0 : (⟨S16384x7x7x30, .f32⟩ : BufTy).Contents (Elt F)) : (⟨S16384x7x7, .f32⟩ : BufTy).Contents (Elt F) :=
  mulf (val_main_v158 (F := F)) (val_main_v157 (F := F) x0)
def val_main_v160 (x0 x1 : (⟨S16384x7x7x30, .f32⟩ : BufTy).Contents (Elt F)) : (⟨S16384x7x7, .f32⟩ : BufTy).Contents (Elt F) :=
  addf (val_main_v154 (F := F) x0 x1) (val_main_v159 (F := F) x0)
def val_main_v161 (x1 : (⟨S16384x7x7x30, .f32⟩ : BufTy).Contents (Elt F)) : (⟨S16384x7x7x20, .f32⟩ : BufTy).Contents (Elt F) :=
  extractStridedSlice S16384x7x7x20 ![0, 0, 0, 10] (x1) slices_S16384x7x7x30_S16384x7x7x20_0_0_0_10
def val_main_v162 (x0 : (⟨S16384x7x7x30, .f32⟩ : BufTy).Contents (Elt F)) : (⟨S16384x7x7x20, .f32⟩ : BufTy).Contents (Elt F) :=
  extractStridedSlice S16384x7x7x20 ![0, 0, 0, 10] (x0) slices_S16384x7x7x30_S16384x7x7x20_0_0_0_10
def val_main_v163 (x0 x1 : (⟨S16384x7x7x30, .f32⟩ : BufTy).Contents (Elt F)) : (⟨S16384x7x7x20, .f32⟩ : BufTy).Contents (Elt F) :=
  subf (val_main_v161 (F := F) x1) (val_main_v162 (F := F) x0)
def val_main_v164 (x0 x1 : (⟨S16384x7x7x30, .f32⟩ : BufTy).Contents (Elt F)) : (⟨S16384x7x7x20, .f32⟩ : BufTy).Contents (Elt F) :=
  mulf (val_main_v163 (F := F) x0 x1) (val_main_v163 (F := F) x0 x1)
def val_main_cst_20 : (⟨S_, .f32⟩ : BufTy).Contents (Elt F) :=
  constant S_ .f32 0x00000000#32
def val_main_v165 (x0 x1 : (⟨S16384x7x7x30, .f32⟩ : BufTy).Contents (Elt F)) : (⟨S16384x7x7, .f32⟩ : BufTy).Contents (Elt F) :=
  Host.reduceAdd (val_main_v164 (F := F) x0 x1) (val_main_cst_20 (F := F)) reducesTo_S16384x7x7x20_S16384x7x7_d3 h_S_
def val_main_v166 (x0 x1 : (⟨S16384x7x7x30, .f32⟩ : BufTy).Contents (Elt F)) : (⟨S16384x7x7, .f32⟩ : BufTy).Contents (Elt F) :=
  select (val_main_v108 (F := F) x0 x1) (val_main_v134 (F := F) x0 x1) (val_main_v160 (F := F) x0 x1)
def val_main_v167 (x0 x1 : (⟨S16384x7x7x30, .f32⟩ : BufTy).Contents (Elt F)) : (⟨S16384x7x7, .f32⟩ : BufTy).Contents (Elt F) :=
  addf (val_main_v166 (F := F) x0 x1) (val_main_v165 (F := F) x0 x1)
def val_main_v168 (x0 : (⟨S16384x7x7x30, .f32⟩ : BufTy).Contents (Elt F)) : (⟨S16384x7x7x1, .f32⟩ : BufTy).Contents (Elt F) :=
  extractStridedSlice S16384x7x7x1 ![0, 0, 0, 4] (x0) slices_S16384x7x7x30_S16384x7x7x1_0_0_0_4
def val_main_v169 (x0 : (⟨S16384x7x7x30, .f32⟩ : BufTy).Contents (Elt F)) : (⟨S16384x7x7, .f32⟩ : BufTy).Contents (Elt F) :=
  shapeCast _ (val_main_v168 (F := F) x0) shapeCasts_S16384x7x7x1_S16384x7x7
def val_main_v170 (x0 : (⟨S16384x7x7x30, .f32⟩ : BufTy).Contents (Elt F)) : (⟨S16384x7x7, .f32⟩ : BufTy).Contents (Elt F) :=
  mulf (val_main_v169 (F := F) x0) (val_main_v169 (F := F) x0)
def val_main_v171 (x0 : (⟨S16384x7x7x30, .f32⟩ : BufTy).Contents (Elt F)) : (⟨S16384x7x7x1, .f32⟩ : BufTy).Contents (Elt F) :=
  extractStridedSlice S16384x7x7x1 ![0, 0, 0, 9] (x0) slices_S16384x7x7x30_S16384x7x7x1_0_0_0_9
def val_main_v172 (x0 : (⟨S16384x7x7x30, .f32⟩ : BufTy).Contents (Elt F)) : (⟨S16384x7x7, .f32⟩ : BufTy).Contents (Elt F) :=
  shapeCast _ (val_main_v171 (F := F) x0) shapeCasts_S16384x7x7x1_S16384x7x7
def val_main_v173 (x0 : (⟨S16384x7x7x30, .f32⟩ : BufTy).Contents (Elt F)) : (⟨S16384x7x7, .f32⟩ : BufTy).Contents (Elt F) :=
  mulf (val_main_v172 (F := F) x0) (val_main_v172 (F := F) x0)
def val_main_v174 (x0 : (⟨S16384x7x7x30, .f32⟩ : BufTy).Contents (Elt F)) : (⟨S16384x7x7, .f32⟩ : BufTy).Contents (Elt F) :=
  addf (val_main_v170 (F := F) x0) (val_main_v173 (F := F) x0)
def val_main_cst_21 : (⟨S_, .f32⟩ : BufTy).Contents (Elt F) :=
  constant S_ .f32 0x3F000000#32
def val_main_v175 : (⟨S16384x7x7, .f32⟩ : BufTy).Contents (Elt F) :=
  broadcastInDim S16384x7x7 ![] bcast_S_S16384x7x7 (val_main_cst_21 (F := F))
def val_main_v176 (x0 : (⟨S16384x7x7x30, .f32⟩ : BufTy).Contents (Elt F)) : (⟨S16384x7x7, .f32⟩ : BufTy).Contents (Elt F) :=
  mulf (val_main_v175 (F := F)) (val_main_v174 (F := F) x0)
def val_main_v177 (x0 x1 : (⟨S16384x7x7x30, .f32⟩ : BufTy).Contents (Elt F)) : (⟨S16384x7x7, .f32⟩ : BufTy).Contents (Elt F) :=
  select (val_main_v3 (F := F) x1) (val_main_v167 (F := F) x0 x1) (val_main_v176 (F := F) x0)
def val_main_cst_22 : (⟨S_, .f32⟩ : BufTy).Contents (Elt F) :=
  constant S_ .f32 0x00000000#32
def val_main_v178 (x0 x1 : (⟨S16384x7x7x30, .f32⟩ : BufTy).Contents (Elt F)) : (⟨S_, .f32⟩ : BufTy).Contents (Elt F) :=
  Host.reduceAdd (val_main_v177 (F := F) x0 x1) (val_main_cst_22 (F := F)) reducesTo_S16384x7x7_S_d0_1_2 h_S_
def val_main_cst_23 : (⟨S_, .f32⟩ : BufTy).Contents (Elt F) :=
  constant S_ .f32 0x46800000#32
def val_main_v179 (x0 x1 : (⟨S16384x7x7x30, .f32⟩ : BufTy).Contents (Elt F)) : (⟨S_, .f32⟩ : BufTy).Contents (Elt F) :=
  Host.divf (val_main_v178 (F := F) x0 x1) (val_main_cst_23 (F := F))

end Cert.ReferenceIdeal.Vals

end
-- ==== Proof.BlockLoss.lean ====
/-
  The kernel's arithmetic on a block of rows is the reference's arithmetic on the whole arrays, restricted to those rows.
  Both programs were traced from the same per-cell formula, so their operation lists agree one for one: the reference
  applies each operation to the arrays `[16384, 7, 7, ·]`, the kernel body to a block `[128, 7, 7, ·]` of rows `128·t …`.
  Every operation involved acts cell by cell, so taking the rows commutes with it (the row-block lemmas); pushing the
  restriction through the reference's values, one named intermediate at a time, lands on the kernel's payloads applied
  to the restricted arguments.  The label box's transposed x-coordinate enters as a third array: the kernel is handed
  its rows as a separate operand, the reference computes it from the labels.
-/
import proofs.«118652_j81767587381937_2_alg».proof.Proof.BlockPay
import proofs.«118652_j81767587381937_2_alg».proof.Proof.LibRowsOps
import proofs.«118652_j81767587381937_2_alg».proof.Proof.RefVals

set_option maxRecDepth 16384

noncomputable section

namespace Cert.Bridge

open Idealize.ShloMosaic Idealize.ShloMosaic.ValueIdx Cert.LibRows
open Cert.KernelIdeal Cert.KernelIdeal.Gen Cert.KernelIdeal.Loss
open Cert.ReferenceIdeal.Vals

/-- The sum of two squared channel differences, host and kernel spelling. -/
theorem rows3_sum2 {t : Nat} (ht : 128 * t + 128 ≤ 16384) (X : FVec Ideal ⟨4, ![16384, 7, 7, 2]⟩ .f32) {u : Shape}
    (H : (⟨4, ![16384, 7, 7, 2]⟩ : Shape).ReducesTo [3] ⟨3, ![16384, 7, 7]⟩) (hu : 0 < u.numel) :
    rows3 (α := Ideal .f32) 128 t ht (Host.reduceAdd X (constant (F := Ideal) u .f32 0x00000000#32) H hu)
      = multiReduction .add [3] ⟨3, ![128, 7, 7]⟩ (rows4 128 t ht X) 0x00000000#32 (by decide) (.inl rfl) rfl :=
  rows3_sumChannels ht X H hu (by decide) _ _ _

/-- The sum of the twenty squared class differences, host and kernel spelling. -/
theorem rows3_sum20 {t : Nat} (ht : 128 * t + 128 ≤ 16384) (X : FVec Ideal ⟨4, ![16384, 7, 7, 20]⟩ .f32) {u : Shape}
    (H : (⟨4, ![16384, 7, 7, 20]⟩ : Shape).ReducesTo [3] ⟨3, ![16384, 7, 7]⟩) (hu : 0 < u.numel) :
    rows3 (α := Ideal .f32) 128 t ht (Host.reduceAdd X (constant (F := Ideal) u .f32 0x00000000#32) H hu)
      = multiReduction .add [3] ⟨3, ![128, 7, 7]⟩ (rows4 128 t ht X) 0x00000000#32 (by decide) (.inl rfl) rfl :=
  rows3_sumChannels ht X H hu (by decide) _ _ _

/-- The block's cell losses summed one axis at a time, each partial sum kept as a unit axis: over the 7 columns, then
    the 7 rows of a grid, then the 128 grids. -/
def sumChain {F : FTy → Type} [FloatOps F] (X : FVec F S128x7x7 .f32) : FVec F S1x1x1 .f32 :=
  shapeCast S1x1x1 (multiReduction .add [0] S1x1 (shapeCast S128x1x1 (multiReduction .add [1] S128x1
    (shapeCast S128x7x1 (multiReduction .add [2] S128x7 X 0x00000000#32 reduces_S128x7x7_S128x7 (.inl rfl) rfl)
      shapeCasts_S128x7_S128x7x1) 0x00000000#32 reduces_S128x7x1_S128x1 (.inl rfl) rfl) shapeCasts_S128x1_S128x1x1)
    0x00000000#32 reduces_S128x1x1_S1x1 (.inl rfl) rfl) shapeCasts_S1x1_S1x1x1

section
variable {t : Nat} (ht : 128 * t + 128 ≤ 16384)
  (x0 x1 : (⟨Cert.ReferenceIdeal.S16384x7x7x30, .f32⟩ : BufTy).Contents (Elt Ideal))

/-- The transposed x-coordinate as a unit channel. -/
theorem rows_v13 : rows4 (α := Ideal .f32) 128 t ht (val_main_v13 (F := Ideal) x1)
    = shapeCast S128x7x7x1 (rows3 (α := Ideal .f32) 128 t ht (val_main_v6 (F := Ideal) x1)) shapeCasts_S128x7x7_S128x7x7x1 := by
  unfold val_main_v13
  exact rows4_unsqueeze ht _ _

/-- Label channel 1 as a unit channel: cut out, the unit axis dropped and put back. -/
theorem rows_v14 : rows4 (α := Ideal .f32) 128 t ht (val_main_v14 (F := Ideal) x1)
    = shapeCast S128x7x7x1 (shapeCast S128x7x7 (extractStridedSlice S128x7x7x1 ![0, 0, 0, 1] (rows4 (α := Ideal .f32) 128 t ht (x1))
        slices_S128x7x7x30_o0_0_0_1_S128x7x7x1) shapeCasts_S128x7x7x1_S128x7x7) shapeCasts_S128x7x7_S128x7x7x1 := by
  unfold val_main_v14
  rw [rows4_unsqueeze ht]
  simp only [val_main_v8, val_main_v7, rows3_squeeze, rows4_slice]

/-- Label channel 2 as a unit channel. -/
theorem rows_v15 : rows4 (α := Ideal .f32) 128 t ht (val_main_v15 (F := Ideal) x1)
    = shapeCast S128x7x7x1 (shapeCast S128x7x7 (extractStridedSlice S128x7x7x1 ![0, 0, 0, 2] (rows4 (α := Ideal .f32) 128 t ht (x1))
        slices_S128x7x7x30_o0_0_0_2_S128x7x7x1) shapeCasts_S128x7x7x1_S128x7x7) shapeCasts_S128x7x7_S128x7x7x1 := by
  unfold val_main_v15
  rw [rows4_unsqueeze ht]
  simp only [val_main_v10, val_main_v9, rows3_squeeze, rows4_slice]

/-- Label channel 3 as a unit channel. -/
theorem rows_v16 : rows4 (α := Ideal .f32) 128 t ht (val_main_v16 (F := Ideal) x1)
    = shapeCast S128x7x7x1 (shapeCast S128x7x7 (extractStridedSlice S128x7x7x1 ![0, 0, 0, 3] (rows4 (α := Ideal .f32) 128 t ht (x1))
        slices_S128x7x7x30_o0_0_0_3_S128x7x7x1) shapeCasts_S128x7x7x1_S128x7x7) shapeCasts_S128x7x7_S128x7x7x1 := by
  unfold val_main_v16
  rw [rows4_unsqueeze ht]
  simp only [val_main_v12, val_main_v11, rows3_squeeze, rows4_slice]

/-- The label box of the block's cells: the rows of the transposed x-coordinate and of label channels 1, 2, 3, each as a
    unit channel, joined.  (The kernel casts the x-coordinate block to its own shape first: nothing changes.) -/
theorem rows_v17 : rows4 (α := Ideal .f32) 128 t ht (val_main_v17 (F := Ideal) x1)
    = k0_pay2 (rows4 (α := Ideal .f32) 128 t ht (x1)) (rows3 (α := Ideal .f32) 128 t ht (val_main_v6 (F := Ideal) x1)) := by
  unfold val_main_v17 k0_pay2
  rw [rows4_concat4 ht, rows_v13 ht x1, rows_v14 ht x1, rows_v15 ht x1, rows_v16 ht x1,
    shapeCast_self (rows3 (α := Ideal .f32) 128 t ht (val_main_v6 (F := Ideal) x1)) shapeCasts_S128x7x7_S128x7x7]
/-- The first predicted box of the block's cells: channels 0–3. -/
theorem rows_v18 : rows4 (α := Ideal .f32) 128 t ht (val_main_v18 (F := Ideal) x0) = k0_pay3 (rows4 (α := Ideal .f32) 128 t ht (x0)) := by
  simp only [val_main_v18, k0_pay3,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq]
  first | rfl | skip
/-- The first box's lower corner: centre minus half the size. -/
theorem rows_v23 : rows4 (α := Ideal .f32) 128 t ht (val_main_v23 (F := Ideal) x0) = k0_pay4 (rows4 (α := Ideal .f32) 128 t ht (x0)) := by
  simp only [val_main_v23, val_main_v19, val_main_v22, val_main_v20, val_main_v21, val_main_cst_0, k0_pay4,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v18]
  first | rfl | skip
/-- The label box's lower corner. -/
theorem rows_v33 : rows4 (α := Ideal .f32) 128 t ht (val_main_v33 (F := Ideal) x1) = k0_pay5 (rows4 (α := Ideal .f32) 128 t ht (x1)) (rows3 (α := Ideal .f32) 128 t ht (val_main_v6 (F := Ideal) x1)) := by
  simp only [val_main_v33, val_main_v29, val_main_v32, val_main_v30, val_main_v31, val_main_cst_2, k0_pay5,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v17]
  first | rfl | skip
/-- The smaller of the two upper corners (first box, label box). -/
theorem rows_v39 : rows4 (α := Ideal .f32) 128 t ht (val_main_v39 (F := Ideal) x0 x1) = k0_pay6 (rows4 (α := Ideal .f32) 128 t ht (x0)) (rows4 (α := Ideal .f32) 128 t ht (x1)) (rows3 (α := Ideal .f32) 128 t ht (val_main_v6 (F := Ideal) x1)) := by
  simp only [val_main_v39, val_main_v28, val_main_v24, val_main_v27, val_main_v25, val_main_v26, val_main_cst_1, val_main_v38, val_main_v34, val_main_v37, val_main_v35, val_main_v36, val_main_cst_3, k0_pay6,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v18, rows_v17]
  first | rfl | skip
/-- Intersection over union of the first box with the label box: the clipped overlap's area over the two areas less the overlap plus the guard. -/
theorem rows_v62 : rows3 (α := Ideal .f32) 128 t ht (val_main_v62 (F := Ideal) x0 x1) = k0_pay7 (k0_pay2 (rows4 (α := Ideal .f32) 128 t ht (x1)) (rows3 (α := Ideal .f32) 128 t ht (val_main_v6 (F := Ideal) x1))) (k0_pay3 (rows4 (α := Ideal .f32) 128 t ht (x0))) (k0_pay4 (rows4 (α := Ideal .f32) 128 t ht (x0))) (k0_pay5 (rows4 (α := Ideal .f32) 128 t ht (x1)) (rows3 (α := Ideal .f32) 128 t ht (val_main_v6 (F := Ideal) x1))) (k0_pay6 (rows4 (α := Ideal .f32) 128 t ht (x0)) (rows4 (α := Ideal .f32) 128 t ht (x1)) (rows3 (α := Ideal .f32) 128 t ht (val_main_v6 (F := Ideal) x1))) := by
  simp only [val_main_v62, val_main_v47, val_main_v44, val_main_v43, val_main_v42, val_main_call0_v1, val_main_call0_v0, val_main_cst_4, val_main_v41, val_main_v40, val_main_v46, val_main_v45, val_main_v61, val_main_v59, val_main_v58, val_main_v52, val_main_v49, val_main_v48, val_main_v51, val_main_v50, val_main_v57, val_main_v54, val_main_v53, val_main_v56, val_main_v55, val_main_v60, val_main_cst_5, k0_pay7,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v17, rows_v18, rows_v23, rows_v33, rows_v39]
  first | rfl | skip
/-- The second predicted box: channels 5–8. -/
theorem rows_v63 : rows4 (α := Ideal .f32) 128 t ht (val_main_v63 (F := Ideal) x0) = k0_pay8 (rows4 (α := Ideal .f32) 128 t ht (x0)) := by
  simp only [val_main_v63, k0_pay8,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq]
  first | rfl | skip
/-- The clipped width and height of the second box's overlap with the label box. -/
theorem rows_v87 : rows4 (α := Ideal .f32) 128 t ht (val_main_v87 (F := Ideal) x0 x1) = k0_pay9 (rows4 (α := Ideal .f32) 128 t ht (x0)) (k0_pay2 (rows4 (α := Ideal .f32) 128 t ht (x1)) (rows3 (α := Ideal .f32) 128 t ht (val_main_v6 (F := Ideal) x1))) := by
  simp only [val_main_v87, val_main_call1_v1, val_main_call1_v0, val_main_cst_10, val_main_v86, val_main_v84, val_main_v73, val_main_v69, val_main_v72, val_main_v70, val_main_v71, val_main_cst_7, val_main_v83, val_main_v79, val_main_v82, val_main_v80, val_main_v81, val_main_cst_9, val_main_v85, val_main_v68, val_main_v64, val_main_v67, val_main_v65, val_main_v66, val_main_cst_6, val_main_v78, val_main_v74, val_main_v77, val_main_v75, val_main_v76, val_main_cst_8, k0_pay9,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v63, rows_v17]
  first | rfl | skip
/-- That overlap's width. -/
theorem rows_v89 : rows3 (α := Ideal .f32) 128 t ht (val_main_v89 (F := Ideal) x0 x1) = k0_pay10 (rows4 (α := Ideal .f32) 128 t ht (x0)) (k0_pay2 (rows4 (α := Ideal .f32) 128 t ht (x1)) (rows3 (α := Ideal .f32) 128 t ht (val_main_v6 (F := Ideal) x1))) := by
  simp only [val_main_v89, val_main_v88, k0_pay10,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v87]
  first | rfl | skip
/-- That overlap's height, as a unit channel. -/
theorem rows_v90 : rows4 (α := Ideal .f32) 128 t ht (val_main_v90 (F := Ideal) x0 x1) = k0_pay11 (rows4 (α := Ideal .f32) 128 t ht (x0)) (k0_pay2 (rows4 (α := Ideal .f32) 128 t ht (x1)) (rows3 (α := Ideal .f32) 128 t ht (val_main_v6 (F := Ideal) x1))) := by
  simp only [val_main_v90, k0_pay11,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v87]
  first | rfl | skip
/-- Intersection over union of the second box with the label box. -/
theorem rows_v107 : rows3 (α := Ideal .f32) 128 t ht (val_main_v107 (F := Ideal) x0 x1) = k0_pay12 (k0_pay2 (rows4 (α := Ideal .f32) 128 t ht (x1)) (rows3 (α := Ideal .f32) 128 t ht (val_main_v6 (F := Ideal) x1))) (k0_pay8 (rows4 (α := Ideal .f32) 128 t ht (x0))) (k0_pay10 (rows4 (α := Ideal .f32) 128 t ht (x0)) (k0_pay2 (rows4 (α := Ideal .f32) 128 t ht (x1)) (rows3 (α := Ideal .f32) 128 t ht (val_main_v6 (F := Ideal) x1)))) (k0_pay11 (rows4 (α := Ideal .f32) 128 t ht (x0)) (k0_pay2 (rows4 (α := Ideal .f32) 128 t ht (x1)) (rows3 (α := Ideal .f32) 128 t ht (val_main_v6 (F := Ideal) x1)))) := by
  simp only [val_main_v107, val_main_v92, val_main_v91, val_main_v106, val_main_v104, val_main_v103, val_main_v97, val_main_v94, val_main_v93, val_main_v96, val_main_v95, val_main_v102, val_main_v99, val_main_v98, val_main_v101, val_main_v100, val_main_v105, val_main_cst_11, k0_pay12,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v17, rows_v63, rows_v89, rows_v90]
  first | rfl | skip
/-- Where the first box overlaps the label box better than the second. -/
theorem rows_v108 : rows3 (α := BitVec 1) 128 t ht (val_main_v108 (F := Ideal) x0 x1) = k0_pay13 (F := Ideal) (k0_pay2 (rows4 (α := Ideal .f32) 128 t ht (x1)) (rows3 (α := Ideal .f32) 128 t ht (val_main_v6 (F := Ideal) x1))) (k0_pay7 (k0_pay2 (rows4 (α := Ideal .f32) 128 t ht (x1)) (rows3 (α := Ideal .f32) 128 t ht (val_main_v6 (F := Ideal) x1))) (k0_pay3 (rows4 (α := Ideal .f32) 128 t ht (x0))) (k0_pay4 (rows4 (α := Ideal .f32) 128 t ht (x0))) (k0_pay5 (rows4 (α := Ideal .f32) 128 t ht (x1)) (rows3 (α := Ideal .f32) 128 t ht (val_main_v6 (F := Ideal) x1))) (k0_pay6 (rows4 (α := Ideal .f32) 128 t ht (x0)) (rows4 (α := Ideal .f32) 128 t ht (x1)) (rows3 (α := Ideal .f32) 128 t ht (val_main_v6 (F := Ideal) x1)))) (k0_pay8 (rows4 (α := Ideal .f32) 128 t ht (x0))) (k0_pay10 (rows4 (α := Ideal .f32) 128 t ht (x0)) (k0_pay2 (rows4 (α := Ideal .f32) 128 t ht (x1)) (rows3 (α := Ideal .f32) 128 t ht (val_main_v6 (F := Ideal) x1)))) (k0_pay11 (rows4 (α := Ideal .f32) 128 t ht (x0)) (k0_pay2 (rows4 (α := Ideal .f32) 128 t ht (x1)) (rows3 (α := Ideal .f32) 128 t ht (val_main_v6 (F := Ideal) x1)))) := by
  simp only [val_main_v108, k0_pay13,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v62, rows_v107]
  first | rfl | skip
/-- The charge when the first box is responsible: five times the squared centre error, the squared error of the square roots of the sizes, the squared confidence error against the overlap, and half the other box's squared confidence. -/
theorem rows_v134 : rows3 (α := Ideal .f32) 128 t ht (val_main_v134 (F := Ideal) x0 x1) = k0_pay14 (rows4 (α := Ideal .f32) 128 t ht (x0)) (rows4 (α := Ideal .f32) 128 t ht (x1)) (k0_pay7 (k0_pay2 (rows4 (α := Ideal .f32) 128 t ht (x1)) (rows3 (α := Ideal .f32) 128 t ht (val_main_v6 (F := Ideal) x1))) (k0_pay3 (rows4 (α := Ideal .f32) 128 t ht (x0))) (k0_pay4 (rows4 (α := Ideal .f32) 128 t ht (x0))) (k0_pay5 (rows4 (α := Ideal .f32) 128 t ht (x1)) (rows3 (α := Ideal .f32) 128 t ht (val_main_v6 (F := Ideal) x1))) (k0_pay6 (rows4 (α := Ideal .f32) 128 t ht (x0)) (rows4 (α := Ideal .f32) 128 t ht (x1)) (rows3 (α := Ideal .f32) 128 t ht (val_main_v6 (F := Ideal) x1)))) := by
  simp only [val_main_v134, val_main_v128, val_main_v123, val_main_v115, val_main_v114, val_main_cst_13, val_main_v113, val_main_v112, val_main_v111, val_main_v109, val_main_v110, val_main_cst_12, val_main_v122, val_main_v121, val_main_v120, val_main_v117, val_main_v116, val_main_v119, val_main_v118, val_main_cst_14, val_main_v127, val_main_v126, val_main_v125, val_main_v124, val_main_v133, val_main_v132, val_main_cst_15, val_main_v131, val_main_v130, val_main_v129, k0_pay14,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v62]
  first | rfl | skip
/-- Five times the second box's squared centre error. -/
theorem rows_v141 : rows3 (α := Ideal .f32) 128 t ht (val_main_v141 (F := Ideal) x0 x1) = k0_pay15 (rows4 (α := Ideal .f32) 128 t ht (x0)) (rows4 (α := Ideal .f32) 128 t ht (x1)) := by
  simp only [val_main_v141, val_main_v140, val_main_cst_17, val_main_v139, val_main_v138, val_main_v137, val_main_v135, val_main_v136, val_main_cst_16, k0_pay15,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq]
  first | rfl | skip
/-- The square roots of the second box's sizes. -/
theorem rows_v143 : rows4 (α := Ideal .f32) 128 t ht (val_main_v143 (F := Ideal) x0) = k0_pay16 (rows4 (α := Ideal .f32) 128 t ht (x0)) := by
  simp only [val_main_v143, val_main_v142, k0_pay16,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq]
  first | rfl | skip

/-- One grid step: the total found in the output block plus the axis-by-axis sum of the reference's cell losses on the
    step's rows — the last payload's remaining operations are the reference's, row block by row block, down to the
    choice between the object and the no-object charge. -/
theorem blkPay_rows (acc : Vec Ideal S1x1x1 .f32) :
    blkPay (rows4 (α := Ideal .f32) 128 t ht (x0)) (rows4 (α := Ideal .f32) 128 t ht (x1)) (rows3 (α := Ideal .f32) 128 t ht (val_main_v6 (F := Ideal) x1)) acc
      = addf (shapeCast S1x1x1 acc shapeCasts_S1x1x1_S1x1x1) (sumChain (rows3 (α := Ideal .f32) 128 t ht (val_main_v177 (F := Ideal) x0 x1))) := by
  unfold blkPay iou1 iou2 lbox sumChain
  simp only [val_main_v177, val_main_v3, val_main_v1, val_main_v0, val_main_v2, val_main_cst, val_main_v167, val_main_v166, val_main_v160, val_main_v154, val_main_v149, val_main_v148, val_main_v147, val_main_v146, val_main_v145, val_main_v144, val_main_cst_18, val_main_v153, val_main_v152, val_main_v151, val_main_v150, val_main_v159, val_main_v158, val_main_cst_19, val_main_v157, val_main_v156, val_main_v155, val_main_v165, val_main_v164, val_main_v163, val_main_v161, val_main_v162, val_main_cst_20, val_main_v176, val_main_v175, val_main_cst_21, val_main_v174, val_main_v170, val_main_v169, val_main_v168, val_main_v173, val_main_v172, val_main_v171, k0_pay17,
    rows4_mulf, rows4_addf, rows4_subf, rows4_minimumf, rows4_maximumf, rows3_mulf, rows3_addf, rows3_subf, rows3_cmpf, rows3_select, rows4_hostSqrt, rows3_hostDivf, rows4_const, rows3_const, rows4_slice, rows3_squeeze, rows4_unsqueeze, rows4_concat4, rows3_sum2, rows3_sum20, id_eq, rows_v107, rows_v108, rows_v134, rows_v141, rows_v143]
  first | rfl | skip

end

end Cert.Bridge

end
-- ==== Proof.LibBlockSums.lean ====
/-
  Sums over blocks of an array, at the ideal values: a total taken one axis at a time (each partial sum kept as a unit
  axis) is the sum over every entry; and a sum over all rows of an array is the sum, over consecutive blocks of rows,
  of each block's sum.
-/
import Idealize.ShloMosaic.PureOps.Ideal
import Idealize.ShloMosaic.PureOps.Ideal.Laws
import Idealize.ShloMosaic.Lib.ValueIdx
import Idealize.ShloMosaic.Lib.Pipeline.Value
import proofs.«118652_j81767587381937_2_alg».proof.Proof.LibRows

open scoped BigOperators
open Idealize.ShloMosaic

namespace Cert.LibBlockSums

open Cert.LibRows

/-! ## A total taken one axis at a time -/

section AxisByAxis

open ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ p : Fin n0, ∑ q : Fin n1, ∑ r : Fin n2, f (ix3 p q r) := by
  rw [← Equiv.sum_comp (idxEquiv3 (n0 := n0) (n1 := n1) (n2 := n2)).symm f, Fintype.sum_prod_type]
  refine Finset.sum_congr rfl fun p _ => ?_
  rw [Fintype.sum_prod_type]
  rfl

/-- Viewing a `[p, q]` array as `[p, q, 1]` keeps every entry: entry `(i, j, 0)` of the view is entry `(i, j)`. -/
theorem cast_unitLast_apply {α : Type} {p q : Nat} (x : (⟨2, ![p, q]⟩ : Shape).Idx → α)
    (h : (⟨2, ![p, q]⟩ : Shape).ShapeCasts ⟨3, ![p, q, 1]⟩) (i : (⟨3, ![p, q, 1]⟩ : Shape).Idx) :
    shapeCast ⟨3, ![p, q, 1]⟩ x h i = x (ix2 (i 0) (i 1)) := by
  refine shapeCast_apply x h i (ix2 (i 0) (i 1)) ?_
  rw [Shape.rowMajor_val_two, Shape.rowMajor_val_three]
  have h2 : (i 2).val < 1 := (i 2).isLt
  show (i 0).val * q + (i 1).val = ((i 0).val * q + (i 1).val) * 1 + (i 2).val
  omega

variable {a b c : Nat}

/-- The sum along the LAST axis of an `[a, b, c]` array, at `(p, q)`: the sum over `r` of the entries `(p, q, r)`. -/
theorem reduce_last_apply (X : FVec Ideal (⟨3, ![a, b, c]⟩ : Shape) .f32)
    (h : (⟨3, ![a, b, c]⟩ : Shape).Reduces [2] ⟨2, ![a, b]⟩) (hφ : FKind.Formats .f32)
    (hacc : (0x00000000#32 : BitVec 32) = FKind.add.neutral .f32 hφ) (j : (⟨2, ![a, b]⟩ : Shape).Idx) :
    multiReduction .add [2] ⟨2, ![a, b]⟩ X 0x00000000#32 h hφ hacc j = ∑ r : Fin c, X (ix3 (j 0) (j 1) r) := by
  rw [Ideal.multiReduction_add_single]
  refine Finset.sum_congr rfl fun r _ => congrArg X ?_
  funext d
  match d with
  | ⟨0, _⟩ => exact Fin.ext rfl
  | ⟨1, _⟩ => exact Fin.ext rfl
  | ⟨2, _⟩ => exact Fin.ext rfl

/-- The sum along the MIDDLE axis of an `[a, b, c]` array, at `(p, r)`: the sum over `q` of the entries `(p, q, r)`. -/
theorem reduce_middle_apply (X : FVec Ideal (⟨3, ![a, b, c]⟩ : Shape) .f32)
    (h : (⟨3, ![a, b, c]⟩ : Shape).Reduces [1] ⟨2, ![a, c]⟩) (hφ : FKind.Formats .f32)
    (hacc : (0x00000000#32 : BitVec 32) = FKind.add.neutral .f32 hφ) (j : (⟨2, ![a, c]⟩ : Shape).Idx) :
    multiReduction .add [1] ⟨2, ![a, c]⟩ X 0x00000000#32 h hφ hacc j = ∑ q : Fin b, X (ix3 (j 0) q (j 1)) := by
  rw [Ideal.multiReduction_add_single]
  refine Finset.sum_congr rfl fun q _ => congrArg X ?_
  funext d
  match d with
  | ⟨0, _⟩ => exact Fin.ext rfl
  | ⟨1, _⟩ => exact Fin.ext rfl
  | ⟨2, _⟩ => exact Fin.ext rfl

/-- The sum along the FIRST axis of an `[a, b, c]` array, at `(q, r)`: the sum over `p` of the entries `(p, q, r)`. -/
theorem reduce_first_apply (X : FVec Ideal (⟨3, ![a, b, c]⟩ : Shape) .f32)
    (h : (⟨3, ![a, b, c]⟩ : Shape).Reduces [0] ⟨2, ![b, c]⟩) (hφ : FKind.Formats .f32)
    (hacc : (0x00000000#32 : BitVec 32) = FKind.add.neutral .f32 hφ) (j : (⟨2, ![b, c]⟩ : Shape).Idx) :
    multiReduction .add [0] ⟨2, ![b, c]⟩ X 0x00000000#32 h hφ hacc j = ∑ p : Fin a, X (ix3 p (j 0) (j 1)) := by
  rw [Ideal.multiReduction_add_single]
  refine Finset.sum_congr rfl fun p _ => congrArg X ?_
  funext d
  match d with
  | ⟨0, _⟩ => exact Fin.ext rfl
  | ⟨1, _⟩ => exact Fin.ext rfl
  | ⟨2, _⟩ => exact Fin.ext rfl

/-- THE THREE-STEP TOTAL. Summing an `[a, b, c]` array along its last axis, then (the partial sums kept as `[a, b, 1]`) along
    the middle axis, then (kept as `[a, 1, 1]`) along the first axis, the result kept as `[1, 1, 1]`, gives at its one entry
    the sum of every entry of the array. -/
theorem sum_axis_by_axis (X : FVec Ideal (⟨3, ![a, b, c]⟩ : Shape) .f32)
    (h1 : (⟨3, ![a, b, c]⟩ : Shape).Reduces [2] ⟨2, ![a, b]⟩) (hφ1 : FKind.Formats .f32)
    (hacc1 : (0x00000000#32 : BitVec 32) = FKind.add.neutral .f32 hφ1)
    (hc1 : (⟨2, ![a, b]⟩ : Shape).ShapeCasts ⟨3, ![a, b, 1]⟩)
    (h2 : (⟨3, ![a, b, 1]⟩ : Shape).Reduces [1] ⟨2, ![a, 1]⟩) (hφ2 : FKind.Formats .f32)
    (hacc2 : (0x00000000#32 : BitVec 32) = FKind.add.neutral .f32 hφ2)
    (hc2 : (⟨2, ![a, 1]⟩ : Shape).ShapeCasts ⟨3, ![a, 1, 1]⟩)
    (h3 : (⟨3, ![a, 1, 1]⟩ : Shape).Reduces [0] ⟨2, ![1, 1]⟩) (hφ3 : FKind.Formats .f32)
    (hacc3 : (0x00000000#32 : BitVec 32) = FKind.add.neutral .f32 hφ3)
    (hc3 : (⟨2, ![1, 1]⟩ : Shape).ShapeCasts ⟨3, ![1, 1, 1]⟩) :
    shapeCast ⟨3, ![1, 1, 1]⟩ (multiReduction .add [0] ⟨2, ![1, 1]⟩ (shapeCast ⟨3, ![a, 1, 1]⟩
      (multiReduction .add [1] ⟨2, ![a, 1]⟩ (shapeCast ⟨3, ![a, b, 1]⟩
        (multiReduction .add [2] ⟨2, ![a, b]⟩ X 0x00000000#32 h1 hφ1 hacc1) hc1) 0x00000000#32 h2 hφ2 hacc2) hc2)
          0x00000000#32 h3 hφ3 hacc3) hc3
      = fun _ => ∑ j : (⟨3, ![a, b, c]⟩ : Shape).Idx, X j := by
  funext i
  rw [cast_unitLast_apply, reduce_first_apply, sum_idx3]
  refine Finset.sum_congr rfl fun p _ => ?_
  rw [cast_unitLast_apply, reduce_middle_apply]
  refine Finset.sum_congr rfl fun q _ => ?_
  rw [cast_unitLast_apply, reduce_last_apply]
  rfl

end AxisByAxis

/-! ## A sum over all rows, block of rows by block of rows -/

section RowBlocks

open ValueIdx

/-- Block `t` of `T` blocks of `B` rows ends within the `B * T` rows. -/
theorem block_le {B T N : Nat} (hN : B * T = N) {t : Nat} (ht : t < T) : B * t + B ≤ N := by
  rw [← hN, ← Nat.mul_succ]
  exact Nat.mul_le_mul_left B ht

/-- A sum over `B * T` consecutive positions is the sum over the `T` blocks of the sum over each block's `B` positions:
    position `n` is position `n % B` of block `n / B`. -/
theorem sum_fin_blocks {β : Type*} [AddCommMonoid β] (B T : Nat) (g : Fin (B * T) → β) :
    ∑ n, g n = ∑ t : Fin T, ∑ r : Fin B,
      g ⟨B * t.val + r.val, by have := block_le (rfl : B * T = B * T) t.isLt; have := r.isLt; omega⟩ := by
  rw [← Fintype.sum_prod_type (f := fun x : Fin T × Fin B =>
    g ⟨B * x.1.val + x.2.val, by have := block_le (rfl : B * T = B * T) x.1.isLt; have := x.2.isLt; omega⟩)]
  refine (Fintype.sum_equiv ((finProdFinEquiv (m := T) (n := B)).trans (finCongr (Nat.mul_comm T B))) _ _ fun x => ?_).symm
  refine congrArg g (Fin.ext ?_)
  simp [finProdFinEquiv, Nat.add_comm]

/-- THE ROWS OF A RANK-3 ARRAY BY BLOCKS. With `N = B * T` rows, the sum of every entry is the sum over the `T` blocks of
    `B` consecutive rows of the sum of that block's entries. -/
theorem sum_rows3 {β : Type} [AddCommMonoid β] {N a b : Nat} (B T : Nat) (hN : B * T = N)
    (W : (⟨3, ![N, a, b]⟩ : Shape).Idx → β) :
    ∑ j, W j = ∑ t : Fin T, ∑ j' : (⟨3, ![B, a, b]⟩ : Shape).Idx, rows3 B t.val (block_le hN t.isLt) W j' := by
  subst hN
  rw [sum_idx3, sum_fin_blocks B T]
  refine Finset.sum_congr rfl fun t _ => ?_
  rw [sum_idx3]
  rfl

/-- The `16384 = 128 · 128` rows of a `[16384, 7, 7]` array, by blocks of `128` rows taken as `2` groups of `64` blocks:
    block `64 * h + s` is the `s`-th block of group `h`. -/
theorem sum_rows3_groups {β : Type} [AddCommMonoid β] (W : (⟨3, ![16384, 7, 7]⟩ : Shape).Idx → β) :
    ∑ j, W j = ∑ h : Fin 2, ∑ s ∈ Finset.range 64,
      (if hs : 64 * h.val + s < 128 then
        ∑ j' : (⟨3, ![128, 7, 7]⟩ : Shape).Idx, rows3 128 (64 * h.val + s) (by omega) W j' else 0) := by
  rw [sum_rows3 128 128 rfl W]
  have hG : ∀ t : Fin 128, (∑ j' : (⟨3, ![128, 7, 7]⟩ : Shape).Idx, rows3 128 t.val (block_le rfl t.isLt) W j')
      = (fun n : Nat => if hn : n < 128 then
          ∑ j' : (⟨3, ![128, 7, 7]⟩ : Shape).Idx, rows3 128 n (by omega) W j' else 0) t.val := fun t => by
    simp only [dif_pos t.isLt]
  rw [Finset.sum_congr rfl fun t _ => hG t]
  refine (sum_fin_blocks 64 2 _).trans ?_
  refine Finset.sum_congr rfl fun h _ => ?_
  exact Fin.sum_univ_eq_sum_range (fun s => if hn : 64 * h.val + s < 128 then
          ∑ j' : (⟨3, ![128, 7, 7]⟩ : Shape).Idx, rows3 128 (64 * h.val + s) (by omega) W j' else 0) 64

end RowBlocks

end Cert.LibBlockSums
-- ==== Proof.BlockReads.lean ====
/-
  The three input blocks a grid point reads, as rows of the arrays the program was launched with: point `t` reads rows
  `128 t … 128 t + 127` of each of the two argument arrays and of the third operand, which the host computes from the
  second argument before the call (its first channel, viewed as a rank-3 array, its last two axes exchanged).
-/
import proofs.«118652_j81767587381937_2_alg».proof.Proof.Gen.KernelIdeal.Frame
import proofs.«118652_j81767587381937_2_alg».proof.Proof.LibRows
import Idealize.ShloMosaic.Lib.ValueIdx
import Idealize.ShloMosaic.Lib.Pipeline.Value

set_option maxRecDepth 16384

noncomputable section

namespace Cert.KernelIdeal.BlockReads

open Idealize.ShloMosaic Idealize.ShloMosaic.TcCoe Idealize.ShloMosaic.Tactic
open Idealize.SL Idealize.SL.Sem
open Cert.KernelIdeal Cert.KernelIdeal.Gen
open Cert.LibRows

variable {F : FTy → Type} [FloatOps F]
variable (m : (ℓ : Loc nD τ sig) → Buf (Elt F) ℓ)

/-- The printed index maps, decided over the grid: at point `t` each of the three input windows is at block `t` along the
    rows and at block `0` along every other axis. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- A block of `128` rows at point `t` ends within the `16384` rows. -/
theorem rows_le (t : Fin cfg0.N) : 128 * t.val + 128 ≤ 16384 := by
  have h : t.val < 128 := lt_of_lt_of_eq t.isLt N_0
  omega

/-- Window 0's block at point `t`: rows `128 t …` of the first argument as launched. -/
theorem iblk0_eq (c : Dev nD) (t : Fin cfg0.N) (ht : 128 * t.val + 128 ≤ 16384) :
    iblk m c 0 t = rows4 128 t.val ht (m ((c.tc : Thread nD τ).loc main_arg0)) := by
  funext y
  obtain ⟨e0, e1, e2, e3, -⟩ := idx_facts t
  show V m c main_arg0 (((cfg0.win 0).blk t).view.emb y) = m ((c.tc : Thread nD τ).loc main_arg0) _
  rw [V_main_arg0]
  refine congrArg _ ?_
  funext a; apply Fin.ext
  match a with
  | ⟨0, _⟩ => show win0_0.index t (0 : Fin 4) * 128 + 1 * (y 0).val = 128 * t.val + (y 0).val; omega
  | ⟨1, _⟩ => show win0_0.index t (1 : Fin 4) * 7 + 1 * (y 1).val = (y 1).val; omega
  | ⟨2, _⟩ => show win0_0.index t (2 : Fin 4) * 7 + 1 * (y 2).val = (y 2).val; omega
  | ⟨3, _⟩ => show win0_0.index t (3 : Fin 4) * 30 + 1 * (y 3).val = (y 3).val; omega

/-- Window 1's block at point `t`: rows `128 t …` of the second argument as launched. -/
theorem iblk1_eq (c : Dev nD) (t : Fin cfg0.N) (ht : 128 * t.val + 128 ≤ 16384) :
    iblk m c 1 t = rows4 128 t.val ht (m ((c.tc : Thread nD τ).loc main_arg1)) := by
  funext y
  obtain ⟨-, -, -, -, e0, e1, e2, e3, -⟩ := idx_facts t
  show V m c main_arg1 (((cfg0.win 1).blk t).view.emb y) = m ((c.tc : Thread nD τ).loc main_arg1) _
  rw [V_main_arg1]
  refine congrArg _ ?_
  funext a; apply Fin.ext
  match a with
  | ⟨0, _⟩ => show win0_1.index t (0 : Fin 4) * 128 + 1 * (y 0).val = 128 * t.val + (y 0).val; omega
  | ⟨1, _⟩ => show win0_1.index t (1 : Fin 4) * 7 + 1 * (y 1).val = (y 1).val; omega
  | ⟨2, _⟩ => show win0_1.index t (2 : Fin 4) * 7 + 1 * (y 2).val = (y 2).val; omega
  | ⟨3, _⟩ => show win0_1.index t (3 : Fin 4) * 30 + 1 * (y 3).val = (y 3).val; omega

/-- The third operand as the host computes it from the second argument `x`: channel `0` of `x` (a `[16384, 7, 7, 1]`
    slice), viewed as a `[16384, 7, 7]` array, its last two axes exchanged. -/
abbrev hostV2 (x : S16384x7x7x30.Idx → Elt F .f32) : S16384x7x7.Idx → Elt F .f32 :=
  transpose S16384x7x7 [0, 2, 1]
    (shapeCast S16384x7x7
      (extractStridedSlice S16384x7x7x1 ![0, 0, 0, 0] x slices_S16384x7x7x30_S16384x7x7x1_0_0_0_0)
      shapeCasts_S16384x7x7x1_S16384x7x7)
    transposes_S16384x7x7_S16384x7x7_0_2_1

/-- That array at an entry: entry `(n, p, q)` is entry `(n, q, p, 0)` of `x`. -/
theorem hostV2_apply (x : S16384x7x7x30.Idx → Elt F .f32) (n : Fin 16384) (p q : Fin 7) :
    hostV2 x (ValueIdx.ix3 n p q) = x (ValueIdx.ix4 n q p ⟨0, by omega⟩) := by
  unfold hostV2
  refine (transpose_apply _ _ _ _ (ValueIdx.ix3 n q p) fun b => ?_).trans ?_
  · match b with
    | ⟨0, _⟩ => rfl
    | ⟨1, _⟩ => rfl
    | ⟨2, _⟩ => rfl
  refine (shapeCast_apply _ _ _ (ValueIdx.ix4 n q p ⟨0, by omega⟩) ?_).trans ?_
  · rw [Shape.rowMajor_val_three, Shape.rowMajor_val_four]
    show ((n.val * 7 + q.val) * 7 + p.val) * 1 + 0 = (n.val * 7 + q.val) * 7 + p.val
    omega
  refine extractStridedSlice_apply _ _ _ _ (ValueIdx.ix4 n q p ⟨0, by omega⟩) fun a => ?_
  match a with
  | ⟨0, _⟩ => show n.val = 0 + n.val; omega
  | ⟨1, _⟩ => show q.val = 0 + q.val; omega
  | ⟨2, _⟩ => show p.val = 0 + p.val; omega
  | ⟨3, _⟩ => show 0 = 0 + 0; omega

/-- The array window 2 stages is, when the call is entered, what the host's three operations before it compute from the
    second argument as launched. -/
theorem V_main_v2 (c : Dev nD) :
    (V m c main_v2 : S16384x7x7.Idx → Elt F .f32) = hostV2 (m ((c.tc : Thread nD τ).loc main_arg1)) := by
  show StableHlo.after hostOps0 (fun b => m (c, b)) (Proc.devRef .tc main_v2) = _
  after_results
  rfl

/-- Window 2's block at point `t`: rows `128 t …` of that array. -/
theorem iblk2_eq (c : Dev nD) (t : Fin cfg0.N) (ht : 128 * t.val + 128 ≤ 16384) :
    iblk m c 2 t = rows3 128 t.val ht (hostV2 (m ((c.tc : Thread nD τ).loc main_arg1))) := by
  funext y
  obtain ⟨-, -, -, -, -, -, -, -, e0, e1, e2⟩ := idx_facts t
  show V m c main_v2 (((cfg0.win 2).blk t).view.emb y) = hostV2 (m ((c.tc : Thread nD τ).loc main_arg1)) _
  rw [V_main_v2]
  refine congrArg _ ?_
  funext a; apply Fin.ext
  match a with
  | ⟨0, _⟩ => show win0_2.index t (0 : Fin 3) * 128 + 1 * (y 0).val = 128 * t.val + (y 0).val; omega
  | ⟨1, _⟩ => show win0_2.index t (1 : Fin 3) * 7 + 1 * (y 1).val = (y 1).val; omega
  | ⟨2, _⟩ => show win0_2.index t (2 : Fin 3) * 7 + 1 * (y 2).val = (y 2).val; omega

/-- So window 2's block at point `t`, at `(r, p, q)`, is entry `(128 t + r, q, p, 0)` of the second argument as launched. -/
theorem iblk2_apply (c : Dev nD) (t : Fin cfg0.N) (ht : 128 * t.val + 128 ≤ 16384) (r : Fin 128) (p q : Fin 7) :
    iblk m c 2 t (ValueIdx.ix3 r p q)
      = m ((c.tc : Thread nD τ).loc main_arg1) (ValueIdx.ix4 ⟨128 * t.val + r.val, by have := r.isLt; omega⟩ q p ⟨0, by omega⟩) := by
  rw [iblk2_eq m c t ht]
  exact hostV2_apply _ _ p q

end Cert.KernelIdeal.BlockReads

end
-- ==== Proof.KernelPieces.lean ====
/-
  What one grid step leaves in the output block, in each of the body's two control cases, as the step function of
  the three input blocks: applied to the running total found in the block (a point inside a run of 64), or to the
  zero block the body has just stored (the first point of a run).
-/
import proofs.«118652_j81767587381937_2_alg».proof.Proof.Gen.KernelIdeal.Frame
import proofs.«118652_j81767587381937_2_alg».proof.Proof.BlockPay
import Idealize.ShloMosaic.Lib.Pipeline.Value
import Idealize.ShloMosaic.Lib.Tactic

set_option maxRecDepth 16384

noncomputable section

namespace Cert.KernelIdeal.RunValue

open Idealize.ShloMosaic Idealize.ShloMosaic.TcCoe Idealize.SL.Sem
open Idealize.ShloMosaic.Pipeline (Dat)
open Cert.KernelIdeal Cert.KernelIdeal.Gen

variable {F : FTy → Type} [FloatOps F]

/-- The zero offsets of a rank-3 access, however spelt. -/
theorem hz3 : (![0, 0, 0] : Fin 3 → Nat) = fun _ => 0 := funext fun a => by fin_cases a <;> rfl
/-- The zero offsets of a rank-4 access, however spelt. -/
theorem hz4 : (![0, 0, 0, 0] : Fin 4 → Nat) = fun _ => 0 := funext fun a => by fin_cases a <;> rfl

/-- A STEP THAT ADDS. At a grid point that is not the first of its run of 64, the output block holds a running total
    `xo3` when the body starts; the body's one store of the whole block leaves the step function of the three input
    blocks applied to that total: the total plus the sum of the point's cell losses. -/
theorem out_B (c : Dev nD) (i : grid0.Coords)
    (a2 : Memref sig .tc .vmem S128x7x7x30 .f32) (h2 : a2.IsWhole) (a3 : Memref sig .tc .vmem S128x7x7x30 .f32) (h3 : a3.IsWhole)
    (a4 : Memref sig .tc .vmem S128x7x7 .f32) (h4 : a4.IsWhole) (a5 : Memref sig .tc .vmem S1x1x1 .f32) (h5 : a5.IsWhole)
    (hc0 : ¬cond0_0 i) (x0 x1 : Vec F S128x7x7x30 .f32) (x2 : Vec F S128x7x7 .f32) (xo3 : Vec F S1x1x1 .f32) :
    out0_B_3 c i a2 h2 a3 h3 a4 h4 a5 h5 hc0 x0 x1 x2 xo3 = Loss.blkPay x0 x1 x2 xo3 := by
  unfold out0_B_3
  rw [View.read_writes_eq_canon _ _ _ (cover0_B_3 c i a2 h2 a3 h3 a4 h4 a5 h5 hc0 x0 x1 x2 xo3)]
  unfold kernelRun0_B
  dsimp only
  sl_unfold_words
  rw [View.canon_unit_zero hz3]
  simp only [View.readAt_eq_ld, h2.read_unread, h3.read_unread, h4.read_unread, h5.read_unread,
    View.ld_unit_zero (S := S128x7x7x30) hz4, View.ld_unit_zero (S := S128x7x7) hz3, View.ld_unit_zero (S := S1x1x1) hz3]
  unfold Loss.blkPay
  rfl

/-- A STEP THAT STARTS A RUN. At the first grid point of a run of 64 the body first stores the zero block, and what it
    later loads back from the output block is that zero block; so its last store of the whole block leaves the step
    function of the three input blocks applied to the zero block. -/
theorem out_A (c : Dev nD) (i : grid0.Coords)
    (a2 : Memref sig .tc .vmem S128x7x7x30 .f32) (h2 : a2.IsWhole) (a3 : Memref sig .tc .vmem S128x7x7x30 .f32) (h3 : a3.IsWhole)
    (a4 : Memref sig .tc .vmem S128x7x7 .f32) (h4 : a4.IsWhole) (a5 : Memref sig .tc .vmem S1x1x1 .f32) (h5 : a5.IsWhole)
    (hc0 : cond0_0 i) (x0 x1 : Vec F S128x7x7x30 .f32) (x2 : Vec F S128x7x7 .f32) :
    out0_A_3 c i a2 h2 a3 h3 a4 h4 a5 h5 hc0 x0 x1 x2 = Loss.blkPay x0 x1 x2 (k0_pay1 (F := F)) := by
  unfold out0_A_3
  rw [View.read_writes_eq_canon _ _ _ (cover0_A_3 c i a2 h2 a3 h3 a4 h4 a5 h5 hc0 x0 x1 x2)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread,
    View.ld_unit_zero (S := S128x7x7x30) hz4, View.ld_unit_zero (S := S128x7x7) hz3]
  unfold Loss.blkPay
  rfl

end Cert.KernelIdeal.RunValue

end
-- ==== Proof.KernelAcc.lean ====
/-
  The fold over a run of 64 consecutive grid points.  If one grid step, as a function of the running total it finds
  in the output block, adds that point's number `S c t` to every entry, then after the point at offset `r` of the run
  number `q` the output block holds the sum of the numbers of the points `64 q, …, 64 q + r`: the first point of the run
  starts from the zero block, and each later one adds to what the point before it left.  Only the laws of a commutative
  additive monoid are used (the extended reals have no cancellation).
-/
import proofs.«118652_j81767587381937_2_alg».proof.Proof.KernelPieces
import Idealize.ShloMosaic.PureOps.Ideal.Laws
import Idealize.ShloMosaic.Lib.ValueIdx

set_option maxRecDepth 16384

noncomputable section

namespace Cert.KernelIdeal.RunValue

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The zero block the first point of a run stores is the extended real `0` at every index. -/
theorem pay1_zero (j : S1x1x1.Idx) : (k0_pay1 (F := Ideal) : FVec Ideal S1x1x1 .f32) j = (0 : EReal) := by
  show Ideal.ofBits .f32 0x00000000#32 = 0
  exact Ideal.ofBits_zero_f32

/-- THE FOLD, at any point `t` of the grid: under the step law `hpay` the output block holds, after point `t`, the
    sum of the numbers of the points of `t`'s run of 64 up to `t` — the points `64 (t / 64) + s`, `s ≤ t % 64`. -/
theorem outsAt_apply (S : Dev nD → Nat → EReal)
    (hpay : ∀ (c : Dev nD) (t : Fin cfg0.N) (acc : Vec Ideal S1x1x1 .f32),
      Loss.blkPay (iblk m c 0 t) (iblk m c 1 t) (iblk m c 2 t) acc = fun j => acc j + S c t.val)
    (c : Dev nD) (t : Nat) (ht : t < cfg0.N) (i : S1x1x1.Idx) :
    outsAt0 m c t ht i = ∑ s ∈ Finset.range (t % 64 + 1), S c (64 * (t / 64) + s) := by
  -- the value a run starts with, and the step, as functions of the point
  let a : (n : Nat) → n < cfg0.N → S1x1x1.Idx → EReal := fun n _ _ => 0 + S c n
  let g : (n : Nat) → n < cfg0.N → (S1x1x1.Idx → EReal) → S1x1x1.Idx → EReal := fun n _ acc j => acc j + S c n
  have h0 : ∀ (n : Nat) (h : n < cfg0.N), n % 64 = 0 → outsAt0 m c n h = a n h := fun n h hn => by
    refine (outsAt0_A m c ⟨n, h⟩ hn).trans ?_
    refine (out_A (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) (ms0_3 ⟨n, h⟩) (hs0_3 ⟨n, h⟩) ((hcond0_0 ⟨n, h⟩).mpr hn)
      (iblk m c 0 ⟨n, h⟩) (iblk m c 1 ⟨n, h⟩) (iblk m c 2 ⟨n, h⟩)).trans ?_
    refine (hpay c ⟨n, h⟩ (k0_pay1 (F := Ideal))).trans ?_
    funext j
    exact congrArg (fun z : EReal => z + S c n) (pay1_zero j)
  have hs : ∀ (n : Nat) (h : n + 1 < cfg0.N), ¬(n + 1) % 64 = 0 →
      outsAt0 m c (n + 1) h = g (n + 1) h (outsAt0 m c n (Nat.lt_of_succ_lt h)) := fun n h hn => by
    refine (outsAt0_B m c ⟨n + 1, h⟩ hn).trans ?_
    refine (out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (fun hh => hn ((hcond0_0 ⟨n + 1, h⟩).mp hh))
      (iblk m c 0 ⟨n + 1, h⟩) (iblk m c 1 ⟨n + 1, h⟩) (iblk m c 2 ⟨n + 1, h⟩)
      (outsAt0 m c ((⟨n + 1, h⟩ : Fin cfg0.N).val - 1) (Nat.lt_of_le_of_lt (Nat.sub_le _ _) (⟨n + 1, h⟩ : Fin cfg0.N).isLt))).trans ?_
    exact hpay c ⟨n + 1, h⟩ _
  have h' : 64 * (t / 64) + t % 64 < cfg0.N := by rw [Nat.div_add_mod]; exact ht
  have key : outsAt0 m c t ht = Pipeline.accAt a g (64 * (t / 64)) (t % 64) h' :=
    Pipeline.eq_accAt_of_mod (fun n h => outsAt0 m c n h) 64 a g h0 hs (by decide) t ht h'
  have hle : t % 64 ≤ 63 := by omega
  rw [key, Pipeline.accAt_add_apply a g (fun _ => (0 : EReal)) (fun n _ => S c n) (64 * (t / 64)) 63
    (fun _ _ => rfl) (fun _ _ _ _ _ _ => rfl) (t % 64) hle h' i, zero_add]

/-- At the last point of run `q` the block holds the whole run's sum. -/
theorem outsAt_run (S : Dev nD → Nat → EReal)
    (hpay : ∀ (c : Dev nD) (t : Fin cfg0.N) (acc : Vec Ideal S1x1x1 .f32),
      Loss.blkPay (iblk m c 0 t) (iblk m c 1 t) (iblk m c 2 t) acc = fun j => acc j + S c t.val)
    (c : Dev nD) (q : Nat) (hq : 64 * q + 63 < cfg0.N) :
    outsAt0 m c (64 * q + 63) hq = fun _ => ∑ s ∈ Finset.range 64, S c (64 * q + s) := by
  funext i
  have e1 : (64 * q + 63) % 64 = 63 := by omega
  have e2 : (64 * q + 63) / 64 = q := by omega
  rw [outsAt_apply m S hpay c _ hq i, e1, e2]

/-- The same at a point named by itself: a point `t` with `t % 64 = 63` ends the run `t / 64`. -/
theorem outsAt_last (S : Dev nD → Nat → EReal)
    (hpay : ∀ (c : Dev nD) (t : Fin cfg0.N) (acc : Vec Ideal S1x1x1 .f32),
      Loss.blkPay (iblk m c 0 t) (iblk m c 1 t) (iblk m c 2 t) acc = fun j => acc j + S c t.val)
    (c : Dev nD) (t : Fin cfg0.N) (h63 : t.val % 64 = 63) :
    outsAt0 m c t.val t.isLt = fun _ => ∑ s ∈ Finset.range 64, S c (64 * (t.val / 64) + s) := by
  funext i
  rw [outsAt_apply m S hpay c t.val t.isLt i, h63]

end Cert.KernelIdeal.RunValue

end
-- ==== Proof.KernelRun.lean ====
/-
  From the output block to the result.  The output array has one entry per run of 64 grid points; the block of run `h`
  is written back once, after the run's last point, when it holds the run's sum; so after the whole grid entry `h`
  of the array is the sum of the numbers of the points `64 h, …, 64 h + 63`.  The program then adds the two entries
  to the constant zero and divides by the constant 16384: the result is the sum over both runs divided by that constant.
-/
import proofs.«118652_j81767587381937_2_alg».proof.Proof.KernelAcc
import Idealize.ShloMosaic.Lib.ValueIdx
import Idealize.ShloMosaic.Lib.StableHlo.Run

set_option maxRecDepth 16384

noncomputable section

namespace Cert.KernelIdeal.RunValue

open Idealize.ShloMosaic Idealize.ShloMosaic.TcCoe Idealize.SL.Sem
open Idealize.ShloMosaic.Pipeline (Dat)
open Cert.KernelIdeal Cert.KernelIdeal.Gen
open Idealize.ShloMosaic.ValueIdx

variable (m : (ℓ : Loc nD τ sig) → Buf (Elt Ideal) ℓ) (ρ : Dev nD → PrngReg)

/-- The output window's block index at point `t` is `(t / 64, 0, 0)`: the run the point belongs to. -/
theorem idx3 : ∀ t : Fin cfg0.N, win0_3.index t (0 : Fin 3) = t.val / 64 ∧ win0_3.index t (1 : Fin 3) = 0
    ∧ win0_3.index t (2 : Fin 3) = 0 :=
  (by decide +kernel : ∀ t : Fin grid0.N, win0_3.index t (0 : Fin 3) = t.val / 64 ∧ win0_3.index t (1 : Fin 3) = 0
    ∧ win0_3.index t (2 : Fin 3) = 0)

/-- What the output array ends holding: at entry `i` the sum of the numbers of the 64 points of run `i 0`. -/
abbrev runSums (S : Dev nD → Nat → EReal) (c : Dev nD) : S2x1x1.Idx → EReal :=
  fun i => ∑ s ∈ Finset.range 64, S c (64 * (i 0).val + s)

/-- WHAT A POINT WRITES BACK. Only the last point of a run writes the block back; the block then holds the run's sum,
    which is the array's entry at the block's place. -/
theorem flushed_eq (S : Dev nD → Nat → EReal)
    (hpay : ∀ (c : Dev nD) (t : Fin cfg0.N) (acc : Vec Ideal S1x1x1 .f32),
      Loss.blkPay (iblk m c 0 t) (iblk m c 1 t) (iblk m c 2 t) acc = fun j => acc j + S c t.val)
    (c : Dev nD) (t : Fin cfg0.N) (hf : (cfg0.win 3).flush t = true) :
    (dats m 0 c).flushed 3 t = ((cfg0.win 3).blk t).view.read (Elt Ideal) (runSums S c) := by
  have h63 : t.val % 64 = 63 := (flush0_3 t).mp hf
  show (cfg0.win 3).cut (grid0.coords t) ((dats m 0 c).after 3 t) = _
  rw [after0_3, outsAt_last m S hpay c t h63]
  obtain ⟨e0, e1, e2⟩ := idx3 t
  funext y
  rw [View.read_apply]
  have hy : (y 0).val < 1 := (y 0).isLt
  have hi : ((((cfg0.win 3).blk t).view.emb y) 0).val = t.val / 64 := by
    show win0_3.index t (0 : Fin 3) * 1 + 1 * (y 0).val = t.val / 64
    omega
  show (∑ s ∈ Finset.range 64, S c (64 * (t.val / 64) + s))
    = ∑ s ∈ Finset.range 64, S c (64 * ((((cfg0.win 3).blk t).view.emb y) 0).val + s)
  rw [hi]

/-- THE OUTPUT ARRAY after the grid: entry `i` is covered by the block written back at point `64 (i 0) + 63`. -/
theorem final3 (S : Dev nD → Nat → EReal)
    (hpay : ∀ (c : Dev nD) (t : Fin cfg0.N) (acc : Vec Ideal S1x1x1 .f32),
      Loss.blkPay (iblk m c 0 t) (iblk m c 1 t) (iblk m c 2 t) acc = fun j => acc j + S c t.val)
    (c : Dev nD) : (dats m 0 c).arrAt 3 cfg0.N = runSums S c :=
  (dats m 0 c).arrAt_eq_of_cover 3 (runSums S c) (flushed_eq m S hpay c) fun i => by
    have hN : cfg0.N = 128 := N_0
    have hi0 : (i 0).val < 2 := (i 0).isLt
    have hi1 : (i 1).val < 1 := (i 1).isLt
    have hi2 : (i 2).val < 1 := (i 2).isLt
    have hlt : 64 * (i 0).val + 63 < cfg0.N := by omega
    obtain ⟨e0, e1, e2⟩ := idx3 ⟨64 * (i 0).val + 63, hlt⟩
    have e0' : win0_3.index ⟨64 * (i 0).val + 63, hlt⟩ (0 : Fin 3) = (i 0).val := by rw [e0]; show (64 * (i 0).val + 63) / 64 = _; omega
    refine ⟨⟨64 * (i 0).val + 63, hlt⟩, (flush0_3 _).mpr (by show (64 * (i 0).val + 63) % 64 = 63; omega), ?_⟩
    show i ∈ ((View.whole main_v3).slice (win0_3.rect ⟨64 * (i 0).val + 63, hlt⟩)).set
    rw [View.set_slice_whole, Rect.mem_set_unit]
    intro a
    match a with
    | ⟨0, _⟩ =>
      show win0_3.index ⟨64 * (i 0).val + 63, hlt⟩ (0 : Fin 3) * 1 ≤ (i 0).val
        ∧ (i 0).val < win0_3.index ⟨64 * (i 0).val + 63, hlt⟩ (0 : Fin 3) * 1 + 1
      omega
    | ⟨1, _⟩ =>
      show win0_3.index ⟨64 * (i 0).val + 63, hlt⟩ (1 : Fin 3) * 1 ≤ (i 1).val
        ∧ (i 1).val < win0_3.index ⟨64 * (i 0).val + 63, hlt⟩ (1 : Fin 3) * 1 + 1
      omega
    | ⟨2, _⟩ =>
      show win0_3.index ⟨64 * (i 0).val + 63, hlt⟩ (2 : Fin 3) * 1 ≤ (i 2).val
        ∧ (i 2).val < win0_3.index ⟨64 * (i 0).val + 63, hlt⟩ (2 : Fin 3) * 1 + 1
      omega

/-- The two runs as the two entries of the array: entry `(h, 0, 0)` for `h : Fin 2`. -/
def runIdx : Fin 2 ≃ S2x1x1.Idx where
  toFun h := ix3 h 0 0
  invFun i := i 0
  left_inv _ := rfl
  right_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)

/-- THE RESULT of the operations after the grid: the two entries added to the constant zero, then divided by the
    constant `16384.0`. -/
theorem tail_eq (S : Dev nD → Nat → EReal)
    (hpay : ∀ (c : Dev nD) (t : Fin cfg0.N) (acc : Vec Ideal S1x1x1 .f32),
      Loss.blkPay (iblk m c 0 t) (iblk m c 1 t) (iblk m c 2 t) acc = fun j => acc j + S c t.val)
    (c : Dev nD) :
    Pipeline.afterTail₀ cfgs (dats m) 0 (V0 m) [hostOps1] c main_v5
      = fun _ => Ideal.div (∑ h : Fin 2, ∑ s ∈ Finset.range 64, S c (64 * h.val + s)) (Ideal.ofBits .f32 0x46800000#32) := by
  have e3 : Pipeline.withArrays (cfgs 0).spec c (V0 m c) (fun w => (dats m 0 c).arrAt w (cfgs 0).N) (Proc.devRef .tc main_v3)
      = runSums S c :=
    (Pipeline.withArrays_arr spec0 launch0.win.arr_inj c _ _ 3).trans (final3 m S hpay c)
  unfold Pipeline.afterTail₀
  show StableHlo.after hostOps1 _ (Proc.devRef .tc main_v5) = _
  after_results
  rw [e3]
  funext j
  show FloatOps.hostDivf (Host.reduceAdd (F := Ideal) (runSums S c) (constant (F := Ideal) S_ .f32 0x00000000#32) reducesTo_S2x1x1_S_d0_1_2 h_S_ j)
    (constant (F := Ideal) S_ .f32 0x46800000#32 j) = _
  simp only [Host.reduceAdd, Ideal.hostReduceAdd_def, Ideal.hostDivf_def, constant_apply]
  rw [Ideal.hostReduceAdd_total reducesTo_S2x1x1_S_d0_1_2 (fun b => b.elim0) (runSums S c) _ j, Ideal.ofBits_zero_f32, zero_add]
  exact congrArg (fun z : EReal => Ideal.div z (Ideal.ofBits .f32 0x46800000#32))
    (Fintype.sum_equiv runIdx (fun h => ∑ s ∈ Finset.range 64, S c (64 * h.val + s)) (runSums S c) (fun h => rfl)).symm

/-- THE RUN. From any memory with zero counters, every weakly fair execution of the program on the TensorCores
    terminates without a fault; in every final state the result is the sum, over both runs of 64 grid points, of the
    points' numbers, divided by the constant `16384.0`, and the two argument arrays are as at the start. -/
theorem run (S : Dev nD → Nat → EReal)
    (hpay : ∀ (c : Dev nD) (t : Fin cfg0.N) (acc : Vec Ideal S1x1x1 .f32),
      Loss.blkPay (iblk m c 0 t) (iblk m c 1 t) (iblk m c 2 t) acc = fun j => acc j + S c t.val) :
    θ_run defs (onTc (τ := τ) (main (F := Ideal))) ⟨m, fun _ => 0, ρ⟩ (fun r => ∀ c : Dev nD,
      r.2.mem ((c.tc : Thread nD τ).loc main_v5)
        = (fun _ => Ideal.div (∑ h : Fin 2, ∑ s ∈ Finset.range 64, S c (64 * h.val + s)) (Ideal.ofBits .f32 0x46800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 rfl (by decide))).trans (tail_eq m S hpay c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.RefRunA.lean ====
/-
  The reference program's straight line of host operations, stretches 1 to 5 (operations 1 to 126): each stretch, run
  from ANY buffer contents `W` that hold the program's two arguments and the named values (one per operation: the
  operation applied to the named values of the operations it reads) of the earlier results it reads, leaves the named
  values of its results that later operations read, and leaves every buffer it does not write as in `W`.
-/
import proofs.«118652_j81767587381937_2_alg».proof.Proof.RefVals
import Idealize.ShloMosaic.Lib.StableHlo.Run

noncomputable section

namespace Cert.ReferenceIdeal.HandRun

open Cert.ReferenceIdeal Cert.ReferenceIdeal.Gen Cert.ReferenceIdeal.Vals Idealize.ShloMosaic Idealize.ShloMosaic.TcCoe Idealize.SL.Sem Idealize.ShloMosaic.StableHlo

variable {F : FTy → Type} [FloatOps F]

/-- Operations 1 to 19 of the program (those writing `main_v0` … `main_v17`), in order. -/
def seg1 : List (HloOp τ sig (Elt F)) :=
  [ unary main_arg1 main_v0 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v0 main_v1 rfl shapeCasts_S16384x7x7x1_S16384x7x7,
    nullary main_cst (constant S_ .f32 0x3F800000#32),
    unary main_cst main_v2 (broadcastInDim S16384x7x7 ![] bcast_S_S16384x7x7 : (⟨S_, .f32⟩ : BufTy).Contents (Elt F) → (⟨S16384x7x7, .f32⟩ : BufTy).Contents (Elt F)),
    binary main_v1 main_v2 main_v3 (cmpf .oeq : (⟨S16384x7x7, .f32⟩ : BufTy).Contents (Elt F) → (⟨S16384x7x7, .f32⟩ : BufTy).Contents (Elt F) → (⟨S16384x7x7, .i1⟩ : BufTy).Contents (Elt F)),
    unary main_arg1 main_v4 ((extractStridedSlice S16384x7x7x1 ![0, 0, 0, 0] · slices_S16384x7x7x30_S16384x7x7x1_0_0_0_0) : (⟨S16384x7x7x30, .f32⟩ : BufTy).Contents (Elt F) → (⟨S16384x7x7x1, .f32⟩ : BufTy).Contents (Elt F)),
    reshape main_v4 main_v5 rfl shapeCasts_S16384x7x7x1_S16384x7x7,
    unary main_v5 main_v6 ((transpose S16384x7x7 [0, 2, 1] · transposes_S16384x7x7_S16384x7x7_0_2_1) : (⟨S16384x7x7, .f32⟩ : BufTy).Contents (Elt F) → (⟨S16384x7x7, .f32⟩ : BufTy).Contents (Elt F)),
    unary main_arg1 main_v7 ((extractStridedSlice S16384x7x7x1 ![0, 0, 0, 1] · slices_S16384x7x7x30_S16384x7x7x1_0_0_0_1) : (⟨S16384x7x7x30, .f32⟩ : BufTy).Contents (Elt F) → (⟨S16384x7x7x1, .f32⟩ : BufTy).Contents (Elt F)),
    reshape main_v7 main_v8 rfl shapeCasts_S16384x7x7x1_S16384x7x7,
    unary main_arg1 main_v9 ((extractStridedSlice S16384x7x7x1 ![0, 0, 0, 2] · slices_S16384x7x7x30_S16384x7x7x1_0_0_0_2) : (⟨S16384x7x7x30, .f32⟩ : BufTy).Contents (Elt F) → (⟨S16384x7x7x1, .f32⟩ : BufTy).Contents (Elt F)),
    reshape main_v9 main_v10 rfl shapeCasts_S16384x7x7x1_S16384x7x7,
    unary main_arg1 main_v11 ((extractStridedSlice S16384x7x7x1 ![0, 0, 0, 3] · slices_S16384x7x7x30_S16384x7x7x1_0_0_0_3) : (⟨S16384x7x7x30, .f32⟩ : BufTy).Contents (Elt F) → (⟨S16384x7x7x1, .f32⟩ : BufTy).Contents (Elt F)),
    reshape main_v11 main_v12 rfl shapeCasts_S16384x7x7x1_S16384x7x7,
    unary main_v6 main_v13 (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)),
    unary main_v8 main_v14 (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)),
    unary main_v10 main_v15 (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)),
    unary main_v12 main_v16 (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)),
    nary ![main_v13, main_v14, main_v15, main_v16] main_v17 (fun u => concatenate S16384x7x7x4 3 [⟨S16384x7x7x1, u 0⟩, ⟨S16384x7x7x1, u 1⟩, ⟨S16384x7x7x1, u 2⟩, ⟨S16384x7x7x1, u 3⟩] concatenates_S16384x7x7x1_S16384x7x7x1_S16384x7x7x1_S16384x7x7x1_S16384x7x7x4_d3) ]

/-- Each operation of stretch 1 touches TensorCore buffers only. -/
theorem seg1_sub : (seg1 : List (HloOp τ sig (Elt F))).Forall fun op => op.bufs ⊆ tcRefs τ sig := by
  unfold seg1
  exact ⟨unary_bufs_sub .., reshape_bufs_sub .., nullary_bufs_sub .., unary_bufs_sub .., binary_bufs_sub .., unary_bufs_sub .., reshape_bufs_sub .., unary_bufs_sub .., unary_bufs_sub .., reshape_bufs_sub .., unary_bufs_sub .., reshape_bufs_sub .., unary_bufs_sub .., reshape_bufs_sub .., unary_bufs_sub .., unary_bufs_sub .., unary_bufs_sub .., unary_bufs_sub .., nary_bufs_sub ..⟩
/-- None of them allocates a buffer. -/
theorem seg1_fresh : ∀ op ∈ (seg1 : List (HloOp τ sig (Elt F))), op.fresh = ∅ := by
  intro _ h
  unfold seg1 at h
  (repeat (cases h with | head => rfl | tail _ h => ?_))
  exact nomatch h

/-- What operations 1 to 19 leave, run from any buffer contents `W` in which the program's two arguments are `x0`, `x1`: each result a later operation reads holds its named value, and every buffer they do not write is as in `W`. -/
theorem seg1_spec (W : Valuation τ sig (Elt F)) (x0 x1 : (⟨S16384x7x7x30, .f32⟩ : BufTy).Contents (Elt F))
    (h0 : W (Proc.devRef .tc main_arg0) = x0) (h1 : W (Proc.devRef .tc main_arg1) = x1) :
    after seg1 W (Proc.devRef .tc main_v3) = val_main_v3 (F := F) x1
    ∧ after seg1 W (Proc.devRef .tc main_v17) = val_main_v17 (F := F) x1
    ∧ after seg1 W (Proc.devRef .tc main_arg0) = W (Proc.devRef .tc main_arg0)
    ∧ after seg1 W (Proc.devRef .tc main_arg1) = W (Proc.devRef .tc main_arg1) := by
  subst h0 h1
  refine ⟨?_, ?_, ?_, ?_⟩
  · unfold seg1; after_results_simp
    simp only [val_main_v0, val_main_v1, val_main_cst, val_main_v2, val_main_v3, val_main_v4, val_main_v5, val_main_v6, val_main_v7, val_main_v8, val_main_v9, val_main_v10, val_main_v11, val_main_v12, val_main_v13, val_main_v14, val_main_v15, val_main_v16, val_main_v17] <;> rfl
  · unfold seg1; after_results_simp
    simp only [val_main_v0, val_main_v1, val_main_cst, val_main_v2, val_main_v3, val_main_v4, val_main_v5, val_main_v6, val_main_v7, val_main_v8, val_main_v9, val_main_v10, val_main_v11, val_main_v12, val_main_v13, val_main_v14, val_main_v15, val_main_v16, val_main_v17] <;> rfl
  · unfold seg1; after_results_simp
  · unfold seg1; after_results_simp

/-- Operations 20 to 45 of the program (those writing `main_v18` … `main_v39`), in order. -/
def seg2 : List (HloOp τ sig (Elt F)) :=
  [ unary main_arg0 main_v18 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_v18 main_v19 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v18 main_v20 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_0 (constant S_ .f32 0x3F000000#32),
    unary main_cst_0 main_v21 (broadcastInDim S16384x7x7x2 ![] bcast_S_S16384x7x7x2 : (⟨S_, .f32⟩ : BufTy).Contents (Elt F) → (⟨S16384x7x7x2, .f32⟩ : BufTy).Contents (Elt F)),
    binary main_v20 main_v21 main_v22 (mulf : (⟨S16384x7x7x2, .f32⟩ : BufTy).Contents (Elt F) → (⟨S16384x7x7x2, .f32⟩ : BufTy).Contents (Elt F) → (⟨S16384x7x7x2, .f32⟩ : BufTy).Contents (Elt F)),
    binary main_v19 main_v22 main_v23 (subf : (⟨S16384x7x7x2, .f32⟩ : BufTy).Contents (Elt F) → (⟨S16384x7x7x2, .f32⟩ : BufTy).Contents (Elt F) → (⟨S16384x7x7x2, .f32⟩ : BufTy).Contents (Elt F)),
    unary main_v18 main_v24 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v18 main_v25 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_1 (constant S_ .f32 0x3F000000#32),
    unary main_cst_1 main_v26 (broadcastInDim S16384x7x7x2 ![] bcast_S_S16384x7x7x2 : (⟨S_, .f32⟩ : BufTy).Contents (Elt F) → (⟨S16384x7x7x2, .f32⟩ : BufTy).Contents (Elt F)),
    binary main_v25 main_v26 main_v27 (mulf : (⟨S16384x7x7x2, .f32⟩ : BufTy).Contents (Elt F) → (⟨S16384x7x7x2, .f32⟩ : BufTy).Contents (Elt F) → (⟨S16384x7x7x2, .f32⟩ : BufTy).Contents (Elt F)),
    binary main_v24 main_v27 main_v28 (addf : (⟨S16384x7x7x2, .f32⟩ : BufTy).Contents (Elt F) → (⟨S16384x7x7x2, .f32⟩ : BufTy).Contents (Elt F) → (⟨S16384x7x7x2, .f32⟩ : BufTy).Contents (Elt F)),
    unary main_v17 main_v29 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v17 main_v30 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_2 (constant S_ .f32 0x3F000000#32),
    unary main_cst_2 main_v31 (broadcastInDim S16384x7x7x2 ![] bcast_S_S16384x7x7x2 : (⟨S_, .f32⟩ : BufTy).Contents (Elt F) → (⟨S16384x7x7x2, .f32⟩ : BufTy).Contents (Elt F)),
    binary main_v30 main_v31 main_v32 (mulf : (⟨S16384x7x7x2, .f32⟩ : BufTy).Contents (Elt F) → (⟨S16384x7x7x2, .f32⟩ : BufTy).Contents (Elt F) → (⟨S16384x7x7x2, .f32⟩ : BufTy).Contents (Elt F)),
    binary main_v29 main_v32 main_v33 (subf : (⟨S16384x7x7x2, .f32⟩ : BufTy).Contents (Elt F) → (⟨S16384x7x7x2, .f32⟩ : BufTy).Contents (Elt F) → (⟨S16384x7x7x2, .f32⟩ : BufTy).Contents (Elt F)),
    unary main_v17 main_v34 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v17 main_v35 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_3 (constant S_ .f32 0x3F000000#32),
    unary main_cst_3 main_v36 (broadcastInDim S16384x7x7x2 ![] bcast_S_S16384x7x7x2 : (⟨S_, .f32⟩ : BufTy).Contents (Elt F) → (⟨S16384x7x7x2, .f32⟩ : BufTy).Contents (Elt F)),
    binary main_v35 main_v36 main_v37 (mulf : (⟨S16384x7x7x2, .f32⟩ : BufTy).Contents (Elt F) → (⟨S16384x7x7x2, .f32⟩ : BufTy).Contents (Elt F) → (⟨S16384x7x7x2, .f32⟩ : BufTy).Contents (Elt F)),
    binary main_v34 main_v37 main_v38 (addf : (⟨S16384x7x7x2, .f32⟩ : BufTy).Contents (Elt F) → (⟨S16384x7x7x2, .f32⟩ : BufTy).Contents (Elt F) → (⟨S16384x7x7x2, .f32⟩ : BufTy).Contents (Elt F)),
    binary main_v28 main_v38 main_v39 (minimumf : (⟨S16384x7x7x2, .f32⟩ : BufTy).Contents (Elt F) → (⟨S16384x7x7x2, .f32⟩ : BufTy).Contents (Elt F) → (⟨S16384x7x7x2, .f32⟩ : BufTy).Contents (Elt F)) ]

/-- Each operation of stretch 2 touches TensorCore buffers only. -/
theorem seg2_sub : (seg2 : List (HloOp τ sig (Elt F))).Forall fun op => op.bufs ⊆ tcRefs τ sig := by
  unfold seg2
  exact ⟨unary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub ..⟩
/-- None of them allocates a buffer. -/
theorem seg2_fresh : ∀ op ∈ (seg2 : List (HloOp τ sig (Elt F))), op.fresh = ∅ := by
  intro _ h
  unfold seg2 at h
  (repeat (cases h with | head => rfl | tail _ h => ?_))
  exact nomatch h

/-- What operations 20 to 45 leave, run from any buffer contents `W` in which the program's two arguments are `x0`, `x1` and the earlier results they read hold their named values: each result a later operation reads holds its named value, and every buffer they do not write is as in `W`. -/
theorem seg2_spec (W : Valuation τ sig (Elt F)) (x0 x1 : (⟨S16384x7x7x30, .f32⟩ : BufTy).Contents (Elt F))
    (h0 : W (Proc.devRef .tc main_arg0) = x0) (h1 : W (Proc.devRef .tc main_arg1) = x1)
    (h_v17 : W (Proc.devRef .tc main_v17) = val_main_v17 (F := F) x1) :
    after seg2 W (Proc.devRef .tc main_v18) = val_main_v18 (F := F) x0
    ∧ after seg2 W (Proc.devRef .tc main_v23) = val_main_v23 (F := F) x0
    ∧ after seg2 W (Proc.devRef .tc main_v33) = val_main_v33 (F := F) x1
    ∧ after seg2 W (Proc.devRef .tc main_v39) = val_main_v39 (F := F) x0 x1
    ∧ after seg2 W (Proc.devRef .tc main_v3) = W (Proc.devRef .tc main_v3)
    ∧ after seg2 W (Proc.devRef .tc main_v17) = W (Proc.devRef .tc main_v17)
    ∧ after seg2 W (Proc.devRef .tc main_arg0) = W (Proc.devRef .tc main_arg0)
    ∧ after seg2 W (Proc.devRef .tc main_arg1) = W (Proc.devRef .tc main_arg1) := by
  subst h0 h1
  refine ⟨?_, ?_, ?_, ?_, ?_, ?_, ?_, ?_⟩
  · unfold seg2; after_results_simp
    simp only [h_v17, val_main_v18, val_main_v19, val_main_v20, val_main_cst_0, val_main_v21, val_main_v22, val_main_v23, val_main_v24, val_main_v25, val_main_cst_1, val_main_v26, val_main_v27, val_main_v28, val_main_v29, val_main_v30, val_main_cst_2, val_main_v31, val_main_v32, val_main_v33, val_main_v34, val_main_v35, val_main_cst_3, val_main_v36, val_main_v37, val_main_v38, val_main_v39] <;> rfl
  · unfold seg2; after_results_simp
    simp only [h_v17, val_main_v18, val_main_v19, val_main_v20, val_main_cst_0, val_main_v21, val_main_v22, val_main_v23, val_main_v24, val_main_v25, val_main_cst_1, val_main_v26, val_main_v27, val_main_v28, val_main_v29, val_main_v30, val_main_cst_2, val_main_v31, val_main_v32, val_main_v33, val_main_v34, val_main_v35, val_main_cst_3, val_main_v36, val_main_v37, val_main_v38, val_main_v39] <;> rfl
  · unfold seg2; after_results_simp
    simp only [h_v17, val_main_v18, val_main_v19, val_main_v20, val_main_cst_0, val_main_v21, val_main_v22, val_main_v23, val_main_v24, val_main_v25, val_main_cst_1, val_main_v26, val_main_v27, val_main_v28, val_main_v29, val_main_v30, val_main_cst_2, val_main_v31, val_main_v32, val_main_v33, val_main_v34, val_main_v35, val_main_cst_3, val_main_v36, val_main_v37, val_main_v38, val_main_v39] <;> rfl
  · unfold seg2; after_results_simp
    simp only [h_v17, val_main_v18, val_main_v19, val_main_v20, val_main_cst_0, val_main_v21, val_main_v22, val_main_v23, val_main_v24, val_main_v25, val_main_cst_1, val_main_v26, val_main_v27, val_main_v28, val_main_v29, val_main_v30, val_main_cst_2, val_main_v31, val_main_v32, val_main_v33, val_main_v34, val_main_v35, val_main_cst_3, val_main_v36, val_main_v37, val_main_v38, val_main_v39] <;> rfl
  · unfold seg2; after_results_simp
  · unfold seg2; after_results_simp
  · unfold seg2; after_results_simp
  · unfold seg2; after_results_simp

/-- Operations 46 to 72 of the program (those writing `main_v40` … `main_v62`), in order. -/
def seg3 : List (HloOp τ sig (Elt F)) :=
  [ binary main_v23 main_v33 main_v40 (maximumf : (⟨S16384x7x7x2, .f32⟩ : BufTy).Contents (Elt F) → (⟨S16384x7x7x2, .f32⟩ : BufTy).Contents (Elt F) → (⟨S16384x7x7x2, .f32⟩ : BufTy).Contents (Elt F)),
    binary main_v39 main_v40 main_v41 (subf : (⟨S16384x7x7x2, .f32⟩ : BufTy).Contents (Elt F) → (⟨S16384x7x7x2, .f32⟩ : BufTy).Contents (Elt F) → (⟨S16384x7x7x2, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S16384x7x7x2, .f32⟩) main_call0_v1) (broadcastInDim S16384x7x7x2 ![] bcast_S_S16384x7x7x2),
    TRef.binary (TRef.of (T := ⟨S16384x7x7x2, .f32⟩) main_call0_v1) (TRef.of (T := ⟨S16384x7x7x2, .f32⟩) main_v41) (TRef.of (T := ⟨S16384x7x7x2, .f32⟩) main_v42) maximumf,
    unary main_v42 main_v43 ((extractStridedSlice S16384x7x7x1 ![0, 0, 0, 0] · slices_S16384x7x7x2_S16384x7x7x1_0_0_0_0) : (⟨S16384x7x7x2, .f32⟩ : BufTy).Contents (Elt F) → (⟨S16384x7x7x1, .f32⟩ : BufTy).Contents (Elt F)),
    reshape main_v43 main_v44 rfl shapeCasts_S16384x7x7x1_S16384x7x7,
    unary main_v42 main_v45 ((extractStridedSlice S16384x7x7x1 ![0, 0, 0, 1] · slices_S16384x7x7x2_S16384x7x7x1_0_0_0_1) : (⟨S16384x7x7x2, .f32⟩ : BufTy).Contents (Elt F) → (⟨S16384x7x7x1, .f32⟩ : BufTy).Contents (Elt F)),
    reshape main_v45 main_v46 rfl shapeCasts_S16384x7x7x1_S16384x7x7,
    binary main_v44 main_v46 main_v47 (mulf : (⟨S16384x7x7, .f32⟩ : BufTy).Contents (Elt F) → (⟨S16384x7x7, .f32⟩ : BufTy).Contents (Elt F) → (⟨S16384x7x7, .f32⟩ : BufTy).Contents (Elt F)),
    unary main_v18 main_v48 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v48 main_v49 rfl shapeCasts_S16384x7x7x1_S16384x7x7,
    unary main_v18 main_v50 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v50 main_v51 rfl shapeCasts_S16384x7x7x1_S16384x7x7,
    binary main_v49 main_v51 main_v52 (mulf : (⟨S16384x7x7, .f32⟩ : BufTy).Contents (Elt F) → (⟨S16384x7x7, .f32⟩ : BufTy).Contents (Elt F) → (⟨S16384x7x7, .f32⟩ : BufTy).Contents (Elt F)),
    unary main_v17 main_v53 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v53 main_v54 rfl shapeCasts_S16384x7x7x1_S16384x7x7,
    unary main_v17 main_v55 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v55 main_v56 rfl shapeCasts_S16384x7x7x1_S16384x7x7,
    binary main_v54 main_v56 main_v57 (mulf : (⟨S16384x7x7, .f32⟩ : BufTy).Contents (Elt F) → (⟨S16384x7x7, .f32⟩ : BufTy).Contents (Elt F) → (⟨S16384x7x7, .f32⟩ : BufTy).Contents (Elt F)),
    binary main_v52 main_v57 main_v58 (addf : (⟨S16384x7x7, .f32⟩ : BufTy).Contents (Elt F) → (⟨S16384x7x7, .f32⟩ : BufTy).Contents (Elt F) → (⟨S16384x7x7, .f32⟩ : BufTy).Contents (Elt F)),
    binary main_v58 main_v47 main_v59 (subf : (⟨S16384x7x7, .f32⟩ : BufTy).Contents (Elt F) → (⟨S16384x7x7, .f32⟩ : BufTy).Contents (Elt F) → (⟨S16384x7x7, .f32⟩ : BufTy).Contents (Elt F)),
    nullary main_cst_5 (constant S_ .f32 0x2EDBE6FF#32),
    unary main_cst_5 main_v60 (broadcastInDim S16384x7x7 ![] bcast_S_S16384x7x7 : (⟨S_, .f32⟩ : BufTy).Contents (Elt F) → (⟨S16384x7x7, .f32⟩ : BufTy).Contents (Elt F)),
    binary main_v59 main_v60 main_v61 (addf : (⟨S16384x7x7, .f32⟩ : BufTy).Contents (Elt F) → (⟨S16384x7x7, .f32⟩ : BufTy).Contents (Elt F) → (⟨S16384x7x7, .f32⟩ : BufTy).Contents (Elt F)),
    binary main_v47 main_v61 main_v62 (Host.divf : (⟨S16384x7x7, .f32⟩ : BufTy).Contents (Elt F) → (⟨S16384x7x7, .f32⟩ : BufTy).Contents (Elt F) → (⟨S16384x7x7, .f32⟩ : BufTy).Contents (Elt F)) ]

/-- Each operation of stretch 3 touches TensorCore buffers only. -/
theorem seg3_sub : (seg3 : List (HloOp τ sig (Elt F))).Forall fun op => op.bufs ⊆ tcRefs τ sig := by
  unfold seg3
  exact ⟨binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., nullary_bufs_sub .., unary_bufs_sub .., binary_bufs_sub .., binary_bufs_sub ..⟩
/-- None of them allocates a buffer. -/
theorem seg3_fresh : ∀ op ∈ (seg3 : List (HloOp τ sig (Elt F))), op.fresh = ∅ := by
  intro _ h
  unfold seg3 at h
  (repeat (cases h with | head => rfl | tail _ h => ?_))
  exact nomatch h

/-- What operations 46 to 72 leave, run from any buffer contents `W` in which the program's two arguments are `x0`, `x1` and the earlier results they read hold their named values: each result a later operation reads holds its named value, and every buffer they do not write is as in `W`. -/
theorem seg3_spec (W : Valuation τ sig (Elt F)) (x0 x1 : (⟨S16384x7x7x30, .f32⟩ : BufTy).Contents (Elt F))
    (h0 : W (Proc.devRef .tc main_arg0) = x0) (h1 : W (Proc.devRef .tc main_arg1) = x1)
    (h_v23 : W (Proc.devRef .tc main_v23) = val_main_v23 (F := F) x0)
    (h_v33 : W (Proc.devRef .tc main_v33) = val_main_v33 (F := F) x1)
    (h_v39 : W (Proc.devRef .tc main_v39) = val_main_v39 (F := F) x0 x1)
    (h_v18 : W (Proc.devRef .tc main_v18) = val_main_v18 (F := F) x0)
    (h_v17 : W (Proc.devRef .tc main_v17) = val_main_v17 (F := F) x1) :
    after seg3 W (Proc.devRef .tc main_v62) = val_main_v62 (F := F) x0 x1
    ∧ after seg3 W (Proc.devRef .tc main_v3) = W (Proc.devRef .tc main_v3)
    ∧ after seg3 W (Proc.devRef .tc main_v17) = W (Proc.devRef .tc main_v17)
    ∧ after seg3 W (Proc.devRef .tc main_arg0) = W (Proc.devRef .tc main_arg0)
    ∧ after seg3 W (Proc.devRef .tc main_arg1) = W (Proc.devRef .tc main_arg1) := by
  subst h0 h1
  refine ⟨?_, ?_, ?_, ?_, ?_⟩
  · unfold seg3; after_results_simp
    simp only [h_v23, h_v33, h_v39, h_v18, h_v17, val_main_v40, val_main_v41, val_main_cst_4, val_main_call0_v0, val_main_call0_v1, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst_5, val_main_v60, val_main_v61, val_main_v62] <;> rfl
  · unfold seg3; after_results_simp
  · unfold seg3; after_results_simp
  · unfold seg3; after_results_simp
  · unfold seg3; after_results_simp

/-- Operations 73 to 104 of the program (those writing `main_v63` … `main_v87`), in order. -/
def seg4 : List (HloOp τ sig (Elt F)) :=
  [ unary main_arg0 main_v63 ((extractStridedSlice S16384x7x7x4 ![0, 0, 0, 5] · slices_S16384x7x7x30_S16384x7x7x4_0_0_0_5) : (⟨S16384x7x7x30, .f32⟩ : BufTy).Contents (Elt F) → (⟨S16384x7x7x4, .f32⟩ : BufTy).Contents (Elt F)),
    unary main_v63 main_v64 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v63 main_v65 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_6 (constant S_ .f32 0x3F000000#32),
    unary main_cst_6 main_v66 (broadcastInDim S16384x7x7x2 ![] bcast_S_S16384x7x7x2 : (⟨S_, .f32⟩ : BufTy).Contents (Elt F) → (⟨S16384x7x7x2, .f32⟩ : BufTy).Contents (Elt F)),
    binary main_v65 main_v66 main_v67 (mulf : (⟨S16384x7x7x2, .f32⟩ : BufTy).Contents (Elt F) → (⟨S16384x7x7x2, .f32⟩ : BufTy).Contents (Elt F) → (⟨S16384x7x7x2, .f32⟩ : BufTy).Contents (Elt F)),
    binary main_v64 main_v67 main_v68 (subf : (⟨S16384x7x7x2, .f32⟩ : BufTy).Contents (Elt F) → (⟨S16384x7x7x2, .f32⟩ : BufTy).Contents (Elt F) → (⟨S16384x7x7x2, .f32⟩ : BufTy).Contents (Elt F)),
    unary main_v63 main_v69 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v63 main_v70 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_7 (constant S_ .f32 0x3F000000#32),
    unary main_cst_7 main_v71 (broadcastInDim S16384x7x7x2 ![] bcast_S_S16384x7x7x2 : (⟨S_, .f32⟩ : BufTy).Contents (Elt F) → (⟨S16384x7x7x2, .f32⟩ : BufTy).Contents (Elt F)),
    binary main_v70 main_v71 main_v72 (mulf : (⟨S16384x7x7x2, .f32⟩ : BufTy).Contents (Elt F) → (⟨S16384x7x7x2, .f32⟩ : BufTy).Contents (Elt F) → (⟨S16384x7x7x2, .f32⟩ : BufTy).Contents (Elt F)),
    binary main_v69 main_v72 main_v73 (addf : (⟨S16384x7x7x2, .f32⟩ : BufTy).Contents (Elt F) → (⟨S16384x7x7x2, .f32⟩ : BufTy).Contents (Elt F) → (⟨S16384x7x7x2, .f32⟩ : BufTy).Contents (Elt F)),
    unary main_v17 main_v74 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v17 main_v75 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_8 (constant S_ .f32 0x3F000000#32),
    unary main_cst_8 main_v76 (broadcastInDim S16384x7x7x2 ![] bcast_S_S16384x7x7x2 : (⟨S_, .f32⟩ : BufTy).Contents (Elt F) → (⟨S16384x7x7x2, .f32⟩ : BufTy).Contents (Elt F)),
    binary main_v75 main_v76 main_v77 (mulf : (⟨S16384x7x7x2, .f32⟩ : BufTy).Contents (Elt F) → (⟨S16384x7x7x2, .f32⟩ : BufTy).Contents (Elt F) → (⟨S16384x7x7x2, .f32⟩ : BufTy).Contents (Elt F)),
    binary main_v74 main_v77 main_v78 (subf : (⟨S16384x7x7x2, .f32⟩ : BufTy).Contents (Elt F) → (⟨S16384x7x7x2, .f32⟩ : BufTy).Contents (Elt F) → (⟨S16384x7x7x2, .f32⟩ : BufTy).Contents (Elt F)),
    unary main_v17 main_v79 ((extractStridedSlice S16384x7x7x2 ![0, 0, 0, 0] · slices_S16384x7x7x4_S16384x7x7x2_0_0_0_0) : (⟨S16384x7x7x4, .f32⟩ : BufTy).Contents (Elt F) → (⟨S16384x7x7x2, .f32⟩ : BufTy).Contents (Elt F)),
    unary main_v17 main_v80 ((extractStridedSlice S16384x7x7x2 ![0, 0, 0, 2] · slices_S16384x7x7x4_S16384x7x7x2_0_0_0_2) : (⟨S16384x7x7x4, .f32⟩ : BufTy).Contents (Elt F) → (⟨S16384x7x7x2, .f32⟩ : BufTy).Contents (Elt F)),
    nullary main_cst_9 (constant S_ .f32 0x3F000000#32),
    unary main_cst_9 main_v81 (broadcastInDim S16384x7x7x2 ![] bcast_S_S16384x7x7x2 : (⟨S_, .f32⟩ : BufTy).Contents (Elt F) → (⟨S16384x7x7x2, .f32⟩ : BufTy).Contents (Elt F)),
    binary main_v80 main_v81 main_v82 (mulf : (⟨S16384x7x7x2, .f32⟩ : BufTy).Contents (Elt F) → (⟨S16384x7x7x2, .f32⟩ : BufTy).Contents (Elt F) → (⟨S16384x7x7x2, .f32⟩ : BufTy).Contents (Elt F)),
    binary main_v79 main_v82 main_v83 (addf : (⟨S16384x7x7x2, .f32⟩ : BufTy).Contents (Elt F) → (⟨S16384x7x7x2, .f32⟩ : BufTy).Contents (Elt F) → (⟨S16384x7x7x2, .f32⟩ : BufTy).Contents (Elt F)),
    binary main_v73 main_v83 main_v84 (minimumf : (⟨S16384x7x7x2, .f32⟩ : BufTy).Contents (Elt F) → (⟨S16384x7x7x2, .f32⟩ : BufTy).Contents (Elt F) → (⟨S16384x7x7x2, .f32⟩ : BufTy).Contents (Elt F)),
    binary main_v68 main_v78 main_v85 (maximumf : (⟨S16384x7x7x2, .f32⟩ : BufTy).Contents (Elt F) → (⟨S16384x7x7x2, .f32⟩ : BufTy).Contents (Elt F) → (⟨S16384x7x7x2, .f32⟩ : BufTy).Contents (Elt F)),
    binary main_v84 main_v85 main_v86 (subf : (⟨S16384x7x7x2, .f32⟩ : BufTy).Contents (Elt F) → (⟨S16384x7x7x2, .f32⟩ : BufTy).Contents (Elt F) → (⟨S16384x7x7x2, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S16384x7x7x2, .f32⟩) main_call1_v1) (broadcastInDim S16384x7x7x2 ![] bcast_S_S16384x7x7x2),
    TRef.binary (TRef.of (T := ⟨S16384x7x7x2, .f32⟩) main_call1_v1) (TRef.of (T := ⟨S16384x7x7x2, .f32⟩) main_v86) (TRef.of (T := ⟨S16384x7x7x2, .f32⟩) main_v87) maximumf ]

/-- Each operation of stretch 4 touches TensorCore buffers only. -/
theorem seg4_sub : (seg4 : List (HloOp τ sig (Elt F))).Forall fun op => op.bufs ⊆ tcRefs τ sig := by
  unfold seg4
  exact ⟨unary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub .., binary_bufs_sub .., binary_bufs_sub .., binary_bufs_sub .., nullary_bufs_sub .., unary_bufs_sub .., unary_bufs_sub .., binary_bufs_sub ..⟩
/-- None of them allocates a buffer. -/
theorem seg4_fresh : ∀ op ∈ (seg4 : List (HloOp τ sig (Elt F))), op.fresh = ∅ := by
  intro _ h
  unfold seg4 at h
  (repeat (cases h with | head => rfl | tail _ h => ?_))
  exact nomatch h

/-- What operations 73 to 104 leave, run from any buffer contents `W` in which the program's two arguments are `x0`, `x1` and the earlier results they read hold their named values: each result a later operation reads holds its named value, and every buffer they do not write is as in `W`. -/
theorem seg4_spec (W : Valuation τ sig (Elt F)) (x0 x1 : (⟨S16384x7x7x30, .f32⟩ : BufTy).Contents (Elt F))
    (h0 : W (Proc.devRef .tc main_arg0) = x0) (h1 : W (Proc.devRef .tc main_arg1) = x1)
    (h_v17 : W (Proc.devRef .tc main_v17) = val_main_v17 (F := F) x1) :
    after seg4 W (Proc.devRef .tc main_v63) = val_main_v63 (F := F) x0
    ∧ after seg4 W (Proc.devRef .tc main_v87) = val_main_v87 (F := F) x0 x1
    ∧ after seg4 W (Proc.devRef .tc main_v3) = W (Proc.devRef .tc main_v3)
    ∧ after seg4 W (Proc.devRef .tc main_v17) = W (Proc.devRef .tc main_v17)
    ∧ after seg4 W (Proc.devRef .tc main_v62) = W (Proc.devRef .tc main_v62)
    ∧ after seg4 W (Proc.devRef .tc main_arg0) = W (Proc.devRef .tc main_arg0)
    ∧ after seg4 W (Proc.devRef .tc main_arg1) = W (Proc.devRef .tc main_arg1) := by
  subst h0 h1
  refine ⟨?_, ?_, ?_, ?_, ?_, ?_, ?_⟩
  · unfold seg4; after_results_simp
    simp only [h_v17, val_main_v63, val_main_v64, val_main_v65, val_main_cst_6, val_main_v66, val_main_v67, val_main_v68, val_main_v69, val_main_v70, val_main_cst_7, val_main_v71, val_main_v72, val_main_v73, val_main_v74, val_main_v75, val_main_cst_8, val_main_v76, val_main_v77, val_main_v78, val_main_v79, val_main_v80, val_main_cst_9, val_main_v81, val_main_v82, val_main_v83, val_main_v84, val_main_v85, val_main_v86, val_main_cst_10, val_main_call1_v0, val_main_call1_v1, val_main_v87] <;> rfl
  · unfold seg4; after_results_simp
    simp only [h_v17, val_main_v63, val_main_v64, val_main_v65, val_main_cst_6, val_main_v66, val_main_v67, val_main_v68, val_main_v69, val_main_v70, val_main_cst_7, val_main_v71, val_main_v72, val_main_v73, val_main_v74, val_main_v75, val_main_cst_8, val_main_v76, val_main_v77, val_main_v78, val_main_v79, val_main_v80, val_main_cst_9, val_main_v81, val_main_v82, val_main_v83, val_main_v84, val_main_v85, val_main_v86, val_main_cst_10, val_main_call1_v0, val_main_call1_v1, val_main_v87] <;> rfl
  · unfold seg4; after_results_simp
  · unfold seg4; after_results_simp
  · unfold seg4; after_results_simp
  · unfold seg4; after_results_simp
  · unfold seg4; after_results_simp

/-- Operations 105 to 126 of the program (those writing `main_v88` … `main_v108`), in order. -/
def seg5 : List (HloOp τ sig (Elt F)) :=
  [ unary main_v87 main_v88 ((extractStridedSlice S16384x7x7x1 ![0, 0, 0, 0] · slices_S16384x7x7x2_S16384x7x7x1_0_0_0_0) : (⟨S16384x7x7x2, .f32⟩ : BufTy).Contents (Elt F) → (⟨S16384x7x7x1, .f32⟩ : BufTy).Contents (Elt F)),
    reshape main_v88 main_v89 rfl shapeCasts_S16384x7x7x1_S16384x7x7,
    unary main_v87 main_v90 ((extractStridedSlice S16384x7x7x1 ![0, 0, 0, 1] · slices_S16384x7x7x2_S16384x7x7x1_0_0_0_1) : (⟨S16384x7x7x2, .f32⟩ : BufTy).Contents (Elt F) → (⟨S16384x7x7x1, .f32⟩ : BufTy).Contents (Elt F)),
    reshape main_v90 main_v91 rfl shapeCasts_S16384x7x7x1_S16384x7x7,
    binary main_v89 main_v91 main_v92 (mulf : (⟨S16384x7x7, .f32⟩ : BufTy).Contents (Elt F) → (⟨S16384x7x7, .f32⟩ : BufTy).Contents (Elt F) → (⟨S16384x7x7, .f32⟩ : BufTy).Contents (Elt F)),
    unary main_v63 main_v93 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v93 main_v94 rfl shapeCasts_S16384x7x7x1_S16384x7x7,
    unary main_v63 main_v95 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v95 main_v96 rfl shapeCasts_S16384x7x7x1_S16384x7x7,
    binary main_v94 main_v96 main_v97 (mulf : (⟨S16384x7x7, .f32⟩ : BufTy).Contents (Elt F) → (⟨S16384x7x7, .f32⟩ : BufTy).Contents (Elt F) → (⟨S16384x7x7, .f32⟩ : BufTy).Contents (Elt F)),
    unary main_v17 main_v98 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v98 main_v99 rfl shapeCasts_S16384x7x7x1_S16384x7x7,
    unary main_v17 main_v100 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v100 main_v101 rfl shapeCasts_S16384x7x7x1_S16384x7x7,
    binary main_v99 main_v101 main_v102 (mulf : (⟨S16384x7x7, .f32⟩ : BufTy).Contents (Elt F) → (⟨S16384x7x7, .f32⟩ : BufTy).Contents (Elt F) → (⟨S16384x7x7, .f32⟩ : BufTy).Contents (Elt F)),
    binary main_v97 main_v102 main_v103 (addf : (⟨S16384x7x7, .f32⟩ : BufTy).Contents (Elt F) → (⟨S16384x7x7, .f32⟩ : BufTy).Contents (Elt F) → (⟨S16384x7x7, .f32⟩ : BufTy).Contents (Elt F)),
    binary main_v103 main_v92 main_v104 (subf : (⟨S16384x7x7, .f32⟩ : BufTy).Contents (Elt F) → (⟨S16384x7x7, .f32⟩ : BufTy).Contents (Elt F) → (⟨S16384x7x7, .f32⟩ : BufTy).Contents (Elt F)),
    nullary main_cst_11 (constant S_ .f32 0x2EDBE6FF#32),
    unary main_cst_11 main_v105 (broadcastInDim S16384x7x7 ![] bcast_S_S16384x7x7 : (⟨S_, .f32⟩ : BufTy).Contents (Elt F) → (⟨S16384x7x7, .f32⟩ : BufTy).Contents (Elt F)),
    binary main_v104 main_v105 main_v106 (addf : (⟨S16384x7x7, .f32⟩ : BufTy).Contents (Elt F) → (⟨S16384x7x7, .f32⟩ : BufTy).Contents (Elt F) → (⟨S16384x7x7, .f32⟩ : BufTy).Contents (Elt F)),
    binary main_v92 main_v106 main_v107 (Host.divf : (⟨S16384x7x7, .f32⟩ : BufTy).Contents (Elt F) → (⟨S16384x7x7, .f32⟩ : BufTy).Contents (Elt F) → (⟨S16384x7x7, .f32⟩ : BufTy).Contents (Elt F)),
    binary main_v62 main_v107 main_v108 (cmpf .ogt : (⟨S16384x7x7, .f32⟩ : BufTy).Contents (Elt F) → (⟨S16384x7x7, .f32⟩ : BufTy).Contents (Elt F) → (⟨S16384x7x7, .i1⟩ : BufTy).Contents (Elt F)) ]

/-- Each operation of stretch 5 touches TensorCore buffers only. -/
theorem seg5_sub : (seg5 : List (HloOp τ sig (Elt F))).Forall fun op => op.bufs ⊆ tcRefs τ sig := by
  unfold seg5
  exact ⟨unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., nullary_bufs_sub .., unary_bufs_sub .., binary_bufs_sub .., binary_bufs_sub .., binary_bufs_sub ..⟩
/-- None of them allocates a buffer. -/
theorem seg5_fresh : ∀ op ∈ (seg5 : List (HloOp τ sig (Elt F))), op.fresh = ∅ := by
  intro _ h
  unfold seg5 at h
  (repeat (cases h with | head => rfl | tail _ h => ?_))
  exact nomatch h

/-- What operations 105 to 126 leave, run from any buffer contents `W` in which the program's two arguments are `x0`, `x1` and the earlier results they read hold their named values: each result a later operation reads holds its named value, and every buffer they do not write is as in `W`. -/
theorem seg5_spec (W : Valuation τ sig (Elt F)) (x0 x1 : (⟨S16384x7x7x30, .f32⟩ : BufTy).Contents (Elt F))
    (h0 : W (Proc.devRef .tc main_arg0) = x0) (h1 : W (Proc.devRef .tc main_arg1) = x1)
    (h_v87 : W (Proc.devRef .tc main_v87) = val_main_v87 (F := F) x0 x1)
    (h_v63 : W (Proc.devRef .tc main_v63) = val_main_v63 (F := F) x0)
    (h_v17 : W (Proc.devRef .tc main_v17) = val_main_v17 (F := F) x1)
    (h_v62 : W (Proc.devRef .tc main_v62) = val_main_v62 (F := F) x0 x1) :
    after seg5 W (Proc.devRef .tc main_v107) = val_main_v107 (F := F) x0 x1
    ∧ after seg5 W (Proc.devRef .tc main_v108) = val_main_v108 (F := F) x0 x1
    ∧ after seg5 W (Proc.devRef .tc main_v3) = W (Proc.devRef .tc main_v3)
    ∧ after seg5 W (Proc.devRef .tc main_v62) = W (Proc.devRef .tc main_v62)
    ∧ after seg5 W (Proc.devRef .tc main_arg0) = W (Proc.devRef .tc main_arg0)
    ∧ after seg5 W (Proc.devRef .tc main_arg1) = W (Proc.devRef .tc main_arg1) := by
  subst h0 h1
  refine ⟨?_, ?_, ?_, ?_, ?_, ?_⟩
  · unfold seg5; after_results_simp
    simp only [h_v87, h_v63, h_v17, h_v62, val_main_v88, val_main_v89, val_main_v90, val_main_v91, val_main_v92, val_main_v93, val_main_v94, val_main_v95, val_main_v96, val_main_v97, val_main_v98, val_main_v99, val_main_v100, val_main_v101, val_main_v102, val_main_v103, val_main_v104, val_main_cst_11, val_main_v105, val_main_v106, val_main_v107, val_main_v108] <;> rfl
  · unfold seg5; after_results_simp
    simp only [h_v87, h_v63, h_v17, h_v62, val_main_v88, val_main_v89, val_main_v90, val_main_v91, val_main_v92, val_main_v93, val_main_v94, val_main_v95, val_main_v96, val_main_v97, val_main_v98, val_main_v99, val_main_v100, val_main_v101, val_main_v102, val_main_v103, val_main_v104, val_main_cst_11, val_main_v105, val_main_v106, val_main_v107, val_main_v108] <;> rfl
  · unfold seg5; after_results_simp
  · unfold seg5; after_results_simp
  · unfold seg5; after_results_simp
  · unfold seg5; after_results_simp

end Cert.ReferenceIdeal.HandRun

end
-- ==== Proof.RefRunB.lean ====
/-
  The reference program's straight line of host operations, stretches 6 to 9 (operations 127 to 209): each stretch, run
  from ANY buffer contents `W` that hold the program's two arguments and the named values (one per operation: the
  operation applied to the named values of the operations it reads) of the earlier results it reads, leaves the named
  values of its results that later operations read, and leaves every buffer it does not write as in `W`.
-/
import proofs.«118652_j81767587381937_2_alg».proof.Proof.RefVals
import Idealize.ShloMosaic.Lib.StableHlo.Run

noncomputable section

namespace Cert.ReferenceIdeal.HandRun

open Cert.ReferenceIdeal Cert.ReferenceIdeal.Gen Cert.ReferenceIdeal.Vals Idealize.ShloMosaic Idealize.ShloMosaic.TcCoe Idealize.SL.Sem Idealize.ShloMosaic.StableHlo

variable {F : FTy → Type} [FloatOps F]

/-- Operations 127 to 156 of the program (those writing `main_v109` … `main_v134`), in order. -/
def seg6 : List (HloOp τ sig (Elt F)) :=
  [ unary main_arg0 main_v109 ((extractStridedSlice S16384x7x7x2 ![0, 0, 0, 0] · slices_S16384x7x7x30_S16384x7x7x2_0_0_0_0) : (⟨S16384x7x7x30, .f32⟩ : BufTy).Contents (Elt F) → (⟨S16384x7x7x2, .f32⟩ : BufTy).Contents (Elt F)),
    unary main_arg1 main_v110 ((extractStridedSlice S16384x7x7x2 ![0, 0, 0, 0] · slices_S16384x7x7x30_S16384x7x7x2_0_0_0_0) : (⟨S16384x7x7x30, .f32⟩ : BufTy).Contents (Elt F) → (⟨S16384x7x7x2, .f32⟩ : BufTy).Contents (Elt F)),
    binary main_v109 main_v110 main_v111 (subf : (⟨S16384x7x7x2, .f32⟩ : BufTy).Contents (Elt F) → (⟨S16384x7x7x2, .f32⟩ : BufTy).Contents (Elt F) → (⟨S16384x7x7x2, .f32⟩ : BufTy).Contents (Elt F)),
    binary main_v111 main_v111 main_v112 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_12 (constant S_ .f32 0x00000000#32),
    binary main_v112 main_cst_12 main_v113 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    nullary main_cst_13 (constant S_ .f32 0x40A00000#32),
    unary main_cst_13 main_v114 (broadcastInDim S16384x7x7 ![] bcast_S_S16384x7x7 : (⟨S_, .f32⟩ : BufTy).Contents (Elt F) → (⟨S16384x7x7, .f32⟩ : BufTy).Contents (Elt F)),
    binary main_v114 main_v113 main_v115 (mulf : (⟨S16384x7x7, .f32⟩ : BufTy).Contents (Elt F) → (⟨S16384x7x7, .f32⟩ : BufTy).Contents (Elt F) → (⟨S16384x7x7, .f32⟩ : BufTy).Contents (Elt F)),
    unary main_arg0 main_v116 ((extractStridedSlice S16384x7x7x2 ![0, 0, 0, 2] · slices_S16384x7x7x30_S16384x7x7x2_0_0_0_2) : (⟨S16384x7x7x30, .f32⟩ : BufTy).Contents (Elt F) → (⟨S16384x7x7x2, .f32⟩ : BufTy).Contents (Elt F)),
    unary main_v116 main_v117 (Host.sqrt : (⟨S16384x7x7x2, .f32⟩ : BufTy).Contents (Elt F) → (⟨S16384x7x7x2, .f32⟩ : BufTy).Contents (Elt F)),
    unary main_arg1 main_v118 ((extractStridedSlice S16384x7x7x2 ![0, 0, 0, 2] · slices_S16384x7x7x30_S16384x7x7x2_0_0_0_2) : (⟨S16384x7x7x30, .f32⟩ : BufTy).Contents (Elt F) → (⟨S16384x7x7x2, .f32⟩ : BufTy).Contents (Elt F)),
    unary main_v118 main_v119 (Host.sqrt : (⟨S16384x7x7x2, .f32⟩ : BufTy).Contents (Elt F) → (⟨S16384x7x7x2, .f32⟩ : BufTy).Contents (Elt F)),
    binary main_v117 main_v119 main_v120 (subf : (⟨S16384x7x7x2, .f32⟩ : BufTy).Contents (Elt F) → (⟨S16384x7x7x2, .f32⟩ : BufTy).Contents (Elt F) → (⟨S16384x7x7x2, .f32⟩ : BufTy).Contents (Elt F)),
    binary main_v120 main_v120 main_v121 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_14 (constant S_ .f32 0x00000000#32),
    binary main_v121 main_cst_14 main_v122 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    binary main_v115 main_v122 main_v123 (addf : (⟨S16384x7x7, .f32⟩ : BufTy).Contents (Elt F) → (⟨S16384x7x7, .f32⟩ : BufTy).Contents (Elt F) → (⟨S16384x7x7, .f32⟩ : BufTy).Contents (Elt F)),
    unary main_arg0 main_v124 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v124 main_v125 rfl shapeCasts_S16384x7x7x1_S16384x7x7,
    binary main_v62 main_v125 main_v126 (subf : (⟨S16384x7x7, .f32⟩ : BufTy).Contents (Elt F) → (⟨S16384x7x7, .f32⟩ : BufTy).Contents (Elt F) → (⟨S16384x7x7, .f32⟩ : BufTy).Contents (Elt F)),
    binary main_v126 main_v126 main_v127 (mulf : (⟨S16384x7x7, .f32⟩ : BufTy).Contents (Elt F) → (⟨S16384x7x7, .f32⟩ : BufTy).Contents (Elt F) → (⟨S16384x7x7, .f32⟩ : BufTy).Contents (Elt F)),
    binary main_v123 main_v127 main_v128 (addf : (⟨S16384x7x7, .f32⟩ : BufTy).Contents (Elt F) → (⟨S16384x7x7, .f32⟩ : BufTy).Contents (Elt F) → (⟨S16384x7x7, .f32⟩ : BufTy).Contents (Elt F)),
    unary main_arg0 main_v129 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v129 main_v130 rfl shapeCasts_S16384x7x7x1_S16384x7x7,
    binary main_v130 main_v130 main_v131 (mulf : (⟨S16384x7x7, .f32⟩ : BufTy).Contents (Elt F) → (⟨S16384x7x7, .f32⟩ : BufTy).Contents (Elt F) → (⟨S16384x7x7, .f32⟩ : BufTy).Contents (Elt F)),
    nullary main_cst_15 (constant S_ .f32 0x3F000000#32),
    unary main_cst_15 main_v132 (broadcastInDim S16384x7x7 ![] bcast_S_S16384x7x7 : (⟨S_, .f32⟩ : BufTy).Contents (Elt F) → (⟨S16384x7x7, .f32⟩ : BufTy).Contents (Elt F)),
    binary main_v132 main_v131 main_v133 (mulf : (⟨S16384x7x7, .f32⟩ : BufTy).Contents (Elt F) → (⟨S16384x7x7, .f32⟩ : BufTy).Contents (Elt F) → (⟨S16384x7x7, .f32⟩ : BufTy).Contents (Elt F)),
    binary main_v128 main_v133 main_v134 (addf : (⟨S16384x7x7, .f32⟩ : BufTy).Contents (Elt F) → (⟨S16384x7x7, .f32⟩ : BufTy).Contents (Elt F) → (⟨S16384x7x7, .f32⟩ : BufTy).Contents (Elt F)) ]

/-- Each operation of stretch 6 touches TensorCore buffers only. -/
theorem seg6_sub : (seg6 : List (HloOp τ sig (Elt F))).Forall fun op => op.bufs ⊆ tcRefs τ sig := by
  unfold seg6
  exact ⟨unary_bufs_sub .., unary_bufs_sub .., binary_bufs_sub .., binary_bufs_sub .., nullary_bufs_sub .., binary_bufs_sub .., nullary_bufs_sub .., unary_bufs_sub .., binary_bufs_sub .., unary_bufs_sub .., unary_bufs_sub .., unary_bufs_sub .., unary_bufs_sub .., binary_bufs_sub .., binary_bufs_sub .., nullary_bufs_sub .., binary_bufs_sub .., binary_bufs_sub .., unary_bufs_sub .., reshape_bufs_sub .., binary_bufs_sub .., binary_bufs_sub .., binary_bufs_sub .., unary_bufs_sub .., reshape_bufs_sub .., binary_bufs_sub .., nullary_bufs_sub .., unary_bufs_sub .., binary_bufs_sub .., binary_bufs_sub ..⟩
/-- None of them allocates a buffer. -/
theorem seg6_fresh : ∀ op ∈ (seg6 : List (HloOp τ sig (Elt F))), op.fresh = ∅ := by
  intro _ h
  unfold seg6 at h
  (repeat (cases h with | head => rfl | tail _ h => ?_))
  exact nomatch h

/-- What operations 127 to 156 leave, run from any buffer contents `W` in which the program's two arguments are `x0`, `x1` and the earlier results they read hold their named values: each result a later operation reads holds its named value, and every buffer they do not write is as in `W`. -/
theorem seg6_spec (W : Valuation τ sig (Elt F)) (x0 x1 : (⟨S16384x7x7x30, .f32⟩ : BufTy).Contents (Elt F))
    (h0 : W (Proc.devRef .tc main_arg0) = x0) (h1 : W (Proc.devRef .tc main_arg1) = x1)
    (h_v62 : W (Proc.devRef .tc main_v62) = val_main_v62 (F := F) x0 x1) :
    after seg6 W (Proc.devRef .tc main_v134) = val_main_v134 (F := F) x0 x1
    ∧ after seg6 W (Proc.devRef .tc main_v3) = W (Proc.devRef .tc main_v3)
    ∧ after seg6 W (Proc.devRef .tc main_v107) = W (Proc.devRef .tc main_v107)
    ∧ after seg6 W (Proc.devRef .tc main_v108) = W (Proc.devRef .tc main_v108)
    ∧ after seg6 W (Proc.devRef .tc main_arg0) = W (Proc.devRef .tc main_arg0)
    ∧ after seg6 W (Proc.devRef .tc main_arg1) = W (Proc.devRef .tc main_arg1) := by
  subst h0 h1
  refine ⟨?_, ?_, ?_, ?_, ?_, ?_⟩
  · unfold seg6; after_results_simp
    simp only [h_v62, val_main_v109, val_main_v110, val_main_v111, val_main_v112, val_main_cst_12, val_main_v113, val_main_cst_13, val_main_v114, val_main_v115, val_main_v116, val_main_v117, val_main_v118, val_main_v119, val_main_v120, val_main_v121, val_main_cst_14, val_main_v122, val_main_v123, val_main_v124, val_main_v125, val_main_v126, val_main_v127, val_main_v128, val_main_v129, val_main_v130, val_main_v131, val_main_cst_15, val_main_v132, val_main_v133, val_main_v134] <;> rfl
  · unfold seg6; after_results_simp
  · unfold seg6; after_results_simp
  · unfold seg6; after_results_simp
  · unfold seg6; after_results_simp
  · unfold seg6; after_results_simp

/-- Operations 157 to 167 of the program (those writing `main_v135` … `main_v143`), in order. -/
def seg7 : List (HloOp τ sig (Elt F)) :=
  [ unary main_arg0 main_v135 ((extractStridedSlice S16384x7x7x2 ![0, 0, 0, 5] · slices_S16384x7x7x30_S16384x7x7x2_0_0_0_5) : (⟨S16384x7x7x30, .f32⟩ : BufTy).Contents (Elt F) → (⟨S16384x7x7x2, .f32⟩ : BufTy).Contents (Elt F)),
    unary main_arg1 main_v136 ((extractStridedSlice S16384x7x7x2 ![0, 0, 0, 5] · slices_S16384x7x7x30_S16384x7x7x2_0_0_0_5) : (⟨S16384x7x7x30, .f32⟩ : BufTy).Contents (Elt F) → (⟨S16384x7x7x2, .f32⟩ : BufTy).Contents (Elt F)),
    binary main_v135 main_v136 main_v137 (subf : (⟨S16384x7x7x2, .f32⟩ : BufTy).Contents (Elt F) → (⟨S16384x7x7x2, .f32⟩ : BufTy).Contents (Elt F) → (⟨S16384x7x7x2, .f32⟩ : BufTy).Contents (Elt F)),
    binary main_v137 main_v137 main_v138 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_16 (constant S_ .f32 0x00000000#32),
    binary main_v138 main_cst_16 main_v139 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    nullary main_cst_17 (constant S_ .f32 0x40A00000#32),
    unary main_cst_17 main_v140 (broadcastInDim S16384x7x7 ![] bcast_S_S16384x7x7 : (⟨S_, .f32⟩ : BufTy).Contents (Elt F) → (⟨S16384x7x7, .f32⟩ : BufTy).Contents (Elt F)),
    binary main_v140 main_v139 main_v141 (mulf : (⟨S16384x7x7, .f32⟩ : BufTy).Contents (Elt F) → (⟨S16384x7x7, .f32⟩ : BufTy).Contents (Elt F) → (⟨S16384x7x7, .f32⟩ : BufTy).Contents (Elt F)),
    unary main_arg0 main_v142 ((extractStridedSlice S16384x7x7x2 ![0, 0, 0, 7] · slices_S16384x7x7x30_S16384x7x7x2_0_0_0_7) : (⟨S16384x7x7x30, .f32⟩ : BufTy).Contents (Elt F) → (⟨S16384x7x7x2, .f32⟩ : BufTy).Contents (Elt F)),
    unary main_v142 main_v143 (Host.sqrt : (⟨S16384x7x7x2, .f32⟩ : BufTy).Contents (Elt F) → (⟨S16384x7x7x2, .f32⟩ : BufTy).Contents (Elt F)) ]

/-- Each operation of stretch 7 touches TensorCore buffers only. -/
theorem seg7_sub : (seg7 : List (HloOp τ sig (Elt F))).Forall fun op => op.bufs ⊆ tcRefs τ sig := by
  unfold seg7
  exact ⟨unary_bufs_sub .., unary_bufs_sub .., binary_bufs_sub .., binary_bufs_sub .., nullary_bufs_sub .., binary_bufs_sub .., nullary_bufs_sub .., unary_bufs_sub .., binary_bufs_sub .., unary_bufs_sub .., unary_bufs_sub ..⟩
/-- None of them allocates a buffer. -/
theorem seg7_fresh : ∀ op ∈ (seg7 : List (HloOp τ sig (Elt F))), op.fresh = ∅ := by
  intro _ h
  unfold seg7 at h
  (repeat (cases h with | head => rfl | tail _ h => ?_))
  exact nomatch h

/-- What operations 157 to 167 leave, run from any buffer contents `W` in which the program's two arguments are `x0`, `x1`: each result a later operation reads holds its named value, and every buffer they do not write is as in `W`. -/
theorem seg7_spec (W : Valuation τ sig (Elt F)) (x0 x1 : (⟨S16384x7x7x30, .f32⟩ : BufTy).Contents (Elt F))
    (h0 : W (Proc.devRef .tc main_arg0) = x0) (h1 : W (Proc.devRef .tc main_arg1) = x1) :
    after seg7 W (Proc.devRef .tc main_v141) = val_main_v141 (F := F) x0 x1
    ∧ after seg7 W (Proc.devRef .tc main_v143) = val_main_v143 (F := F) x0
    ∧ after seg7 W (Proc.devRef .tc main_v3) = W (Proc.devRef .tc main_v3)
    ∧ after seg7 W (Proc.devRef .tc main_v107) = W (Proc.devRef .tc main_v107)
    ∧ after seg7 W (Proc.devRef .tc main_v108) = W (Proc.devRef .tc main_v108)
    ∧ after seg7 W (Proc.devRef .tc main_v134) = W (Proc.devRef .tc main_v134)
    ∧ after seg7 W (Proc.devRef .tc main_arg0) = W (Proc.devRef .tc main_arg0)
    ∧ after seg7 W (Proc.devRef .tc main_arg1) = W (Proc.devRef .tc main_arg1) := by
  subst h0 h1
  refine ⟨?_, ?_, ?_, ?_, ?_, ?_, ?_, ?_⟩
  · unfold seg7; after_results_simp
    simp only [val_main_v135, val_main_v136, val_main_v137, val_main_v138, val_main_cst_16, val_main_v139, val_main_cst_17, val_main_v140, val_main_v141, val_main_v142, val_main_v143] <;> rfl
  · unfold seg7; after_results_simp
    simp only [val_main_v135, val_main_v136, val_main_v137, val_main_v138, val_main_cst_16, val_main_v139, val_main_cst_17, val_main_v140, val_main_v141, val_main_v142, val_main_v143] <;> rfl
  · unfold seg7; after_results_simp
  · unfold seg7; after_results_simp
  · unfold seg7; after_results_simp
  · unfold seg7; after_results_simp
  · unfold seg7; after_results_simp
  · unfold seg7; after_results_simp

/-- Operations 168 to 194 of the program (those writing `main_v144` … `main_v167`), in order. -/
def seg8 : List (HloOp τ sig (Elt F)) :=
  [ unary main_arg1 main_v144 ((extractStridedSlice S16384x7x7x2 ![0, 0, 0, 7] · slices_S16384x7x7x30_S16384x7x7x2_0_0_0_7) : (⟨S16384x7x7x30, .f32⟩ : BufTy).Contents (Elt F) → (⟨S16384x7x7x2, .f32⟩ : BufTy).Contents (Elt F)),
    unary main_v144 main_v145 (Host.sqrt : (⟨S16384x7x7x2, .f32⟩ : BufTy).Contents (Elt F) → (⟨S16384x7x7x2, .f32⟩ : BufTy).Contents (Elt F)),
    binary main_v143 main_v145 main_v146 (subf : (⟨S16384x7x7x2, .f32⟩ : BufTy).Contents (Elt F) → (⟨S16384x7x7x2, .f32⟩ : BufTy).Contents (Elt F) → (⟨S16384x7x7x2, .f32⟩ : BufTy).Contents (Elt F)),
    binary main_v146 main_v146 main_v147 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_18 (constant S_ .f32 0x00000000#32),
    binary main_v147 main_cst_18 main_v148 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    binary main_v141 main_v148 main_v149 (addf : (⟨S16384x7x7, .f32⟩ : BufTy).Contents (Elt F) → (⟨S16384x7x7, .f32⟩ : BufTy).Contents (Elt F) → (⟨S16384x7x7, .f32⟩ : BufTy).Contents (Elt F)),
    unary main_arg0 main_v150 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v150 main_v151 rfl shapeCasts_S16384x7x7x1_S16384x7x7,
    binary main_v107 main_v151 main_v152 (subf : (⟨S16384x7x7, .f32⟩ : BufTy).Contents (Elt F) → (⟨S16384x7x7, .f32⟩ : BufTy).Contents (Elt F) → (⟨S16384x7x7, .f32⟩ : BufTy).Contents (Elt F)),
    binary main_v152 main_v152 main_v153 (mulf : (⟨S16384x7x7, .f32⟩ : BufTy).Contents (Elt F) → (⟨S16384x7x7, .f32⟩ : BufTy).Contents (Elt F) → (⟨S16384x7x7, .f32⟩ : BufTy).Contents (Elt F)),
    binary main_v149 main_v153 main_v154 (addf : (⟨S16384x7x7, .f32⟩ : BufTy).Contents (Elt F) → (⟨S16384x7x7, .f32⟩ : BufTy).Contents (Elt F) → (⟨S16384x7x7, .f32⟩ : BufTy).Contents (Elt F)),
    unary main_arg0 main_v155 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v155 main_v156 rfl shapeCasts_S16384x7x7x1_S16384x7x7,
    binary main_v156 main_v156 main_v157 (mulf : (⟨S16384x7x7, .f32⟩ : BufTy).Contents (Elt F) → (⟨S16384x7x7, .f32⟩ : BufTy).Contents (Elt F) → (⟨S16384x7x7, .f32⟩ : BufTy).Contents (Elt F)),
    nullary main_cst_19 (constant S_ .f32 0x3F000000#32),
    unary main_cst_19 main_v158 (broadcastInDim S16384x7x7 ![] bcast_S_S16384x7x7 : (⟨S_, .f32⟩ : BufTy).Contents (Elt F) → (⟨S16384x7x7, .f32⟩ : BufTy).Contents (Elt F)),
    binary main_v158 main_v157 main_v159 (mulf : (⟨S16384x7x7, .f32⟩ : BufTy).Contents (Elt F) → (⟨S16384x7x7, .f32⟩ : BufTy).Contents (Elt F) → (⟨S16384x7x7, .f32⟩ : BufTy).Contents (Elt F)),
    binary main_v154 main_v159 main_v160 (addf : (⟨S16384x7x7, .f32⟩ : BufTy).Contents (Elt F) → (⟨S16384x7x7, .f32⟩ : BufTy).Contents (Elt F) → (⟨S16384x7x7, .f32⟩ : BufTy).Contents (Elt F)),
    unary main_arg1 main_v161 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    unary main_arg0 main_v162 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    binary main_v161 main_v162 main_v163 (subf : (⟨S16384x7x7x20, .f32⟩ : BufTy).Contents (Elt F) → (⟨S16384x7x7x20, .f32⟩ : BufTy).Contents (Elt F) → (⟨S16384x7x7x20, .f32⟩ : BufTy).Contents (Elt F)),
    binary main_v163 main_v163 main_v164 (mulf : (⟨S16384x7x7x20, .f32⟩ : BufTy).Contents (Elt F) → (⟨S16384x7x7x20, .f32⟩ : BufTy).Contents (Elt F) → (⟨S16384x7x7x20, .f32⟩ : BufTy).Contents (Elt F)),
    nullary main_cst_20 (constant S_ .f32 0x00000000#32),
    binary main_v164 main_cst_20 main_v165 ((fun x v => Host.reduceAdd x v reducesTo_S16384x7x7x20_S16384x7x7_d3 h_S_) : (⟨S16384x7x7x20, .f32⟩ : BufTy).Contents (Elt F) → (⟨S_, .f32⟩ : BufTy).Contents (Elt F) → (⟨S16384x7x7, .f32⟩ : BufTy).Contents (Elt F)),
    TRef.ternary (TRef.of (T := ⟨S16384x7x7, .i1⟩) main_v108) (TRef.of (T := ⟨S16384x7x7, .f32⟩) main_v134) (TRef.of (T := ⟨S16384x7x7, .f32⟩) main_v160) (TRef.of (T := ⟨S16384x7x7, .f32⟩) main_v166) select,
    binary main_v166 main_v165 main_v167 (addf : (⟨S16384x7x7, .f32⟩ : BufTy).Contents (Elt F) → (⟨S16384x7x7, .f32⟩ : BufTy).Contents (Elt F) → (⟨S16384x7x7, .f32⟩ : BufTy).Contents (Elt F)) ]

/-- Each operation of stretch 8 touches TensorCore buffers only. -/
theorem seg8_sub : (seg8 : List (HloOp τ sig (Elt F))).Forall fun op => op.bufs ⊆ tcRefs τ sig := by
  unfold seg8
  exact ⟨unary_bufs_sub .., unary_bufs_sub .., binary_bufs_sub .., binary_bufs_sub .., nullary_bufs_sub .., binary_bufs_sub .., binary_bufs_sub .., unary_bufs_sub .., reshape_bufs_sub .., binary_bufs_sub .., binary_bufs_sub .., binary_bufs_sub .., unary_bufs_sub .., reshape_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., ternary_bufs_sub .., binary_bufs_sub ..⟩
/-- None of them allocates a buffer. -/
theorem seg8_fresh : ∀ op ∈ (seg8 : List (HloOp τ sig (Elt F))), op.fresh = ∅ := by
  intro _ h
  unfold seg8 at h
  (repeat (cases h with | head => rfl | tail _ h => ?_))
  exact nomatch h

/-- What operations 168 to 194 leave, run from any buffer contents `W` in which the program's two arguments are `x0`, `x1` and the earlier results they read hold their named values: each result a later operation reads holds its named value, and every buffer they do not write is as in `W`. -/
theorem seg8_spec (W : Valuation τ sig (Elt F)) (x0 x1 : (⟨S16384x7x7x30, .f32⟩ : BufTy).Contents (Elt F))
    (h0 : W (Proc.devRef .tc main_arg0) = x0) (h1 : W (Proc.devRef .tc main_arg1) = x1)
    (h_v143 : W (Proc.devRef .tc main_v143) = val_main_v143 (F := F) x0)
    (h_v141 : W (Proc.devRef .tc main_v141) = val_main_v141 (F := F) x0 x1)
    (h_v107 : W (Proc.devRef .tc main_v107) = val_main_v107 (F := F) x0 x1)
    (h_v108 : W (Proc.devRef .tc main_v108) = val_main_v108 (F := F) x0 x1)
    (h_v134 : W (Proc.devRef .tc main_v134) = val_main_v134 (F := F) x0 x1) :
    after seg8 W (Proc.devRef .tc main_v167) = val_main_v167 (F := F) x0 x1
    ∧ after seg8 W (Proc.devRef .tc main_v3) = W (Proc.devRef .tc main_v3)
    ∧ after seg8 W (Proc.devRef .tc main_arg0) = W (Proc.devRef .tc main_arg0)
    ∧ after seg8 W (Proc.devRef .tc main_arg1) = W (Proc.devRef .tc main_arg1) := by
  subst h0 h1
  refine ⟨?_, ?_, ?_, ?_⟩
  · unfold seg8; after_results_simp
    simp only [h_v143, h_v141, h_v107, h_v108, h_v134, val_main_v144, val_main_v145, val_main_v146, val_main_v147, val_main_cst_18, val_main_v148, val_main_v149, val_main_v150, val_main_v151, val_main_v152, val_main_v153, val_main_v154, val_main_v155, val_main_v156, val_main_v157, val_main_cst_19, val_main_v158, val_main_v159, val_main_v160, val_main_v161, val_main_v162, val_main_v163, val_main_v164, val_main_cst_20, val_main_v165, val_main_v166, val_main_v167] <;> rfl
  · unfold seg8; after_results_simp
  · unfold seg8; after_results_simp
  · unfold seg8; after_results_simp

/-- Operations 195 to 209 of the program (those writing `main_v168` … `main_v179`), in order. -/
def seg9 : List (HloOp τ sig (Elt F)) :=
  [ unary main_arg0 main_v168 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v168 main_v169 rfl shapeCasts_S16384x7x7x1_S16384x7x7,
    binary main_v169 main_v169 main_v170 (mulf : (⟨S16384x7x7, .f32⟩ : BufTy).Contents (Elt F) → (⟨S16384x7x7, .f32⟩ : BufTy).Contents (Elt F) → (⟨S16384x7x7, .f32⟩ : BufTy).Contents (Elt F)),
    unary main_arg0 main_v171 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v171 main_v172 rfl shapeCasts_S16384x7x7x1_S16384x7x7,
    binary main_v172 main_v172 main_v173 (mulf : (⟨S16384x7x7, .f32⟩ : BufTy).Contents (Elt F) → (⟨S16384x7x7, .f32⟩ : BufTy).Contents (Elt F) → (⟨S16384x7x7, .f32⟩ : BufTy).Contents (Elt F)),
    binary main_v170 main_v173 main_v174 (addf : (⟨S16384x7x7, .f32⟩ : BufTy).Contents (Elt F) → (⟨S16384x7x7, .f32⟩ : BufTy).Contents (Elt F) → (⟨S16384x7x7, .f32⟩ : BufTy).Contents (Elt F)),
    nullary main_cst_21 (constant S_ .f32 0x3F000000#32),
    unary main_cst_21 main_v175 (broadcastInDim S16384x7x7 ![] bcast_S_S16384x7x7 : (⟨S_, .f32⟩ : BufTy).Contents (Elt F) → (⟨S16384x7x7, .f32⟩ : BufTy).Contents (Elt F)),
    binary main_v175 main_v174 main_v176 (mulf : (⟨S16384x7x7, .f32⟩ : BufTy).Contents (Elt F) → (⟨S16384x7x7, .f32⟩ : BufTy).Contents (Elt F) → (⟨S16384x7x7, .f32⟩ : BufTy).Contents (Elt F)),
    TRef.ternary (TRef.of (T := ⟨S16384x7x7, .i1⟩) main_v3) (TRef.of (T := ⟨S16384x7x7, .f32⟩) main_v167) (TRef.of (T := ⟨S16384x7x7, .f32⟩) main_v176) (TRef.of (T := ⟨S16384x7x7, .f32⟩) main_v177) select,
    nullary main_cst_22 (constant S_ .f32 0x00000000#32),
    binary main_v177 main_cst_22 main_v178 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_23 (constant S_ .f32 0x46800000#32),
    binary main_v178 main_cst_23 main_v179 (Host.divf : (⟨S_, .f32⟩ : BufTy).Contents (Elt F) → (⟨S_, .f32⟩ : BufTy).Contents (Elt F) → (⟨S_, .f32⟩ : BufTy).Contents (Elt F)) ]

/-- Each operation of stretch 9 touches TensorCore buffers only. -/
theorem seg9_sub : (seg9 : List (HloOp τ sig (Elt F))).Forall fun op => op.bufs ⊆ tcRefs τ sig := by
  unfold seg9
  exact ⟨unary_bufs_sub .., reshape_bufs_sub .., binary_bufs_sub .., unary_bufs_sub .., reshape_bufs_sub .., binary_bufs_sub .., binary_bufs_sub .., nullary_bufs_sub .., unary_bufs_sub .., binary_bufs_sub .., ternary_bufs_sub .., nullary_bufs_sub .., binary_bufs_sub .., nullary_bufs_sub .., binary_bufs_sub ..⟩
/-- None of them allocates a buffer. -/
theorem seg9_fresh : ∀ op ∈ (seg9 : List (HloOp τ sig (Elt F))), op.fresh = ∅ := by
  intro _ h
  unfold seg9 at h
  (repeat (cases h with | head => rfl | tail _ h => ?_))
  exact nomatch h

/-- What operations 195 to 209 leave, run from any buffer contents `W` in which the program's two arguments are `x0`, `x1` and the earlier results they read hold their named values: each result a later operation reads holds its named value, and every buffer they do not write is as in `W`. -/
theorem seg9_spec (W : Valuation τ sig (Elt F)) (x0 x1 : (⟨S16384x7x7x30, .f32⟩ : BufTy).Contents (Elt F))
    (h0 : W (Proc.devRef .tc main_arg0) = x0) (h1 : W (Proc.devRef .tc main_arg1) = x1)
    (h_v3 : W (Proc.devRef .tc main_v3) = val_main_v3 (F := F) x1)
    (h_v167 : W (Proc.devRef .tc main_v167) = val_main_v167 (F := F) x0 x1) :
    after seg9 W (Proc.devRef .tc main_v179) = val_main_v179 (F := F) x0 x1
    ∧ after seg9 W (Proc.devRef .tc main_arg0) = W (Proc.devRef .tc main_arg0)
    ∧ after seg9 W (Proc.devRef .tc main_arg1) = W (Proc.devRef .tc main_arg1) := by
  subst h0 h1
  refine ⟨?_, ?_, ?_⟩
  · unfold seg9; after_results_simp
    simp only [h_v3, h_v167, val_main_v168, val_main_v169, val_main_v170, val_main_v171, val_main_v172, val_main_v173, val_main_v174, val_main_cst_21, val_main_v175, val_main_v176, val_main_v177, val_main_cst_22, val_main_v178, val_main_cst_23, val_main_v179] <;> rfl
  · unfold seg9; after_results_simp
  · unfold seg9; after_results_simp

end Cert.ReferenceIdeal.HandRun

end
-- ==== Proof.RefRun.lean ====
/-
  The reference program run as a straight line of host operations: after the whole line, the result buffer holds the
  last of the program's named values (one per operation, each the operation applied to the named values of the
  operations it reads) at the two arguments' launch contents, and the arguments are unchanged.  The line is cut into
  consecutive stretches; each stretch, run from ANY buffer contents holding the named values it reads, leaves the named
  values of the results read after it and touches no other buffer; the stretches are then chained.
-/
import proofs.«118652_j81767587381937_2_alg».proof.Proof.RefRunA
import proofs.«118652_j81767587381937_2_alg».proof.Proof.RefRunB

noncomputable section

namespace Cert.ReferenceIdeal.HandRun

open Cert.ReferenceIdeal Cert.ReferenceIdeal.Gen Cert.ReferenceIdeal.Vals Idealize.ShloMosaic Idealize.ShloMosaic.TcCoe Idealize.SL.Sem Idealize.ShloMosaic.StableHlo

variable {F : FTy → Type} [FloatOps F]

/-- Running two lines one after the other: the contents after the first are what the second starts from. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The program's 209 operations, in order: the nine stretches one after the other. -/
abbrev ops : List (HloOp τ sig (Elt F)) :=
  seg1 ++ (seg2 ++ (seg3 ++ (seg4 ++ (seg5 ++ (seg6 ++ (seg7 ++ (seg8 ++ seg9)))))))

set_option maxRecDepth 8192 in
set_option maxHeartbeats 4000000 in
/-- The program is that line of operations run in order. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- An operation of the line is an operation of one of the nine stretches. -/
theorem mem_ops {op : HloOp τ sig (Elt F)} (h : op ∈ (ops : List (HloOp τ sig (Elt F)))) :
    op ∈ (seg1 : List (HloOp τ sig (Elt F))) ∨ op ∈ (seg2 : List (HloOp τ sig (Elt F))) ∨ op ∈ (seg3 : List (HloOp τ sig (Elt F)))
    ∨ op ∈ (seg4 : List (HloOp τ sig (Elt F))) ∨ op ∈ (seg5 : List (HloOp τ sig (Elt F))) ∨ op ∈ (seg6 : List (HloOp τ sig (Elt F)))
    ∨ op ∈ (seg7 : List (HloOp τ sig (Elt F))) ∨ op ∈ (seg8 : List (HloOp τ sig (Elt F))) ∨ op ∈ (seg9 : List (HloOp τ sig (Elt F))) := by
  simpa only [ops, List.mem_append] using h

/-- Each operation of the line touches TensorCore buffers only. -/
theorem ops_sub : (ops : List (HloOp τ sig (Elt F))).Forall fun op => op.bufs ⊆ tcRefs τ sig :=
  List.forall_iff_forall_mem.mpr fun op h => by
    rcases mem_ops h with h | h | h | h | h | h | h | h | h
    · exact List.forall_iff_forall_mem.mp seg1_sub op h
    · exact List.forall_iff_forall_mem.mp seg2_sub op h
    · exact List.forall_iff_forall_mem.mp seg3_sub op h
    · exact List.forall_iff_forall_mem.mp seg4_sub op h
    · exact List.forall_iff_forall_mem.mp seg5_sub op h
    · exact List.forall_iff_forall_mem.mp seg6_sub op h
    · exact List.forall_iff_forall_mem.mp seg7_sub op h
    · exact List.forall_iff_forall_mem.mp seg8_sub op h
    · exact List.forall_iff_forall_mem.mp seg9_sub op h

/-- None of them allocates a buffer. -/
theorem ops_fresh : ∀ op ∈ (ops : List (HloOp τ sig (Elt F))), op.fresh = ∅ := fun op h => by
  rcases mem_ops h with h | h | h | h | h | h | h | h | h
  · exact seg1_fresh op h
  · exact seg2_fresh op h
  · exact seg3_fresh op h
  · exact seg4_fresh op h
  · exact seg5_fresh op h
  · exact seg6_fresh op h
  · exact seg7_fresh op h
  · exact seg8_fresh op h
  · exact seg9_fresh op h

/-- The buffer contents after the first `k` stretches, from contents `V`. -/
abbrev at1 (V : Valuation τ sig (Elt F)) : Valuation τ sig (Elt F) := after seg1 V
abbrev at2 (V : Valuation τ sig (Elt F)) : Valuation τ sig (Elt F) := after seg2 (at1 V)
abbrev at3 (V : Valuation τ sig (Elt F)) : Valuation τ sig (Elt F) := after seg3 (at2 V)
abbrev at4 (V : Valuation τ sig (Elt F)) : Valuation τ sig (Elt F) := after seg4 (at3 V)
abbrev at5 (V : Valuation τ sig (Elt F)) : Valuation τ sig (Elt F) := after seg5 (at4 V)
abbrev at6 (V : Valuation τ sig (Elt F)) : Valuation τ sig (Elt F) := after seg6 (at5 V)
abbrev at7 (V : Valuation τ sig (Elt F)) : Valuation τ sig (Elt F) := after seg7 (at6 V)
abbrev at8 (V : Valuation τ sig (Elt F)) : Valuation τ sig (Elt F) := after seg8 (at7 V)
abbrev at9 (V : Valuation τ sig (Elt F)) : Valuation τ sig (Elt F) := after seg9 (at8 V)

/-- Running the whole line is running the nine stretches one after the other. -/
theorem after_ops_eq (V : Valuation τ sig (Elt F)) : after ops V = at9 V := by
  simp only [ops, after_append]

/-- THE WHOLE LINE, from any buffer contents `V`: the result buffer ends at the program's last named value of the two
    arguments as `V` holds them, and the two arguments are as in `V`.  Stretch by stretch: each starts from contents holding
    the named values it reads (by the stretches before it) and leaves the named values read after it. -/
theorem after_ops (V : Valuation τ sig (Elt F)) :
    after ops V (Proc.devRef .tc main_v179) = val_main_v179 (F := F) (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  rw [after_ops_eq]
  obtain ⟨o1_v3, o1_v17, k1_arg0, k1_arg1⟩ :=
    seg1_spec V (V (Proc.devRef .tc main_arg0)) (V (Proc.devRef .tc main_arg1)) rfl rfl
  obtain ⟨o2_v18, o2_v23, o2_v33, o2_v39, k2_v3, k2_v17, k2_arg0, k2_arg1⟩ :=
    seg2_spec (at1 V) (V (Proc.devRef .tc main_arg0)) (V (Proc.devRef .tc main_arg1)) k1_arg0 k1_arg1 o1_v17
  have f2_v3 := k2_v3.trans o1_v3
  have f2_v17 := k2_v17.trans o1_v17
  have f2_arg0 := k2_arg0.trans k1_arg0
  have f2_arg1 := k2_arg1.trans k1_arg1
  obtain ⟨o3_v62, k3_v3, k3_v17, k3_arg0, k3_arg1⟩ :=
    seg3_spec (at2 V) (V (Proc.devRef .tc main_arg0)) (V (Proc.devRef .tc main_arg1)) f2_arg0 f2_arg1 o2_v23 o2_v33 o2_v39 o2_v18 f2_v17
  have f3_v3 := k3_v3.trans f2_v3
  have f3_v17 := k3_v17.trans f2_v17
  have f3_arg0 := k3_arg0.trans f2_arg0
  have f3_arg1 := k3_arg1.trans f2_arg1
  obtain ⟨o4_v63, o4_v87, k4_v3, k4_v17, k4_v62, k4_arg0, k4_arg1⟩ :=
    seg4_spec (at3 V) (V (Proc.devRef .tc main_arg0)) (V (Proc.devRef .tc main_arg1)) f3_arg0 f3_arg1 f3_v17
  have f4_v3 := k4_v3.trans f3_v3
  have f4_v17 := k4_v17.trans f3_v17
  have f4_v62 := k4_v62.trans o3_v62
  have f4_arg0 := k4_arg0.trans f3_arg0
  have f4_arg1 := k4_arg1.trans f3_arg1
  obtain ⟨o5_v107, o5_v108, k5_v3, k5_v62, k5_arg0, k5_arg1⟩ :=
    seg5_spec (at4 V) (V (Proc.devRef .tc main_arg0)) (V (Proc.devRef .tc main_arg1)) f4_arg0 f4_arg1 o4_v87 o4_v63 f4_v17 f4_v62
  have f5_v3 := k5_v3.trans f4_v3
  have f5_v62 := k5_v62.trans f4_v62
  have f5_arg0 := k5_arg0.trans f4_arg0
  have f5_arg1 := k5_arg1.trans f4_arg1
  obtain ⟨o6_v134, k6_v3, k6_v107, k6_v108, k6_arg0, k6_arg1⟩ :=
    seg6_spec (at5 V) (V (Proc.devRef .tc main_arg0)) (V (Proc.devRef .tc main_arg1)) f5_arg0 f5_arg1 f5_v62
  have f6_v3 := k6_v3.trans f5_v3
  have f6_v107 := k6_v107.trans o5_v107
  have f6_v108 := k6_v108.trans o5_v108
  have f6_arg0 := k6_arg0.trans f5_arg0
  have f6_arg1 := k6_arg1.trans f5_arg1
  obtain ⟨o7_v141, o7_v143, k7_v3, k7_v107, k7_v108, k7_v134, k7_arg0, k7_arg1⟩ :=
    seg7_spec (at6 V) (V (Proc.devRef .tc main_arg0)) (V (Proc.devRef .tc main_arg1)) f6_arg0 f6_arg1
  have f7_v3 := k7_v3.trans f6_v3
  have f7_v107 := k7_v107.trans f6_v107
  have f7_v108 := k7_v108.trans f6_v108
  have f7_v134 := k7_v134.trans o6_v134
  have f7_arg0 := k7_arg0.trans f6_arg0
  have f7_arg1 := k7_arg1.trans f6_arg1
  obtain ⟨o8_v167, k8_v3, k8_arg0, k8_arg1⟩ :=
    seg8_spec (at7 V) (V (Proc.devRef .tc main_arg0)) (V (Proc.devRef .tc main_arg1)) f7_arg0 f7_arg1 o7_v143 o7_v141 f7_v107 f7_v108 f7_v134
  have f8_v3 := k8_v3.trans f7_v3
  have f8_arg0 := k8_arg0.trans f7_arg0
  have f8_arg1 := k8_arg1.trans f7_arg1
  obtain ⟨o9_v179, k9_arg0, k9_arg1⟩ :=
    seg9_spec (at8 V) (V (Proc.devRef .tc main_arg0)) (V (Proc.devRef .tc main_arg1)) f8_arg0 f8_arg1 f8_v3 o8_v167
  have f9_arg0 := k9_arg0.trans f8_arg0
  have f9_arg1 := k9_arg1.trans f8_arg1
  exact ⟨o9_v179, f9_arg0, f9_arg1⟩

/-- On every device, for any float values, from any memory with zero counters: every weakly fair execution of the
    program terminates with its result buffer at the last named value of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v179) = val_main_v179 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v179).trans (after_ops (launchContents m c)).1,
      (h c main_arg0).trans (after_ops (launchContents m c)).2.1,
      (h c main_arg1).trans (after_ops (launchContents m c)).2.2⟩)
    (run_seq scopedRefs_eq scopedSems_eq defs main (fun _ => ops) main_eq (fun _ => ops_sub) m ρ (fun _ => ops_fresh))

end Cert.ReferenceIdeal.HandRun

end
-- ==== Proof.Assembly.lean ====
/-
  The two programs compute one number.  The kernel walks the 16384 samples in 128 blocks of 128 rows, two groups of 64
  blocks; at each block it adds the sum of the block's 128·7·7 cell losses to a running total (one total per group), and
  after the walk the host adds the two totals and divides by 16384.  The reference sums the cell losses of all
  16384·7·7 cells at once and divides by 16384.  A block's cell losses are the reference's cell losses on the block's
  rows (the row-block lemmas), a sum over all rows is the sum over the blocks of the sums over each block's rows, and
  sums of extended reals may be regrouped freely (addition is commutative and associative there, infinities
  included), so no finiteness of the inputs is needed.
-/
import proofs.«118652_j81767587381937_2_alg».proof.Defs
import proofs.«118652_j81767587381937_2_alg».proof.Proof.Gen.Kernel.Frame
import proofs.«118652_j81767587381937_2_alg».proof.Proof.Gen.Pre_finite_inputs
import proofs.«118652_j81767587381937_2_alg».proof.Proof.BlockLoss
import proofs.«118652_j81767587381937_2_alg».proof.Proof.LibBlockSums
import proofs.«118652_j81767587381937_2_alg».proof.Proof.BlockReads
import proofs.«118652_j81767587381937_2_alg».proof.Proof.KernelRun
import proofs.«118652_j81767587381937_2_alg».proof.Proof.RefRun

noncomputable section

open Idealize.ShloMosaic Idealize.ShloMosaic.TcCoe Idealize.SL.Sem

namespace Cert.Bridge

open Idealize.ShloMosaic.ValueIdx Cert.LibRows
open Cert.KernelIdeal Cert.KernelIdeal.Gen Cert.KernelIdeal.Loss
open Cert.ReferenceIdeal.Vals

/-- The sum of the reference's cell losses over the rows `128·n … 128·n + 127`; zero past the last block. -/
def blockSum (x0 x1 : (⟨Cert.ReferenceIdeal.S16384x7x7x30, .f32⟩ : BufTy).Contents (Elt Ideal)) (n : Nat) : EReal :=
  if h : n < 128 then
    ∑ j' : (⟨3, ![128, 7, 7]⟩ : Shape).Idx,
      rows3 (α := Ideal .f32) 128 n (by omega) (val_main_v177 (F := Ideal) x0 x1) j'
  else 0

/-- The axis-by-axis sum of a block is the sum over its cells. -/
theorem sumChain_eq (X : FVec Ideal S128x7x7 .f32) : sumChain X = fun _ => ∑ j : (⟨3, ![128, 7, 7]⟩ : Shape).Idx, X j := by
  unfold sumChain
  exact Cert.LibBlockSums.sum_axis_by_axis X _ _ _ _ _ _ _ _ _ _ _ _

/-- One grid step adds the block's share of the reference's cell losses to the running total. -/
theorem step_law (m : (ℓ : Loc nD τ sig) → Buf (Elt Ideal) ℓ) (c : Dev nD) (t : Fin cfg0.N) (acc : Vec Ideal S1x1x1 .f32) :
    blkPay (iblk m c 0 t) (iblk m c 1 t) (iblk m c 2 t) acc
      = fun j => acc j + blockSum (m ((c.tc : Thread nD τ).loc main_arg0)) (m ((c.tc : Thread nD τ).loc main_arg1)) t.val := by
  have ht : 128 * t.val + 128 ≤ 16384 := Cert.KernelIdeal.BlockReads.rows_le t
  have hlt : t.val < 128 := lt_of_lt_of_eq t.isLt N_0
  have h1 : blkPay (iblk m c 0 t) (iblk m c 1 t) (iblk m c 2 t) acc
      = blkPay (rows4 (α := Ideal .f32) 128 t.val ht (m ((c.tc : Thread nD τ).loc main_arg0)))
          (rows4 (α := Ideal .f32) 128 t.val ht (m ((c.tc : Thread nD τ).loc main_arg1)))
          (rows3 (α := Ideal .f32) 128 t.val ht (val_main_v6 (F := Ideal) (m ((c.tc : Thread nD τ).loc main_arg1)))) acc := by
    rw [Cert.KernelIdeal.BlockReads.iblk0_eq m c t ht, Cert.KernelIdeal.BlockReads.iblk1_eq m c t ht,
      Cert.KernelIdeal.BlockReads.iblk2_eq m c t ht]
    rfl
  rw [h1, blkPay_rows ht, sumChain_eq, shapeCast_self]
  funext j
  show acc j + _ = acc j + _
  unfold blockSum
  rw [dif_pos hlt]

/-- The reference's result: the sum of the cell losses over all rows, taken block by block, over 16384. -/
theorem ref_result (x0 x1 : (⟨Cert.ReferenceIdeal.S16384x7x7x30, .f32⟩ : BufTy).Contents (Elt Ideal)) :
    val_main_v179 (F := Ideal) x0 x1
      = fun _ => Ideal.div (∑ h : Fin 2, ∑ s ∈ Finset.range 64, blockSum x0 x1 (64 * h.val + s)) (Ideal.ofBits .f32 0x46800000#32) := by
  funext i
  unfold val_main_v179 val_main_v178 val_main_cst_23 val_main_cst_22
  show Ideal.div (Ideal.hostReduceAdd _ (val_main_v177 (F := Ideal) x0 x1) (Ideal.ofBits .f32 0x00000000#32) i) (Ideal.ofBits .f32 0x46800000#32) = _
  rw [Ideal.hostReduceAdd_total _ (fun b => b.elim0), Ideal.ofBits_zero_f32, zero_add,
    Cert.LibBlockSums.sum_rows3_groups (val_main_v177 (F := Ideal) x0 x1)]
  rfl

end Cert.Bridge

namespace Cert.Proof.Claims

theorem frame_k : Cert.frame_Kernel := fun m ρ _ => Cert.Kernel.Gen.frame m ρ

theorem frame_ki : Cert.frame_KernelIdeal := fun m ρ _ => Cert.KernelIdeal.Gen.frame m ρ

/-- The reference is a straight line of host operations: it runs, and writes neither argument. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote nothing. -/
theorem preserves : Cert.preserves_Kernel_KernelIdeal := trivial

/-- Both programs end at the block-by-block sum of the reference's cell losses over 16384. -/
theorem algebraic : Cert.algebraic_KernelIdeal_ReferenceIdeal := by
  intro m ρ m' ρ' _ hagree
  refine ⟨_, Cert.KernelIdeal.RunValue.run m ρ
    (fun c n => Cert.Bridge.blockSum (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) n)
    (Cert.Bridge.step_law m), ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  exact Cert.Bridge.ref_result _ _

end Cert.Proof.Claims

end
-- ==== Proof.lean ====
/-
  The certificate of the detection-loss kernel against its reference: the mean over 16384 samples of a per-cell loss
  summed over a 7·7 grid of cells.  The three frames: the kernel and its idealization by the generated frame proofs, the
  reference as a straight line of host operations.  The ideal pass rewrote nothing.  The two idealized programs end at
  one extended real: Proof/Assembly.lean, over the row-block lemmas (Proof/LibRows*.lean, Proof/BlockLoss.lean), the
  block sums (Proof/LibBlockSums.lean), the kernel's run read off its frame (Proof/Kernel*.lean) and the reference's run
  (Proof/RefVals.lean, Proof/RefRun.lean).
-/
import proofs.«118652_j81767587381937_2_alg».proof.Defs
import proofs.«118652_j81767587381937_2_alg».proof.Proof.Gen.Kernel
import proofs.«118652_j81767587381937_2_alg».proof.Proof.Gen.KernelIdeal
import proofs.«118652_j81767587381937_2_alg».proof.Proof.Gen.ReferenceIdeal
import proofs.«118652_j81767587381937_2_alg».proof.Proof.Gen.Pre_finite_inputs
import proofs.«118652_j81767587381937_2_alg».proof.Proof.Assembly

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
